-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2 : Shape := ⟨3, ![4, 4096, 2]⟩
abbrev S_ : Shape := ⟨0, ![]⟩

class Facts : Prop where
  bcast_S_S4x4096x2 : S_.BroadcastsInDim S4x4096x2 (![] : Fin 0 → Fin S4x4096x2.rank)
  reducesTo_S4x4096x2_S_d0_1_2 : S4x4096x2.ReducesTo [0, 1, 2] S_
  h_S_ : 0 < S_.numel

variable [Facts]

def fn {F : FTy → Type} [FloatOps F] (main_arg0 : FVec F S4x4096x2 .f32) (main_arg1 : FVec F S4x4096x2 .f32) (main_arg2 : FVec F S4x4096x2 .f32) : IVec S_ 1 :=
  let main_v0 : FVec F S4x4096x2 .f32 := Host.absf main_arg0
  let main_cst : FVec F S_ .f32 := constant S_ .f32 0x7F800000#32
  let main_v1 : FVec F S4x4096x2 .f32 := broadcastInDim S4x4096x2 ![] bcast_S_S4x4096x2 main_cst
  let main_v2 : IVec S4x4096x2 1 := cmpf .olt main_v0 main_v1
  let main_c : IVec S_ 1 := constantI S_ 1 1#1
  let main_v3 : IVec S_ 1 := (fun x v => Host.reduce IntOp.andi x v reducesTo_S4x4096x2_S_d0_1_2 h_S_) main_v2 main_c
  let main_v4 : FVec F S4x4096x2 .f32 := Host.absf main_arg1
  let main_cst_0 : FVec F S_ .f32 := constant S_ .f32 0x7F800000#32
  let main_v5 : FVec F S4x4096x2 .f32 := broadcastInDim S4x4096x2 ![] bcast_S_S4x4096x2 main_cst_0
  let main_v6 : IVec S4x4096x2 1 := cmpf .olt main_v4 main_v5
  let main_c_1 : IVec S_ 1 := constantI S_ 1 1#1
  let main_v7 : IVec S_ 1 := (fun x v => Host.reduce IntOp.andi x v reducesTo_S4x4096x2_S_d0_1_2 h_S_) main_v6 main_c_1
  let main_v8 : IVec S_ 1 := andi main_v3 main_v7
  let main_v9 : FVec F S4x4096x2 .f32 := Host.absf main_arg2
  let main_cst_2 : FVec F S_ .f32 := constant S_ .f32 0x7F800000#32
  let main_v10 : FVec F S4x4096x2 .f32 := broadcastInDim S4x4096x2 ![] bcast_S_S4x4096x2 main_cst_2
  let main_v11 : IVec S4x4096x2 1 := cmpf .olt main_v9 main_v10
  let main_c_3 : IVec S_ 1 := constantI S_ 1 1#1
  let main_v12 : IVec S_ 1 := (fun x v => Host.reduce IntOp.andi x v reducesTo_S4x4096x2_S_d0_1_2 h_S_) main_v11 main_c_3
  let main_v13 : IVec S_ 1 := andi main_v8 main_v12
  main_v13
-- ==== Kernel.lean ====
abbrev S4x4096x2 : Shape := ⟨3, ![4, 4096, 2]⟩
abbrev S1x4x4096x2 : Shape := ⟨4, ![1, 4, 4096, 2]⟩
abbrev S3x4x4096x2 : Shape := ⟨4, ![3, 4, 4096, 2]⟩
abbrev S3x4x1 : Shape := ⟨3, ![3, 4, 1]⟩
abbrev S1x4x512x2 : Shape := ⟨4, ![1, 4, 512, 2]⟩
abbrev S1x4x1 : Shape := ⟨3, ![1, 4, 1]⟩
abbrev S4x512 : Shape := ⟨2, ![4, 512]⟩
abbrev S4x4096 : Shape := ⟨2, ![4, 4096]⟩
abbrev S4x1 : Shape := ⟨2, ![4, 1]⟩
abbrev S4x512x2 : Shape := ⟨3, ![4, 512, 2]⟩
abbrev S4x512x1 : Shape := ⟨3, ![4, 512, 1]⟩
abbrev S4x1x512 : Shape := ⟨3, ![4, 1, 512]⟩
abbrev S4x512x512 : Shape := ⟨3, ![4, 512, 512]⟩
abbrev S4 : Shape := ⟨1, ![4]⟩
abbrev S3x4 : Shape := ⟨2, ![3, 4]⟩
abbrev S_ : Shape := ⟨0, ![]⟩

abbrev nBuf : Space → Nat
  | .hbm => 24
  | .vmem => 9
  | .smem => 0
  | _ => 0

abbrev bufTy : (tb : Table) → Fin (tcTables nBuf tb) → BufTy
  | .hbm, ⟨0, _⟩ => ⟨S4x4096x2, .f32⟩
  | .hbm, ⟨1, _⟩ => ⟨S4x4096x2, .f32⟩
  | .hbm, ⟨2, _⟩ => ⟨S4x4096x2, .f32⟩
  | .hbm, ⟨3, _⟩ => ⟨S1x4x4096x2, .f32⟩
  | .hbm, ⟨4, _⟩ => ⟨S1x4x4096x2, .f32⟩
  | .hbm, ⟨5, _⟩ => ⟨S1x4x4096x2, .f32⟩
  | .hbm, ⟨6, _⟩ => ⟨S3x4x4096x2, .f32⟩
  | .hbm, ⟨7, _⟩ => ⟨S1x4x4096x2, .f32⟩
  | .hbm, ⟨8, _⟩ => ⟨S1x4x4096x2, .f32⟩
  | .hbm, ⟨9, _⟩ => ⟨S1x4x4096x2, .f32⟩
  | .hbm, ⟨10, _⟩ => ⟨S3x4x4096x2, .f32⟩
  | .hbm, ⟨11, _⟩ => ⟨S3x4x1, .f32⟩
  | .hbm, ⟨12, _⟩ => ⟨S3x4, .f32⟩
  | .hbm, ⟨13, _⟩ => ⟨S_, .f32⟩
  | .hbm, ⟨14, _⟩ => ⟨S3x4, .f32⟩
  | .hbm, ⟨15, _⟩ => ⟨S3x4, .f32⟩
  | .hbm, ⟨16, _⟩ => ⟨S_, .f32⟩
  | .hbm, ⟨17, _⟩ => ⟨S3x4, .f32⟩
  | .hbm, ⟨18, _⟩ => ⟨S3x4, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .local _ .vmem, ⟨0, _⟩ => ⟨S1x4x512x2, .f32⟩
  | .local _ .vmem, ⟨1, _⟩ => ⟨S1x4x512x2, .f32⟩
  | .local _ .vmem, ⟨2, _⟩ => ⟨S1x4x512x2, .f32⟩
  | .local _ .vmem, ⟨3, _⟩ => ⟨S1x4x512x2, .f32⟩
  | .local _ .vmem, ⟨4, _⟩ => ⟨S1x4x1, .f32⟩
  | .local _ .vmem, ⟨5, _⟩ => ⟨S1x4x1, .f32⟩
  | .local _ .vmem, ⟨6, _⟩ => ⟨S4x512, .f32⟩
  | .local _ .vmem, ⟨7, _⟩ => ⟨S4x4096, .f32⟩
  | .local _ .vmem, ⟨8, _⟩ => ⟨S4x1, .f32⟩
  | _, _ => ⟨S4x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 8], ![false, false, false]⟩

def k0_mult1 (i : grid0.Coords) : BitVec 32 :=
  let arg2 : BitVec 32 := BitVec.ofNat 32 (i 2).val
  let c512_i32 : BitVec 32 := 512#32
  let v48 : BitVec 32 := Scalar.muli arg2 c512_i32
  v48
def k0_cond3 (i : grid0.Coords) : BitVec 1 :=
  let arg1 : BitVec 32 := BitVec.ofNat 32 (i 1).val
  let c0_i32_13 : BitVec 32 := 0#32
  let v50 : BitVec 1 := Scalar.cmpi .eq arg1 c0_i32_13
  let v51 : BitVec 32 := Scalar.extui v50
  let c0_i32_14 : BitVec 32 := 0#32
  let v52 : BitVec 1 := Scalar.cmpi .ne v51 c0_i32_14
  v52

def k0_off1 (i : grid0.Coords) : Fin 2 → Nat :=
  let c0_24 : Index := 0#32
  let arg2 : BitVec 32 := BitVec.ofNat 32 (i 2).val
  let c512_i32 : BitVec 32 := 512#32
  let v48 : BitVec 32 := Scalar.muli arg2 c512_i32
  let v49 : BitVec 32 := v48
  let v69 : Index := Scalar.indexCast v49
  ![0, v69.toNat]
def k0_cond4 (i : grid0.Coords) : BitVec 1 :=
  let arg1 : BitVec 32 := BitVec.ofNat 32 (i 1).val
  let c0_i32_15 : BitVec 32 := 0#32
  let v53 : BitVec 1 := Scalar.cmpi .ne arg1 c0_i32_15
  let v54 : BitVec 32 := Scalar.extui v53
  let c0_i32_16 : BitVec 32 := 0#32
  let v55 : BitVec 1 := Scalar.cmpi .ne v54 c0_i32_16
  v55

def k0_off2 (i : grid0.Coords) : Fin 2 → Nat :=
  let c0_24 : Index := 0#32
  let arg2 : BitVec 32 := BitVec.ofNat 32 (i 2).val
  let c512_i32 : BitVec 32 := 512#32
  let v48 : BitVec 32 := Scalar.muli arg2 c512_i32
  let v49 : BitVec 32 := v48
  let v69 : Index := Scalar.indexCast v49
  ![0, v69.toNat]
def k0_cond7 (i : grid0.Coords) : BitVec 1 :=
  let arg1 : BitVec 32 := BitVec.ofNat 32 (i 1).val
  let c7_i32_21 : BitVec 32 := 7#32
  let v64 : BitVec 1 := Scalar.cmpi .eq arg1 c7_i32_21
  let arg2 : BitVec 32 := BitVec.ofNat 32 (i 2).val
  let c7_i32_22 : BitVec 32 := 7#32
  let v65 : BitVec 1 := Scalar.cmpi .eq arg2 c7_i32_22
  let v66 : BitVec 1 := Scalar.andi v64 v65
  let v67 : BitVec 32 := Scalar.extui v66
  let c0_i32_23 : BitVec 32 := 0#32
  let v68 : BitVec 1 := Scalar.cmpi .ne v67 c0_i32_23
  v68

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  bcast_S4x4096x2_S1x4x4096x2_1_2_3 : S4x4096x2.BroadcastsInDim S1x4x4096x2 (![1, 2, 3] : Fin 3 → Fin S1x4x4096x2.rank)
  concatenates_S1x4x4096x2_S1x4x4096x2_S1x4x4096x2_S3x4x4096x2_d0 : Shape.Concatenates [S1x4x4096x2, S1x4x4096x2, S1x4x4096x2] S3x4x4096x2 0
  inb_S1x4x512x2_S1x4x512x2_0_0_0_0 : ∀ a, (![0, 0, 0, 0] : Fin 4 → Nat) a + S1x4x512x2.size a ≤ S1x4x512x2.size a
  h_S1x4x512x2 : 0 < S1x4x512x2.numel
  shapeCasts_S1x4x512x2_S4x512x2 : S1x4x512x2.ShapeCasts S4x512x2
  slices_S4x512x2_o0_0_0_S4x512x1 : S4x512x2.Slices ![0, 0, 0] S4x512x1
  shapeCasts_S4x512x1_S4x512 : S4x512x1.ShapeCasts S4x512
  slices_S4x512x2_o0_0_1_S4x512x1 : S4x512x2.Slices ![0, 0, 1] S4x512x1
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reduces_S4x512x512_S4x512_2 : S4x512x512.Reduces [1] S4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x1_S4x1_0_0 : ∀ a, (![0, 0] : Fin 2 → Nat) a + S4x1.size a ≤ S4x1.size a
  h_S4x1 : 0 < S4x1.numel
  shapeCasts_S4x1_S4x1 : S4x1.ShapeCasts S4x1
  reduces_S4x512_S4 : S4x512.Reduces [1] S4
  shapeCasts_S4_S4x1 : S4.ShapeCasts S4x1
  inb_S4x4096_S4x4096_0_0 : ∀ a, (![0, 0] : Fin 2 → Nat) a + S4x4096.size a ≤ S4x4096.size a
  h_S4x4096 : 0 < S4x4096.numel
  reduces_S4x4096_S4 : S4x4096.Reduces [1] S4
  inb_S1x4x1_S1x4x1_0_0_0 : ∀ a, (![0, 0, 0] : Fin 3 → Nat) a + S1x4x1.size a ≤ S1x4x1.size a
  h_S1x4x1 : 0 < S1x4x1.numel
  shapeCasts_S1x4x1_S4x1 : S1x4x1.ShapeCasts S4x1
  shapeCasts_S4x1_S1x4x1 : S4x1.ShapeCasts S1x4x1
  shapeCasts_S3x4x1_S3x4 : S3x4x1.ShapeCasts S3x4
  bcast_S_S3x4 : S_.BroadcastsInDim S3x4 (![] : Fin 0 → Fin S3x4.rank)
  reducesTo_S3x4_S4_d0 : S3x4.ReducesTo [0] S4
  h_S_ : 0 < S_.numel
  bcast_S_S4 : S_.BroadcastsInDim S4 (![] : Fin 0 → Fin S4.rank)
  hrank0 : 0 < grid0.rank
  k0_mult1_dvd : ∀ i : grid0.Coords, 128 ∣ (k0_mult1 i).toNat
  k0_off1_inb : ∀ i : grid0.Coords, ∀ (k0_h3 : k0_cond3 i = 1#1), ∀ a, (k0_off1 i) a + S4x512.size a ≤ S4x4096.size a
  k0_off2_inb : ∀ i : grid0.Coords, ∀ (k0_h4 : k0_cond4 i = 1#1), ∀ a, (k0_off2 i) a + S4x512.size a ≤ S4x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x2.size a ≤ S3x4x4096x2.size a
  hwx0_0 : ∀ i : grid0.Coords, EltTy.bits .f32 = 32 ∨ (Rect.block (s := S3x4x4096x2) S1x4x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x512x2.size a ≤ S3x4x4096x2.size a
  hwx0_1 : ∀ i : grid0.Coords, EltTy.bits .f32 = 32 ∨ (Rect.block (s := S3x4x4096x2) S1x4x512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1.size a ≤ S3x4x1.size a
  hwx0_2 : ∀ i : grid0.Coords, EltTy.bits .f32 = 32 ∨ (Rect.block (s := S3x4x1) S1x4x1.size (cc0_transform_2 i) (hinb0_2 i)).WholeWords (EltTy.packing .f32)

variable [Facts₀]

abbrev win0_0 : Pipeline.Window sig grid0 :=
  Pipeline.Window.ofSpec (Memref.whole main_v3) S1x4x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x4x512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond7 i == 1#1) | ⟨_ + 3, h⟩ => absurd h (Nat.not_lt.2 (Nat.le_add_left _ _))

class Facts : Prop extends Facts₀ where

variable [Facts]
-- ==== ReferenceIdeal.lean ====
abbrev S4x4096x2 : Shape := ⟨3, ![4, 4096, 2]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 140
  | .vmem => 0
  | .smem => 0
  | _ => 0

abbrev hbmTy0_0 (i : Nat) : BufTy := match i % 128 with
  | 0 => ⟨S4x4096x2, .f32⟩
  | 1 => ⟨S4x4096x2, .f32⟩
  | 2 => ⟨S4x4096x2, .f32⟩
  | 3 => ⟨S4x4096x2, .f32⟩
  | 4 => ⟨S_, .f32⟩
  | 5 => ⟨S4x4096, .f32⟩
  | 6 => ⟨S4x4096x2, .f32⟩
  | 7 => ⟨S_, .f32⟩
  | 8 => ⟨S4x4096, .f32⟩
  | 9 => ⟨S4x4096x4096, .f32⟩
  | 10 => ⟨S4x4096x1, .f32⟩
  | 11 => ⟨S4x1x4096, .f32⟩
  | 12 => ⟨S4x4096x4096, .f32⟩
  | 13 => ⟨S4x4096x4096, .f32⟩
  | 14 => ⟨S4x4096x4096, .f32⟩
  | 15 => ⟨S_, .f32⟩
  | 16 => ⟨S4x4096x4096, .f32⟩
  | 17 => ⟨S4x4096x4096, .f32⟩
  | 18 => ⟨S4x4096x4096, .f32⟩
  | 19 => ⟨S_, .f32⟩
  | 20 => ⟨S4x4096x4096, .f32⟩
  | 21 => ⟨S4x4096x4096, .f32⟩
  | 22 => ⟨S4x4096x4096, .f32⟩
  | 23 => ⟨S_, .f32⟩
  | 24 => ⟨S4x4096, .f32⟩
  | 25 => ⟨S_, .f32⟩
  | 26 => ⟨S4, .f32⟩
  | 27 => ⟨S_, .f32⟩
  | 28 => ⟨S4, .f32⟩
  | 29 => ⟨S4, .f32⟩
  | 30 => ⟨S_, .f32⟩
  | 31 => ⟨S4x4096, .f32⟩
  | 32 => ⟨S_, .f32⟩
  | 33 => ⟨S4, .f32⟩
  | 34 => ⟨S_, .f32⟩
  | 35 => ⟨S4, .f32⟩
  | 36 => ⟨S4, .f32⟩
  | 37 => ⟨S4, .f32⟩
  | 38 => ⟨S_, .f32⟩
  | 39 => ⟨S4, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4x4096x2, .f32⟩
  | 48 => ⟨S_, .f32⟩
  | 49 => ⟨S4x4096, .f32⟩
  | 50 => ⟨S4x4096x2, .f32⟩
  | 51 => ⟨S_, .f32⟩
  | 52 => ⟨S4x4096, .f32⟩
  | 53 => ⟨S4x4096x4096, .f32⟩
  | 54 => ⟨S4x4096x1, .f32⟩
  | 55 => ⟨S4x1x4096, .f32⟩
  | 56 => ⟨S4x4096x4096, .f32⟩
  | 57 => ⟨S4x4096x4096, .f32⟩
  | 58 => ⟨S4x4096x4096, .f32⟩
  | 59 => ⟨S_, .f32⟩
  | 60 => ⟨S4x4096x4096, .f32⟩
  | 61 => ⟨S4x4096x4096, .f32⟩
  | 62 => ⟨S4x4096x4096, .f32⟩
  | 63 => ⟨S_, .f32⟩
  | 64 => ⟨S4x4096x4096, .f32⟩
  | 65 => ⟨S4x4096x4096, .f32⟩
  | 66 => ⟨S4x4096x4096, .f32⟩
  | 67 => ⟨S_, .f32⟩
  | 68 => ⟨S4x4096, .f32⟩
  | 69 => ⟨S_, .f32⟩
  | 70 => ⟨S4, .f32⟩
  | 71 => ⟨S_, .f32⟩
  | 72 => ⟨S4, .f32⟩
  | 73 => ⟨S4, .f32⟩
  | 74 => ⟨S_, .f32⟩
  | 75 => ⟨S4x4096, .f32⟩
  | 76 => ⟨S_, .f32⟩
  | 77 => ⟨S4, .f32⟩
  | 78 => ⟨S_, .f32⟩
  | 79 => ⟨S4, .f32⟩
  | 80 => ⟨S4, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S_, .f32⟩
  | 89 => ⟨S4, .f32⟩
  | 90 => ⟨S4, .f32⟩
  | 91 => ⟨S4x4096x2, .f32⟩
  | 92 => ⟨S_, .f32⟩
  | 93 => ⟨S4x4096, .f32⟩
  | 94 => ⟨S4x4096x2, .f32⟩
  | 95 => ⟨S_, .f32⟩
  | 96 => ⟨S4x4096, .f32⟩
  | 97 => ⟨S4x4096x4096, .f32⟩
  | 98 => ⟨S4x4096x1, .f32⟩
  | 99 => ⟨S4x1x4096, .f32⟩
  | 100 => ⟨S4x4096x4096, .f32⟩
  | 101 => ⟨S4x4096x4096, .f32⟩
  | 102 => ⟨S4x4096x4096, .f32⟩
  | 103 => ⟨S_, .f32⟩
  | 104 => ⟨S4x4096x4096, .f32⟩
  | 105 => ⟨S4x4096x4096, .f32⟩
  | 106 => ⟨S4x4096x4096, .f32⟩
  | 107 => ⟨S_, .f32⟩
  | 108 => ⟨S4x4096x4096, .f32⟩
  | 109 => ⟨S4x4096x4096, .f32⟩
  | 110 => ⟨S4x4096x4096, .f32⟩
  | 111 => ⟨S_, .f32⟩
  | 112 => ⟨S4x4096, .f32⟩
  | 113 => ⟨S_, .f32⟩
  | 114 => ⟨S4, .f32⟩
  | 115 => ⟨S_, .f32⟩
  | 116 => ⟨S4, .f32⟩
  | 117 => ⟨S4, .f32⟩
  | 118 => ⟨S_, .f32⟩
  | 119 => ⟨S4x4096, .f32⟩
  | 120 => ⟨S_, .f32⟩
  | 121 => ⟨S4, .f32⟩
  | 122 => ⟨S_, .f32⟩
  | 123 => ⟨S4, .f32⟩
  | 124 => ⟨S4, .f32⟩
  | 125 => ⟨S4, .f32⟩
  | 126 => ⟨S_, .f32⟩
  | 127 => ⟨S4, .f32⟩
  | _ => ⟨S4x4096x2, .f32⟩

abbrev hbmTy0_1 (i : Nat) : BufTy := match i % 128 with
  | 0 => ⟨S4, .f32⟩
  | 1 => ⟨S_, .f32⟩
  | 2 => ⟨S4, .f32⟩
  | 3 => ⟨S4, .f32⟩
  | 4 => ⟨S_, .f32⟩
  | 5 => ⟨S4, .f32⟩
  | 6 => ⟨S4, .f32⟩
  | 7 => ⟨S4, .f32⟩
  | 8 => ⟨S4, .f32⟩
  | 9 => ⟨S_, .f32⟩
  | 10 => ⟨S4, .f32⟩
  | 11 => ⟨S4, .f32⟩
  | _ => ⟨S4x4096x2, .f32⟩

abbrev hbmTy (i : Nat) : BufTy := match i / 128 with
  | 0 => hbmTy0_0 i
  | 1 => hbmTy0_1 i
  | _ => ⟨S4x4096x2, .f32⟩

abbrev bufTy : (tb : Table) → Fin (tcTables nBuf tb) → BufTy
  | .hbm, ⟨i, _⟩ => hbmTy i
  | _, _ => ⟨S4x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_cst_11 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_12 : Ref sig .tc := ⟨.hbm, 48, rfl⟩
abbrev main_v32 : Ref sig .tc := ⟨.hbm, 49, rfl⟩
abbrev main_v33 : Ref sig .tc := ⟨.hbm, 50, rfl⟩
abbrev main_cst_13 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_15 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_cst_17 : Ref sig .tc := ⟨.hbm, 69, rfl⟩
abbrev main_v48 : Ref sig .tc := ⟨.hbm, 70, rfl⟩
abbrev main_cst_18 : Ref sig .tc := ⟨.hbm, 71, rfl⟩
abbrev main_v49 : Ref sig .tc := ⟨.hbm, 72, rfl⟩
abbrev main_v50 : Ref sig .tc := ⟨.hbm, 73, rfl⟩
abbrev main_cst_19 : Ref sig .tc := ⟨.hbm, 74, rfl⟩
abbrev main_v51 : Ref sig .tc := ⟨.hbm, 75, rfl⟩
abbrev main_cst_20 : Ref sig .tc := ⟨.hbm, 76, rfl⟩
abbrev main_v52 : Ref sig .tc := ⟨.hbm, 77, rfl⟩
abbrev main_cst_21 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_22 : Ref sig .tc := ⟨.hbm, 82, rfl⟩
abbrev main_v56 : Ref sig .tc := ⟨.hbm, 83, rfl⟩
abbrev main_v57 : Ref sig .tc := ⟨.hbm, 84, rfl⟩
abbrev main_cst_23 : Ref sig .tc := ⟨.hbm, 85, rfl⟩
abbrev main_v58 : Ref sig .tc := ⟨.hbm, 86, rfl⟩
abbrev main_v59 : Ref sig .tc := ⟨.hbm, 87, rfl⟩
abbrev main_cst_24 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_25 : Ref sig .tc := ⟨.hbm, 92, rfl⟩
abbrev main_v63 : Ref sig .tc := ⟨.hbm, 93, rfl⟩
abbrev main_v64 : Ref sig .tc := ⟨.hbm, 94, rfl⟩
abbrev main_cst_26 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_27 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_28 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_29 : Ref sig .tc := ⟨.hbm, 111, rfl⟩
abbrev main_v78 : Ref sig .tc := ⟨.hbm, 112, rfl⟩
abbrev main_cst_30 : Ref sig .tc := ⟨.hbm, 113, rfl⟩
abbrev main_v79 : Ref sig .tc := ⟨.hbm, 114, rfl⟩
abbrev main_cst_31 : Ref sig .tc := ⟨.hbm, 115, rfl⟩
abbrev main_v80 : Ref sig .tc := ⟨.hbm, 116, rfl⟩
abbrev main_v81 : Ref sig .tc := ⟨.hbm, 117, rfl⟩
abbrev main_cst_32 : Ref sig .tc := ⟨.hbm, 118, rfl⟩
abbrev main_v82 : Ref sig .tc := ⟨.hbm, 119, rfl⟩
abbrev main_cst_33 : Ref sig .tc := ⟨.hbm, 120, rfl⟩
abbrev main_v83 : Ref sig .tc := ⟨.hbm, 121, rfl⟩
abbrev main_cst_34 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_35 : Ref sig .tc := ⟨.hbm, 126, rfl⟩
abbrev main_v87 : Ref sig .tc := ⟨.hbm, 127, rfl⟩
abbrev main_v88 : Ref sig .tc := ⟨.hbm, 128, rfl⟩
abbrev main_cst_36 : Ref sig .tc := ⟨.hbm, 129, rfl⟩
abbrev main_v89 : Ref sig .tc := ⟨.hbm, 130, rfl⟩
abbrev main_v90 : Ref sig .tc := ⟨.hbm, 131, rfl⟩
abbrev main_cst_37 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_38 : Ref sig .tc := ⟨.hbm, 137, rfl⟩
abbrev main_v95 : Ref sig .tc := ⟨.hbm, 138, rfl⟩
abbrev main_v96 : Ref sig .tc := ⟨.hbm, 139, rfl⟩

abbrev nD : Nat := 1
abbrev τ : Topo := Topo.v7x

variable {F : FTy → Type} [FloatOps F]

class Facts₀ : Prop where
  reducesTo_S4x4096x2_S4x4096_d2 : S4x4096x2.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S4_d1 : S4x4096.ReducesTo [1] S4
  bcast_S_S4 : S_.BroadcastsInDim S4 (![] : Fin 0 → Fin S4.rank)
  reducesTo_S4x4096x4096_S4x4096_d1 : S4x4096x4096.ReducesTo [1] S4x4096
  dot_S4x4096x2_S4x4096x2_S4x4096x4096_2_2_1_1_0_0_wf : DotDims.WF S4x4096x2 S4x4096x2 S4x4096x4096 [2] [2] [1] [1] [0] [0]

variable [Facts₀]

def dot_S4x4096x2_S4x4096x2_S4x4096x4096_2_2_1_1_0_0 : DotDims S4x4096x2 S4x4096x2 S4x4096x4096 where
  lhsContracting := [2]
  rhsContracting := [2]
  lhsNonContracting := [1]
  rhsNonContracting := [1]
  lhsBatch := [0]
  rhsBatch := [0]
  wf := dot_S4x4096x2_S4x4096x2_S4x4096x4096_2_2_1_1_0_0_wf

class Facts : Prop extends Facts₀ where

variable [Facts]
-- ==== Proof.RegionKit.lean ====
/-
  The region and the host operations around it: the arrays as the region finds them (after the two stackings of the
  argument arrays), the blocks the two input windows present at a grid point, where the output window is written back,
  the conditions the body branches on in closed form over the grid, and how the frame statement follows from a run of
  the region.
-/
import proofs.«153843_j48524540510941_1_alg».proof.Proof.Gen.KernelIdeal.Launch
import proofs.«153843_j48524540510941_1_alg».proof.Proof.Gen.KernelIdeal.Skeleton
import proofs.«153843_j48524540510941_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers of core `c` when the region is entered: after the eight host operations that stack the arguments. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the stacking operations, the region, and the twelve operations that turn the region's result into the loss. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes one of the three arrays the region's windows stage. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No stacking operation writes an argument array: the region finds the three arguments as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging and scratch buffers the body is called with -/

abbrev ms0_0 (t : Fin cfg0.N) : Memref sig .tc .vmem S1x4x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x1 .f32 := win0_2.stage (cfg0.slots t 2)
abbrev hs0_2 (t : Fin cfg0.N) : (ms0_2 t).IsWhole := hstage0_2 ((cfg0.slots t 2).cast nbuf0_2)
/-- The three scratch arrays: running row minima, running column minima, running sum of row minima. -/
abbrev scM0 : Memref sig .tc .vmem S4x512 .f32 := Memref.whole cc0_scratch0
abbrev scM1 : Memref sig .tc .vmem S4x4096 .f32 := Memref.whole cc0_scratch1
abbrev scM2 : Memref sig .tc .vmem S4x1 .f32 := Memref.whole cc0_scratch2

/-- What the region may use besides its windows: the three scratch arrays at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.KernelIdeal.Region

end
-- ==== Proof.TileStep.lean ====
/-
  The kernel keeps three arrays between grid points — the running row minima of the current row tile, the running
  column minima of all eight column tiles, and the running sum of finished row minima — and writes one output block
  per pair.  This module states, for any float instance, what one grid point does to those three arrays as a pure
  function of the point's two input blocks, and what the whole sequence of points leaves.
-/
import proofs.«153843_j48524540510941_1_alg».proof.Proof.Gen.KernelIdeal.Skeleton
import Idealize.ShloMosaic.Lib.ValueIdx

noncomputable section

namespace Cert.KernelIdeal.Tile

open Idealize.ShloMosaic Idealize.ShloMosaic.ValueIdx Cert.KernelIdeal Cert.KernelIdeal.Gen

variable {F : FTy → Type} [FloatOps F]

/-- The three arrays carried from one grid point to the next. -/
structure Carry (F : FTy → Type) [FloatOps F] where
  /-- running minimum over the column tiles seen so far, per row of the current row tile -/
  rowMin : Vec F S4x512 .f32
  /-- running minimum over the row tiles seen so far, per column, all 4096 columns -/
  colMin : Vec F S4x4096 .f32
  /-- sum of the finished row minima -/
  rowSum : Vec F S4x1 .f32

/-- Column tile `j` of a [4, 4096] array: columns `512 j … 512 j + 511`. -/
def tileRead (j : Fin 8) (s : Vec F S4x4096 .f32) : Vec F S4x512 .f32 :=
  fun y => s (ix2 (n0 := 4) (n1 := 4096) (y 0) ⟨512 * j.val + (y 1).val, by have h1 : (y 1).val < 512 := (y 1).isLt; have := j.isLt; omega⟩)

/-- A [4, 4096] array with column tile `j` replaced. -/
def tileWrite (j : Fin 8) (v : Vec F S4x512 .f32) (s : Vec F S4x4096 .f32) : Vec F S4x4096 .f32 :=
  fun z => if h : 512 * j.val ≤ (z 1).val ∧ (z 1).val < 512 * j.val + 512
    then v (ix2 (n0 := 4) (n1 := 512) (z 0) ⟨(z 1).val - 512 * j.val, by omega⟩) else s z

/-- One grid point at row tile `i`, column tile `j`, on the point's blocks `x` (rows) and `y` (columns). -/
def step (i j : Fin 8) (x y : Vec F S1x4x512x2 .f32) (c : Carry F) : Carry F :=
  let rm : Vec F S4x512 .f32 := if j.val = 0 then k0_pay1 (k0_pay9 x y) else k0_pay2 (k0_pay9 x y) c.rowMin
  let cm : Vec F S4x4096 .f32 :=
    if i.val = 0 then tileWrite j (k0_pay3 (k0_pay10 x y)) c.colMin
    else tileWrite j (k0_pay4 (k0_pay10 x y) (tileRead j c.colMin)) c.colMin
  let rs0 : Vec F S4x1 .f32 := if i.val = 0 ∧ j.val = 0 then k0_pay5 else c.rowSum
  let rs : Vec F S4x1 .f32 := if j.val = 7 then k0_pay6 rs0 rm else rs0
  ⟨rm, cm, rs⟩

/-- The output block a point stores when it is the last of its pair (`i = j = 7`), from what the point leaves. -/
def outOf (c : Carry F) : Vec F S1x4x1 .f32 := k0_pay7 c.rowSum c.colMin

/-- Block `(p, ·, k, ·)` of a [3, 4, 4096, 2] array: rows `512 k … 512 k + 511` of pair `p`. -/
def blk (A : Vec F S3x4x4096x2 .f32) (p : Fin 3) (k : Fin 8) : Vec F S1x4x512x2 .f32 :=
  fun y => A (ix4 (n0 := 3) (n1 := 4) (n2 := 4096) (n3 := 2) p (y 1) ⟨512 * k.val + (y 2).val, by have h2 : (y 2).val < 512 := (y 2).isLt; have := k.isLt; omega⟩ (y 3))

/-- Grid point `n`'s pair, row tile and column tile: the grid is [3, 8, 8], last axis fastest. -/
def pairOf (n : ℕ) : Fin 3 := ⟨(n / 64) % 3, Nat.mod_lt _ (by decide)⟩
def rowOf (n : ℕ) : Fin 8 := ⟨(n / 8) % 8, Nat.mod_lt _ (by decide)⟩
def colOf (n : ℕ) : Fin 8 := ⟨n % 8, Nat.mod_lt _ (by decide)⟩

/-- What the three arrays hold after grid point `n`, from contents `c0` before the first point. -/
def run (X Y : Vec F S3x4x4096x2 .f32) (c0 : Carry F) : ℕ → Carry F
  | 0 => step (rowOf 0) (colOf 0) (blk X (pairOf 0) (rowOf 0)) (blk Y (pairOf 0) (colOf 0)) c0
  | n + 1 => step (rowOf (n + 1)) (colOf (n + 1)) (blk X (pairOf (n + 1)) (rowOf (n + 1))) (blk Y (pairOf (n + 1)) (colOf (n + 1))) (run X Y c0 n)

end Cert.KernelIdeal.Tile

end
-- ==== Proof.BodyConds.lean ====
import proofs.«153843_j48524540510941_1_alg».proof.Proof.RegionKit
import proofs.«153843_j48524540510941_1_alg».proof.Proof.TileStep
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's seven branch conditions, as the body computes them from the grid coordinates -/

abbrev cond1 (i : grid0.Coords) : Prop := Scalar.cmpi .ne (Scalar.extui (Scalar.cmpi .eq (BitVec.ofNat 32 (i 2).val) 0#32)) 0#32 = 1#1
abbrev cond2 (i : grid0.Coords) : Prop := Scalar.cmpi .ne (Scalar.extui (Scalar.cmpi .ne (BitVec.ofNat 32 (i 2).val) 0#32)) 0#32 = 1#1
abbrev cond3 (i : grid0.Coords) : Prop := k0_cond3 i = 1#1
abbrev cond4 (i : grid0.Coords) : Prop := k0_cond4 i = 1#1
abbrev cond5 (i : grid0.Coords) : Prop := Scalar.cmpi .ne (Scalar.extui (Scalar.andi (Scalar.cmpi .eq (BitVec.ofNat 32 (i 1).val) 0#32) (Scalar.cmpi .eq (BitVec.ofNat 32 (i 2).val) 0#32))) 0#32 = 1#1
abbrev cond6 (i : grid0.Coords) : Prop := Scalar.cmpi .ne (Scalar.extui (Scalar.cmpi .eq (BitVec.ofNat 32 (i 2).val) 7#32)) 0#32 = 1#1
abbrev cond7 (i : grid0.Coords) : Prop := k0_cond7 i = 1#1

/-- Each condition in closed form: decided over the 192 grid points. -/
theorem hcond1 : ∀ i : grid0.Coords, cond1 i ↔ (i 2).val = 0 := by decide +kernel
theorem hcond2 : ∀ i : grid0.Coords, cond2 i ↔ (i 2).val ≠ 0 := by decide +kernel
theorem hcond3 : ∀ i : grid0.Coords, cond3 i ↔ (i 1).val = 0 := by decide +kernel
theorem hcond4 : ∀ i : grid0.Coords, cond4 i ↔ (i 1).val ≠ 0 := by decide +kernel
theorem hcond5 : ∀ i : grid0.Coords, cond5 i ↔ ((i 1).val = 0 ∧ (i 2).val = 0) := by decide +kernel
theorem hcond6 : ∀ i : grid0.Coords, cond6 i ↔ (i 2).val = 7 := by decide +kernel
theorem hcond7 : ∀ i : grid0.Coords, cond7 i ↔ ((i 1).val = 7 ∧ (i 2).val = 7) := by decide +kernel

end Cert.KernelIdeal.Region

end
-- ==== Proof.ScratchIO.lean ====
import proofs.«153843_j48524540510941_1_alg».proof.Proof.RegionKit
import proofs.«153843_j48524540510941_1_alg».proof.Proof.TileStep
import Idealize.ShloMosaic.Lib.WritesUnit
import Idealize.ShloMosaic.Lib.Pipeline.Value
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through whole buffers, read back as plain arrays -/

section Whole

variable {κ : Kind} {sp : Space} {S : Shape} {e : EltTy} {Val : EltTy → Type}

/-- A load of the whole array through a whole buffer holding `X` reads `X`. -/
theorem load_whole (mr : Memref sig κ sp S e) (h : mr.IsWhole) {off : Fin S.rank → ℕ} (hz : off = fun _ => 0)
    (inb : ∀ a, off a + S.size a ≤ S.size a) (X : S.Idx → Val e) :
    View.readAt Val mr.view (Rect.unit off S.size inb).toLoadRect (h.unread X) = X := by
  rw [View.readAt_eq_ld, h.read_unread, View.ld_unit_zero hz]

/-- A store of a whole array through a buffer, read back: the array stored. -/
theorem store_whole (v : View sig κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w := by
  funext y
  exact View.read_writes_cons_unit_of_mem v f inb w [] y y hz (fun a => by rw [Nat.zero_add])

end Whole

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

/-- A load of column tile `j` of the [4, 4096] running-minimum array. -/
theorem load_tile (mr : Memref sig .tc .vmem S4x4096 .f32) (h : mr.IsWhole) (j : Fin 8) {off : Fin 2 → ℕ} (hoff : off = ![0, 512 * j.val])
    (inb : ∀ a, off a + S4x512.size a ≤ S4x4096.size a) (X : Vec F S4x4096 .f32) :
    View.readAt (Elt F) mr.view (Rect.unit (s := S4x4096) off S4x512.size inb).toLoadRect (h.unread X) = tileRead j X := by
  subst hoff
  rw [View.readAt_eq_ld, h.read_unread]
  funext y
  show X ((Rect.unit (s := S4x4096) ![0, 512 * j.val] S4x512.size inb).emb y) = _
  unfold tileRead
  refine congrArg X (funext fun a => Fin.ext ?_)
  match a with
  | ⟨0, _⟩ => show 0 + 1 * (y 0).val = (y 0).val; omega
  | ⟨1, _⟩ => show 512 * j.val + 1 * (y 1).val = 512 * j.val + (y 1).val; omega

/-- A store of column tile `j`, read back: the array with that tile replaced. -/
theorem store_tile (mr : Memref sig .tc .vmem S4x4096 .f32) (h : mr.IsWhole) (j : Fin 8) {off : Fin 2 → ℕ} (hoff : off = ![0, 512 * j.val])
    (inb : ∀ a, off a + S4x512.size a ≤ S4x4096.size a) (w : Vec F S4x512 .f32) (X : Vec F S4x4096 .f32) :
    mr.view.read (Elt F) (mr.view.writes (Elt F) (h.unread X) [(⟨Rect.unit (s := S4x4096) off S4x512.size inb, w⟩ : View.Piece (Elt F) S4x4096 .f32)]) = tileWrite j w X := by
  funext z
  rw [View.read_writes_cons_unit mr.view (h.unread X) inb w [] z hoff]
  unfold tileWrite
  by_cases hz : 512 * j.val ≤ (z 1).val ∧ (z 1).val < 512 * j.val + 512
  · have hall : ∀ a : Fin 2, (![0, 512 * j.val] : Fin 2 → ℕ) a ≤ (z a).val ∧ (z a).val < (![0, 512 * j.val] : Fin 2 → ℕ) a + S4x512.size a := by
      intro a
      match a with
      | ⟨0, _⟩ => exact ⟨Nat.zero_le _, by show (z 0).val < 0 + 4; have : (z 0).val < 4 := (z 0).isLt; omega⟩
      | ⟨1, _⟩ => exact ⟨hz.1, hz.2⟩
    rw [dif_pos hall, dif_pos hz]
    refine congrArg w (funext fun a => Fin.ext ?_)
    match a with
    | ⟨0, _⟩ => show (z 0).val - 0 = (z 0).val; omega
    | ⟨1, _⟩ => rfl
  · have hall : ¬ ∀ a : Fin 2, (![0, 512 * j.val] : Fin 2 → ℕ) a ≤ (z a).val ∧ (z a).val < (![0, 512 * j.val] : Fin 2 → ℕ) a + S4x512.size a := by
      intro hall; exact hz (hall 1)
    rw [dif_neg hall, dif_neg hz, View.writes_nil, h.read_unread]

/-- A load of the whole array right after a store of the whole array reads what was stored. -/
theorem load_stored_whole {κ : Kind} {sp : Space} {S : Shape} {e : EltTy} {Val : EltTy → Type} (v : View sig κ sp S e) (f : v.ty.Contents Val)
    {off off' : Fin S.rank → ℕ} (hz : off = fun _ => 0) (hz' : off' = fun _ => 0)
    (inb : ∀ a, off a + S.size a ≤ S.size a) (inb' : ∀ a, off' a + S.size a ≤ S.size a) (w : S.Idx → Val e) :
    View.readAt Val v (Rect.unit off S.size inb).toLoadRect (v.writes Val f [(⟨Rect.unit off' S.size inb', w⟩ : View.Piece Val S e)]) = w := by
  rw [View.readAt_eq_ld, store_whole v f hz', View.ld_unit_zero hz]

/-- A load of the whole [4, 4096] array right after a store of column tile `j`: the array with that tile replaced. -/
theorem load_whole_stored_tile (mr : Memref sig .tc .vmem S4x4096 .f32) (h : mr.IsWhole) (j : Fin 8) {off off' : Fin 2 → ℕ} (hz : off = fun _ => 0)
    (hoff : off' = ![0, 512 * j.val]) (inb : ∀ a, off a + S4x4096.size a ≤ S4x4096.size a)
    (inb' : ∀ a, off' a + S4x512.size a ≤ S4x4096.size a) (w : Vec F S4x512 .f32) (X : Vec F S4x4096 .f32) :
    View.readAt (Elt F) mr.view (Rect.unit (s := S4x4096) off S4x4096.size inb).toLoadRect
      (mr.view.writes (Elt F) (h.unread X) [(⟨Rect.unit (s := S4x4096) off' S4x512.size inb', w⟩ : View.Piece (Elt F) S4x4096 .f32)]) = tileWrite j w X := by
  rw [View.readAt_eq_ld, store_tile mr h j hoff, View.ld_unit_zero hz]

end Cert.KernelIdeal.Region

end
-- ==== Proof.BodyA.lean ====
import proofs.«153843_j48524540510941_1_alg».proof.Proof.BodyConds
import proofs.«153843_j48524540510941_1_alg».proof.Proof.ScratchIO
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_A (c : Dev nD) (i : grid0.Coords) (ii jj : Fin 8) (hii : ii.val = (i 1).val) (hjj : jj.val = (i 2).val) (hi : ii.val = 0) (hj : jj.val = 0)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : (jj.val = 0) := by omega
  have p3 : (ii.val = 0) := by omega
  have p5 : (ii.val = 0 ∧ jj.val = 0) := by omega
  have p6 : ¬(jj.val = 7) := by omega
  have p7 : ¬(ii.val = 7 ∧ jj.val = 7) := by omega
  have hc1 : cond1 i := (hcond1 i).mpr (by omega)
  have hc2 : ¬cond2 i := fun h => by have := (hcond2 i).mp h; omega
  have hc3 : cond3 i := (hcond3 i).mpr (by omega)
  have hc4 : ¬cond4 i := fun h => by have := (hcond4 i).mp h; omega
  have hc5 : cond5 i := (hcond5 i).mpr (by omega)
  have hc6 : ¬cond6 i := fun h => by have := (hcond6 i).mp h; omega
  have hc7 : ¬cond7 i := fun h => by have := (hcond7 i).mp h; omega
  have e0 : (step ii jj x y ⟨s0, s1, s2⟩).rowMin = k0_pay1 (k0_pay9 x y) := by simp only [step, if_pos p1]
  have e1 : (step ii jj x y ⟨s0, s1, s2⟩).colMin = tileWrite jj (k0_pay3 (k0_pay10 x y)) s1 := by simp only [step, if_pos p3]
  have e2 : (step ii jj x y ⟨s0, s1, s2⟩).rowSum = k0_pay5 := by simp only [step, if_pos p1, if_pos p5, if_neg p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4]
  isplitl [G1]
  · iexists _; isplitr
    swap; · iexact G1
    ipureintro
    sl_unfold_run_names; rw [store_tile scM1 _ jj hoff1, load_whole (S := S1x4x512x2) arg3 harg3 z4, load_whole (S := S1x4x512x2) arg4 harg4 z4]
  iexists _; isplitr
  swap; · iexact G2
  ipureintro
  rw [store_whole (S := S4x1) _ _ z2]

end Cert.KernelIdeal.Region

end
-- ==== Proof.BodyB.lean ====
import proofs.«153843_j48524540510941_1_alg».proof.Proof.BodyConds
import proofs.«153843_j48524540510941_1_alg».proof.Proof.ScratchIO
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_B (c : Dev nD) (i : grid0.Coords) (ii jj : Fin 8) (hii : ii.val = (i 1).val) (hjj : jj.val = (i 2).val) (hi : ii.val = 0) (hj0 : jj.val ≠ 0) (hj7 : jj.val ≠ 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : (ii.val = 0) := by omega
  have p5 : ¬(ii.val = 0 ∧ jj.val = 0) := by omega
  have p6 : ¬(jj.val = 7) := by omega
  have p7 : ¬(ii.val = 7 ∧ jj.val = 7) := by omega
  have hc1 : ¬cond1 i := fun h => by have := (hcond1 i).mp h; omega
  have hc2 : cond2 i := (hcond2 i).mpr (by omega)
  have hc3 : cond3 i := (hcond3 i).mpr (by omega)
  have hc4 : ¬cond4 i := fun h => by have := (hcond4 i).mp h; omega
  have hc5 : ¬cond5 i := fun h => by have := (hcond5 i).mp h; omega
  have hc6 : ¬cond6 i := fun h => by have := (hcond6 i).mp h; omega
  have hc7 : ¬cond7 i := fun h => by have := (hcond7 i).mp h; omega
  have e0 : (step ii jj x y ⟨s0, s1, s2⟩).rowMin = k0_pay2 (k0_pay9 x y) s0 := by simp only [step, if_neg p1]
  have e1 : (step ii jj x y ⟨s0, s1, s2⟩).colMin = tileWrite jj (k0_pay3 (k0_pay10 x y)) s1 := by simp only [step, if_pos p3]
  have e2 : (step ii jj x y ⟨s0, s1, s2⟩).rowSum = s2 := by simp only [step, if_neg p1, if_neg p5, if_neg p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff1, load_whole (S := S1x4x512x2) arg3 harg3 z4, load_whole (S := S1x4x512x2) arg4 harg4 z4]
  iexists _; isplitr
  swap; · iexact G2
  ipureintro
  exact hg2

end Cert.KernelIdeal.Region

end
-- ==== Proof.BodyC.lean ====
import proofs.«153843_j48524540510941_1_alg».proof.Proof.BodyConds
import proofs.«153843_j48524540510941_1_alg».proof.Proof.ScratchIO
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_C (c : Dev nD) (i : grid0.Coords) (ii jj : Fin 8) (hii : ii.val = (i 1).val) (hjj : jj.val = (i 2).val) (hi : ii.val = 0) (hj : jj.val = 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : (ii.val = 0) := by omega
  have p5 : ¬(ii.val = 0 ∧ jj.val = 0) := by omega
  have p6 : (jj.val = 7) := by omega
  have p7 : ¬(ii.val = 7 ∧ jj.val = 7) := by omega
  have hc1 : ¬cond1 i := fun h => by have := (hcond1 i).mp h; omega
  have hc2 : cond2 i := (hcond2 i).mpr (by omega)
  have hc3 : cond3 i := (hcond3 i).mpr (by omega)
  have hc4 : ¬cond4 i := fun h => by have := (hcond4 i).mp h; omega
  have hc5 : ¬cond5 i := fun h => by have := (hcond5 i).mp h; omega
  have hc6 : cond6 i := (hcond6 i).mpr (by omega)
  have hc7 : ¬cond7 i := fun h => by have := (hcond7 i).mp h; omega
  have e0 : (step ii jj x y ⟨s0, s1, s2⟩).rowMin = k0_pay2 (k0_pay9 x y) s0 := by simp only [step, if_neg p1]
  have e1 : (step ii jj x y ⟨s0, s1, s2⟩).colMin = tileWrite jj (k0_pay3 (k0_pay10 x y)) s1 := by simp only [step, if_pos p3]
  have e2 : (step ii jj x y ⟨s0, s1, s2⟩).rowSum = k0_pay6 (s2) (k0_pay2 (k0_pay9 x y) s0) := by simp only [step, if_neg p1, if_neg p5, if_pos p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff1, load_whole (S := S1x4x512x2) arg3 harg3 z4, load_whole (S := S1x4x512x2) arg4 harg4 z4]
  iexists _; isplitr
  swap; · iexact G2
  ipureintro
  sl_unfold_run_names; rw [store_whole (S := S4x1) _ _ z2, load_whole (S := S4x1) scM2 _ z2, View.readCov_cons_toLoadRect, load_whole (S := S1x4x512x2) arg3 harg3 z4, load_whole (S := S1x4x512x2) arg4 harg4 z4, load_whole (S := S4x512) scM0 _ z2]

end Cert.KernelIdeal.Region

end
-- ==== Proof.BodyD.lean ====
import proofs.«153843_j48524540510941_1_alg».proof.Proof.BodyConds
import proofs.«153843_j48524540510941_1_alg».proof.Proof.ScratchIO
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_D (c : Dev nD) (i : grid0.Coords) (ii jj : Fin 8) (hii : ii.val = (i 1).val) (hjj : jj.val = (i 2).val) (hi : ii.val ≠ 0) (hj : jj.val = 0)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : (jj.val = 0) := by omega
  have p3 : ¬(ii.val = 0) := by omega
  have p5 : ¬(ii.val = 0 ∧ jj.val = 0) := by omega
  have p6 : ¬(jj.val = 7) := by omega
  have p7 : ¬(ii.val = 7 ∧ jj.val = 7) := by omega
  have hc1 : cond1 i := (hcond1 i).mpr (by omega)
  have hc2 : ¬cond2 i := fun h => by have := (hcond2 i).mp h; omega
  have hc3 : ¬cond3 i := fun h => by have := (hcond3 i).mp h; omega
  have hc4 : cond4 i := (hcond4 i).mpr (by omega)
  have hc5 : ¬cond5 i := fun h => by have := (hcond5 i).mp h; omega
  have hc6 : ¬cond6 i := fun h => by have := (hcond6 i).mp h; omega
  have hc7 : ¬cond7 i := fun h => by have := (hcond7 i).mp h; omega
  have e0 : (step ii jj x y ⟨s0, s1, s2⟩).rowMin = k0_pay1 (k0_pay9 x y) := by simp only [step, if_pos p1]
  have e1 : (step ii jj x y ⟨s0, s1, s2⟩).colMin = tileWrite jj (k0_pay4 (k0_pay10 x y) (tileRead jj s1)) s1 := by simp only [step, if_neg p3]
  have e2 : (step ii jj x y ⟨s0, s1, s2⟩).rowSum = s2 := by simp only [step, if_pos p1, if_neg p5, if_neg p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4]
  isplitl [G1]
  · iexists _; isplitr
    swap; · iexact G1
    ipureintro
    sl_unfold_run_names; rw [store_tile scM1 _ jj hoff2, load_whole (S := S1x4x512x2) arg3 harg3 z4, load_whole (S := S1x4x512x2) arg4 harg4 z4, load_tile scM1 _ jj hoff2]
  iexists _; isplitr
  swap; · iexact G2
  ipureintro
  exact hg2

end Cert.KernelIdeal.Region

end
-- ==== Proof.BodyE.lean ====
import proofs.«153843_j48524540510941_1_alg».proof.Proof.BodyConds
import proofs.«153843_j48524540510941_1_alg».proof.Proof.ScratchIO
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_E (c : Dev nD) (i : grid0.Coords) (ii jj : Fin 8) (hii : ii.val = (i 1).val) (hjj : jj.val = (i 2).val) (hi : ii.val ≠ 0) (hj0 : jj.val ≠ 0) (hj7 : jj.val ≠ 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : ¬(ii.val = 0) := by omega
  have p5 : ¬(ii.val = 0 ∧ jj.val = 0) := by omega
  have p6 : ¬(jj.val = 7) := by omega
  have p7 : ¬(ii.val = 7 ∧ jj.val = 7) := by omega
  have hc1 : ¬cond1 i := fun h => by have := (hcond1 i).mp h; omega
  have hc2 : cond2 i := (hcond2 i).mpr (by omega)
  have hc3 : ¬cond3 i := fun h => by have := (hcond3 i).mp h; omega
  have hc4 : cond4 i := (hcond4 i).mpr (by omega)
  have hc5 : ¬cond5 i := fun h => by have := (hcond5 i).mp h; omega
  have hc6 : ¬cond6 i := fun h => by have := (hcond6 i).mp h; omega
  have hc7 : ¬cond7 i := fun h => by have := (hcond7 i).mp h; omega
  have e0 : (step ii jj x y ⟨s0, s1, s2⟩).rowMin = k0_pay2 (k0_pay9 x y) s0 := by simp only [step, if_neg p1]
  have e1 : (step ii jj x y ⟨s0, s1, s2⟩).colMin = tileWrite jj (k0_pay4 (k0_pay10 x y) (tileRead jj s1)) s1 := by simp only [step, if_neg p3]
  have e2 : (step ii jj x y ⟨s0, s1, s2⟩).rowSum = s2 := by simp only [step, if_neg p1, if_neg p5, if_neg p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff2, load_whole (S := S1x4x512x2) arg3 harg3 z4, load_whole (S := S1x4x512x2) arg4 harg4 z4, load_tile scM1 _ jj hoff2]
  iexists _; isplitr
  swap; · iexact G2
  ipureintro
  exact hg2

end Cert.KernelIdeal.Region

end
-- ==== Proof.BodyF.lean ====
import proofs.«153843_j48524540510941_1_alg».proof.Proof.BodyConds
import proofs.«153843_j48524540510941_1_alg».proof.Proof.ScratchIO
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_F (c : Dev nD) (i : grid0.Coords) (ii jj : Fin 8) (hii : ii.val = (i 1).val) (hjj : jj.val = (i 2).val) (hi0 : ii.val ≠ 0) (hi7 : ii.val ≠ 7) (hj : jj.val = 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : ¬(ii.val = 0) := by omega
  have p5 : ¬(ii.val = 0 ∧ jj.val = 0) := by omega
  have p6 : (jj.val = 7) := by omega
  have p7 : ¬(ii.val = 7 ∧ jj.val = 7) := by omega
  have hc1 : ¬cond1 i := fun h => by have := (hcond1 i).mp h; omega
  have hc2 : cond2 i := (hcond2 i).mpr (by omega)
  have hc3 : ¬cond3 i := fun h => by have := (hcond3 i).mp h; omega
  have hc4 : cond4 i := (hcond4 i).mpr (by omega)
  have hc5 : ¬cond5 i := fun h => by have := (hcond5 i).mp h; omega
  have hc6 : cond6 i := (hcond6 i).mpr (by omega)
  have hc7 : ¬cond7 i := fun h => by have := (hcond7 i).mp h; omega
  have e0 : (step ii jj x y ⟨s0, s1, s2⟩).rowMin = k0_pay2 (k0_pay9 x y) s0 := by simp only [step, if_neg p1]
  have e1 : (step ii jj x y ⟨s0, s1, s2⟩).colMin = tileWrite jj (k0_pay4 (k0_pay10 x y) (tileRead jj s1)) s1 := by simp only [step, if_neg p3]
  have e2 : (step ii jj x y ⟨s0, s1, s2⟩).rowSum = k0_pay6 (s2) (k0_pay2 (k0_pay9 x y) s0) := by simp only [step, if_neg p1, if_neg p5, if_pos p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff2, load_whole (S := S1x4x512x2) arg3 harg3 z4, load_whole (S := S1x4x512x2) arg4 harg4 z4, load_tile scM1 _ jj hoff2]
  iexists _; isplitr
  swap; · iexact G2
  ipureintro
  sl_unfold_run_names; rw [store_whole (S := S4x1) _ _ z2, load_whole (S := S4x1) scM2 _ z2, View.readCov_cons_toLoadRect, load_whole (S := S1x4x512x2) arg3 harg3 z4, load_whole (S := S1x4x512x2) arg4 harg4 z4, load_whole (S := S4x512) scM0 _ z2]

end Cert.KernelIdeal.Region

end
-- ==== Proof.BodyG.lean ====
import proofs.«153843_j48524540510941_1_alg».proof.Proof.BodyConds
import proofs.«153843_j48524540510941_1_alg».proof.Proof.ScratchIO
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_G (c : Dev nD) (i : grid0.Coords) (ii jj : Fin 8) (hii : ii.val = (i 1).val) (hjj : jj.val = (i 2).val) (hi : ii.val = 7) (hj : jj.val = 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : ¬(ii.val = 0) := by omega
  have p5 : ¬(ii.val = 0 ∧ jj.val = 0) := by omega
  have p6 : (jj.val = 7) := by omega
  have p7 : (ii.val = 7 ∧ jj.val = 7) := by omega
  have hc1 : ¬cond1 i := fun h => by have := (hcond1 i).mp h; omega
  have hc2 : cond2 i := (hcond2 i).mpr (by omega)
  have hc3 : ¬cond3 i := fun h => by have := (hcond3 i).mp h; omega
  have hc4 : cond4 i := (hcond4 i).mpr (by omega)
  have hc5 : ¬cond5 i := fun h => by have := (hcond5 i).mp h; omega
  have hc6 : cond6 i := (hcond6 i).mpr (by omega)
  have hc7 : cond7 i := (hcond7 i).mpr (by omega)
  have e0 : (step ii jj x y ⟨s0, s1, s2⟩).rowMin = k0_pay2 (k0_pay9 x y) s0 := by simp only [step, if_neg p1]
  have e1 : (step ii jj x y ⟨s0, s1, s2⟩).colMin = tileWrite jj (k0_pay4 (k0_pay10 x y) (tileRead jj s1)) s1 := by simp only [step, if_neg p3]
  have e2 : (step ii jj x y ⟨s0, s1, s2⟩).rowSum = k0_pay6 (s2) (k0_pay2 (k0_pay9 x y) s0) := by simp only [step, if_neg p1, if_neg p5, if_pos p6]
  have e3 : (if ii.val = 7 ∧ jj.val = 7 then outOf (step ii jj x y ⟨s0, s1, s2⟩) else o) = k0_pay7 (k0_pay6 (s2) (k0_pay2 (k0_pay9 x y) s0)) (tileWrite jj (k0_pay4 (k0_pay10 x y) (tileRead jj s1)) s1) := by
    rw [if_pos p7]; unfold outOf; rw [e1, e2]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names; rw [store_whole (S := S1x4x1) _ _ z3, View.readCov_cons_toLoadRect, load_whole_stored_tile scM1 _ jj z2 hoff2, load_whole (S := S4x1) scM2 _ z2, View.readCov_cons_toLoadRect, load_whole (S := S1x4x512x2) arg3 harg3 z4, load_whole (S := S1x4x512x2) arg4 harg4 z4, load_whole (S := S4x512) scM0 _ z2, load_tile scM1 _ jj hoff2]
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff2, load_whole (S := S1x4x512x2) arg3 harg3 z4, load_whole (S := S1x4x512x2) arg4 harg4 z4, load_tile scM1 _ jj hoff2]
  iexists _; isplitr
  swap; · iexact G2
  ipureintro
  sl_unfold_run_names; rw [store_whole (S := S4x1) _ _ z2, load_whole (S := S4x1) scM2 _ z2, View.readCov_cons_toLoadRect, load_whole (S := S1x4x512x2) arg3 harg3 z4, load_whole (S := S1x4x512x2) arg4 harg4 z4, load_whole (S := S4x512) scM0 _ z2]

end Cert.KernelIdeal.Region

end
-- ==== Proof.BodyStep.lean ====
import proofs.«153843_j48524540510941_1_alg».proof.Proof.BodyA
import proofs.«153843_j48524540510941_1_alg».proof.Proof.BodyB
import proofs.«153843_j48524540510941_1_alg».proof.Proof.BodyC
import proofs.«153843_j48524540510941_1_alg».proof.Proof.BodyD
import proofs.«153843_j48524540510941_1_alg».proof.Proof.BodyE
import proofs.«153843_j48524540510941_1_alg».proof.Proof.BodyF
import proofs.«153843_j48524540510941_1_alg».proof.Proof.BodyG
set_option maxRecDepth 16384

noncomputable section

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One grid point of the kernel body, run on whole buffers: it leaves the two input blocks in place, the three carried
    arrays at `step` of what they held, and the output block stored only at the last point of a pair.  The seven
    lemmas it is assembled from are the seven ways the body's branches can go on the [3, 8, 8] grid: first, middle or
    last column tile, against first or later row tile, the last row tile mattering only with the last column tile. -/
theorem body_step (c : Dev nD) (i : grid0.Coords) (ii jj : Fin 8) (hii : ii.val = (i 1).val) (hjj : jj.val = (i 2).val)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (cr : Carry F) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare cr.rowMin ∗ owns (c : Thread nD τ) scM1 fullShare cr.colMin ∗ owns (c : Thread nD τ) scM2 fullShare cr.rowSum
        ∗ (iprop(owns (c : Thread nD τ) arg3 fullShare x ∗ owns (c : Thread nD τ) arg4 fullShare y
            ∗ owns (c : Thread nD τ) arg5 fullShare (if ii.val = 7 ∧ jj.val = 7 then outOf (step ii jj x y cr) else o)
            ∗ owns (c : Thread nD τ) scM0 fullShare (step ii jj x y cr).rowMin
            ∗ owns (c : Thread nD τ) scM1 fullShare (step ii jj x y cr).colMin
            ∗ owns (c : Thread nD τ) scM2 fullShare (step ii jj x y cr).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  obtain ⟨s0, s1, s2⟩ := cr
  by_cases hi0 : ii.val = 0
  · by_cases hj0 : jj.val = 0
    · exact body_A c i ii jj hii hjj hi0 hj0 arg3 harg3 arg4 harg4 arg5 harg5 x y o s0 s1 s2 E K
    · by_cases hj7 : jj.val = 7
      · exact body_C c i ii jj hii hjj hi0 hj7 arg3 harg3 arg4 harg4 arg5 harg5 x y o s0 s1 s2 E K
      · exact body_B c i ii jj hii hjj hi0 hj0 hj7 arg3 harg3 arg4 harg4 arg5 harg5 x y o s0 s1 s2 E K
  · by_cases hj0 : jj.val = 0
    · exact body_D c i ii jj hii hjj hi0 hj0 arg3 harg3 arg4 harg4 arg5 harg5 x y o s0 s1 s2 E K
    · by_cases hj7 : jj.val = 7
      · by_cases hi7 : ii.val = 7
        · exact body_G c i ii jj hii hjj hi7 hj7 arg3 harg3 arg4 harg4 arg5 harg5 x y o s0 s1 s2 E K
        · exact body_F c i ii jj hii hjj hi0 hi7 hj7 arg3 harg3 arg4 harg4 arg5 harg5 x y o s0 s1 s2 E K
      · exact body_E c i ii jj hii hjj hi0 hj0 hj7 arg3 harg3 arg4 harg4 arg5 harg5 x y o s0 s1 s2 E K

end Cert.KernelIdeal.Region

end
-- ==== Proof.RegionBlocks.lean ====
/-
  The blocks of the region's windows, by coordinates. The grid is [3, 8, 8], last axis fastest: point t is pair t / 64,
  row tile (t / 8) mod 8, column tile t mod 8. The first input window presents rows 512 i … 512 i + 511 of the pair's
  first stacked array, the second rows 512 j … 512 j + 511 of its second, and the output window holds the pair's four
  entries of the [3, 4, 1] result.
-/
import proofs.«153843_j48524540510941_1_alg».proof.Proof.RegionKit
import proofs.«153843_j48524540510941_1_alg».proof.Proof.TileStep

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- The windows' block indices over the grid: pair, row tile and column tile of the point. -/
theorem idx_facts : ∀ t : Fin cfg0.N,
    win0_0.index t (0 : Fin 4) = t.val / 64 % 3 ∧ win0_0.index t (1 : Fin 4) = 0
    ∧ win0_0.index t (2 : Fin 4) = t.val / 8 % 8 ∧ win0_0.index t (3 : Fin 4) = 0
    ∧ win0_1.index t (0 : Fin 4) = t.val / 64 % 3 ∧ win0_1.index t (1 : Fin 4) = 0
    ∧ win0_1.index t (2 : Fin 4) = t.val % 8 ∧ win0_1.index t (3 : Fin 4) = 0
    ∧ win0_2.index t (0 : Fin 3) = t.val / 64 % 3 ∧ win0_2.index t (1 : Fin 3) = 0
    ∧ win0_2.index t (2 : Fin 3) = 0 :=
  (by decide +kernel : ∀ t : Fin grid0.N, _)

/-- The first input window's block at point t is row tile (t / 8) mod 8 of pair t / 64 of the first stacked array. -/
theorem iblk0_eq (c : Dev nD) (t : Fin cfg0.N) :
    iblk m c 0 t = Tile.blk (V m c main_v3) (Tile.pairOf t.val) (Tile.rowOf t.val) := by
  obtain ⟨e0, e1, e2, e3, -⟩ := idx_facts t
  funext y
  show V m c main_v3 (((cfg0.win 0).blk t).view.emb y) = V m c main_v3 _
  refine congrArg (V m c main_v3) (funext fun a => Fin.ext ?_)
  match a with
  | ⟨0, _⟩ =>
    show win0_0.index t (0 : Fin 4) * 1 + 1 * (y 0).val = t.val / 64 % 3
    have hy : (y 0).val < 1 := (y 0).isLt
    omega
  | ⟨1, _⟩ =>
    show win0_0.index t (1 : Fin 4) * 4 + 1 * (y 1).val = (y 1).val
    omega
  | ⟨2, _⟩ =>
    show win0_0.index t (2 : Fin 4) * 512 + 1 * (y 2).val = 512 * (t.val / 8 % 8) + (y 2).val
    omega
  | ⟨3, _⟩ =>
    show win0_0.index t (3 : Fin 4) * 2 + 1 * (y 3).val = (y 3).val
    omega

/-- The second input window's block at point t is row tile t mod 8 of pair t / 64 of the second stacked array. -/
theorem iblk1_eq (c : Dev nD) (t : Fin cfg0.N) :
    iblk m c 1 t = Tile.blk (V m c main_v7) (Tile.pairOf t.val) (Tile.colOf t.val) := by
  obtain ⟨-, -, -, -, e0, e1, e2, e3, -⟩ := idx_facts t
  funext y
  show V m c main_v7 (((cfg0.win 1).blk t).view.emb y) = V m c main_v7 _
  refine congrArg (V m c main_v7) (funext fun a => Fin.ext ?_)
  match a with
  | ⟨0, _⟩ =>
    show win0_1.index t (0 : Fin 4) * 1 + 1 * (y 0).val = t.val / 64 % 3
    have hy : (y 0).val < 1 := (y 0).isLt
    omega
  | ⟨1, _⟩ =>
    show win0_1.index t (1 : Fin 4) * 4 + 1 * (y 1).val = (y 1).val
    omega
  | ⟨2, _⟩ =>
    show win0_1.index t (2 : Fin 4) * 512 + 1 * (y 2).val = 512 * (t.val % 8) + (y 2).val
    omega
  | ⟨3, _⟩ =>
    show win0_1.index t (3 : Fin 4) * 2 + 1 * (y 3).val = (y 3).val
    omega

/-- Where an entry of the output window's block at point t sits in the [3, 4, 1] array: entry (0, b, 0) of the block is
    entry (t / 64, b, 0) of the array. -/
theorem out_emb (t : Fin cfg0.N) (y : ((cfg0.win 2).xblock (cfg0.grid.coords t)).Idx) :
    ((cfg0.win 2).blk t).view.emb y
      = (ix3 (n0 := 3) (n1 := 4) (n2 := 1) (Tile.pairOf t.val) (y 1) (y 2) : S3x4x1.Idx) := by
  obtain ⟨-, -, -, -, -, -, -, -, e0, e1, e2⟩ := idx_facts t
  refine funext fun a => Fin.ext ?_
  match a with
  | ⟨0, _⟩ =>
    show win0_2.index t (0 : Fin 3) * 1 + 1 * (y 0).val = t.val / 64 % 3
    have hy : (y 0).val < 1 := (y 0).isLt
    omega
  | ⟨1, _⟩ =>
    show win0_2.index t (1 : Fin 3) * 4 + 1 * (y 1).val = (y 1).val
    omega
  | ⟨2, _⟩ =>
    show win0_2.index t (2 : Fin 3) * 1 + 1 * (y 2).val = (y 2).val
    omega

/-- An entry of the [3, 4, 1] array is in the output window's block at point t iff its pair is t / 64. -/
theorem mem_out_blk (t : Fin cfg0.N) (i : S3x4x1.Idx) :
    i ∈ ((cfg0.win 2).blk t).view.set ↔ (i 0).val = t.val / 64 % 3 := by
  obtain ⟨-, -, -, -, -, -, -, -, e0, e1, e2⟩ := idx_facts t
  have hmem : i ∈ ((cfg0.win 2).blk t).view.set ↔ ∀ a : Fin 3, win0_2.index t a * S1x4x1.size a ≤ (i a).val
      ∧ (i a).val < win0_2.index t a * S1x4x1.size a + S1x4x1.size a := by
    show i ∈ ((View.whole main_v8).slice (win0_2.rect t)).set ↔ _
    rw [View.set_slice_whole, Rect.mem_set_unit]
    exact Iff.rfl
  rw [hmem]
  constructor
  · intro h
    have b0 : win0_2.index t (0 : Fin 3) * 1 ≤ (i 0).val ∧ (i 0).val < win0_2.index t (0 : Fin 3) * 1 + 1 := h 0
    omega
  · intro h a
    match a with
    | ⟨0, _⟩ =>
      show win0_2.index t (0 : Fin 3) * 1 ≤ (i 0).val ∧ (i 0).val < win0_2.index t (0 : Fin 3) * 1 + 1
      omega
    | ⟨1, _⟩ =>
      show win0_2.index t (1 : Fin 3) * 4 ≤ (i 1).val ∧ (i 1).val < win0_2.index t (1 : Fin 3) * 4 + 4
      have hi : (i 1).val < 4 := (i 1).isLt
      omega
    | ⟨2, _⟩ =>
      show win0_2.index t (2 : Fin 3) * 1 ≤ (i 2).val ∧ (i 2).val < win0_2.index t (2 : Fin 3) * 1 + 1
      have hi : (i 2).val < 1 := (i 2).isLt
      omega

end Cert.KernelIdeal.Region

end
-- ==== Proof.RegionFacts.lean ====
/-
  Facts about the grid decided over its 192 points: a point's row tile and column tile, that the two input windows
  are live at every point, and that the output window is live — and written back — exactly at the last point of each pair.
-/
import proofs.«153843_j48524540510941_1_alg».proof.Proof.RegionKit

set_option maxRecDepth 16384

noncomputable section

namespace Cert.KernelIdeal.Region

open Cert.KernelIdeal Cert.KernelIdeal.Gen
open Idealize.ShloMosaic Idealize.ShloMosaic.TcCoe
open Idealize.SL Idealize.SL.Sem

/-- Point t is at row tile (t / 8) mod 8 and column tile t mod 8. -/
theorem coords_facts : ∀ t : Fin cfg0.N,
    ((grid0.coords t) 1).val = t.val / 8 % 8 ∧ ((grid0.coords t) 2).val = t.val % 8 :=
  (by decide +kernel : ∀ t : Fin grid0.N, ((grid0.coords t) 1).val = t.val / 8 % 8 ∧ ((grid0.coords t) 2).val = t.val % 8)

/-- The input windows are never idle. -/
theorem liveAt0_0 : ∀ t : Fin cfg0.N, cfg0.idle 0 (grid0.coords t) = false :=
  (by decide +kernel : ∀ t : Fin grid0.N, cfg0.idle 0 (grid0.coords t) = false)
theorem liveAt0_1 : ∀ t : Fin cfg0.N, cfg0.idle 1 (grid0.coords t) = false :=
  (by decide +kernel : ∀ t : Fin grid0.N, cfg0.idle 1 (grid0.coords t) = false)

/-- The output window is idle away from the last point of a pair … -/
theorem idleAt0_2 : ∀ t : Fin cfg0.N, t.val % 64 ≠ 63 → cfg0.idle 2 (grid0.coords t) = true :=
  (by decide +kernel : ∀ t : Fin grid0.N, t.val % 64 ≠ 63 → cfg0.idle 2 (grid0.coords t) = true)
/-- … where it is not written back either … -/
theorem noFlush0_2 : ∀ t : Fin cfg0.N, t.val % 64 ≠ 63 → (cfg0.win 2).flush t = false :=
  (by decide +kernel : ∀ t : Fin grid0.N, t.val % 64 ≠ 63 → win0_2.flush t = false)
/-- … and live at the last point of a pair. -/
theorem liveAt0_2 : ∀ t : Fin cfg0.N, t.val % 64 = 63 → cfg0.idle 2 (grid0.coords t) = false :=
  (by decide +kernel : ∀ t : Fin grid0.N, t.val % 64 = 63 → cfg0.idle 2 (grid0.coords t) = false)

end Cert.KernelIdeal.Region

end
-- ==== Proof.TileRunIndep.lean ====
/-
  The three carried arrays after the eighth grid point do not depend on what they held before the first: the first
  point overwrites the row minima and the row sum, and the first eight points (row tile 0, column tiles 0 … 7)
  overwrite the eight column tiles of the column minima one after the other.  From then on each point's result is a
  function of the arrays the previous point left.
-/
import proofs.«153843_j48524540510941_1_alg».proof.Proof.TileStep

noncomputable section

namespace Cert.KernelIdeal.Tile

open Idealize.ShloMosaic Idealize.ShloMosaic.ValueIdx Cert.KernelIdeal Cert.KernelIdeal.Gen

variable {F : FTy → Type} [FloatOps F]

/-- Two carries with the same three arrays are equal. -/
theorem Carry.ext3 {c c' : Carry F} (h1 : c.rowMin = c'.rowMin) (h2 : c.colMin = c'.colMin)
    (h3 : c.rowSum = c'.rowSum) : c = c' := by
  cases c; cases c'; simp only [Carry.mk.injEq]; exact ⟨h1, h2, h3⟩

/-- Two carries agree up to column `m`: same row minima, same row sum, same column minima on the columns below `m`. -/
def Agree (m : ℕ) (c c' : Carry F) : Prop :=
  c.rowMin = c'.rowMin ∧ c.rowSum = c'.rowSum ∧ ∀ z : S4x4096.Idx, (z 1).val < m → c.colMin z = c'.colMin z

/-- A point of row tile 0 at column tile `j` extends the agreement by that column tile; at `j = 0` it needs no
    agreement on the row minima and the row sum, which it overwrites. -/
theorem step_agree (i j : Fin 8) (x y : Vec F S1x4x512x2 .f32) (c c' : Carry F) (hi : i.val = 0)
    (hrow : j.val = 0 ∨ (c.rowMin = c'.rowMin ∧ c.rowSum = c'.rowSum))
    (hcol : ∀ z : S4x4096.Idx, (z 1).val < 512 * j.val → c.colMin z = c'.colMin z) :
    Agree (512 * (j.val + 1)) (step i j x y c) (step i j x y c') := by
  have hrm : (step i j x y c).rowMin = (step i j x y c').rowMin := by
    simp only [step]
    by_cases hj : j.val = 0
    · rw [if_pos hj, if_pos hj]
    · rw [if_neg hj, if_neg hj, (hrow.resolve_left hj).1]
  refine ⟨hrm, ?_, ?_⟩
  · simp only [step] at hrm ⊢
    by_cases hj : j.val = 0
    · have h0 : i.val = 0 ∧ j.val = 0 := ⟨hi, hj⟩
      rw [if_pos h0, if_pos h0, hrm]
    · have h0 : ¬ (i.val = 0 ∧ j.val = 0) := fun h => hj h.2
      rw [if_neg h0, if_neg h0, hrm, (hrow.resolve_left hj).2]
  · intro z hz
    simp only [step]
    rw [if_pos hi, if_pos hi]
    unfold tileWrite
    by_cases h : 512 * j.val ≤ (z 1).val ∧ (z 1).val < 512 * j.val + 512
    · rw [dif_pos h, dif_pos h]
    · rw [dif_neg h, dif_neg h]; exact hcol z (by omega)

/-- After point `n ≤ 7` two runs agree up to column `512 (n + 1)`. -/
theorem run_agree (X Y : Vec F S3x4x4096x2 .f32) (c0 c0' : Carry F) :
    ∀ n, n ≤ 7 → Agree (512 * (n + 1)) (run X Y c0 n) (run X Y c0' n)
  | 0, _ => by
    have h := step_agree (rowOf 0) (colOf 0) (blk X (pairOf 0) (rowOf 0)) (blk Y (pairOf 0) (colOf 0)) c0 c0' rfl
      (Or.inl rfl) (fun z hz => absurd hz (by show ¬ (z 1).val < 512 * (0 % 8); omega))
    exact h
  | n + 1, hn => by
    have ih := run_agree X Y c0 c0' n (by omega)
    have hi : (rowOf (n + 1)).val = 0 := by show (n + 1) / 8 % 8 = 0; omega
    have hj : (colOf (n + 1)).val = n + 1 := by show (n + 1) % 8 = n + 1; omega
    have h := step_agree (rowOf (n + 1)) (colOf (n + 1)) (blk X (pairOf (n + 1)) (rowOf (n + 1)))
      (blk Y (pairOf (n + 1)) (colOf (n + 1))) (run X Y c0 n) (run X Y c0' n) hi (Or.inr ⟨ih.1, ih.2.1⟩)
      (fun z hz => ih.2.2 z (by rw [hj] at hz; exact hz))
    rw [hj] at h
    exact h

/-- After the eighth point the two runs hold the same arrays. -/
theorem run_eq7 (X Y : Vec F S3x4x4096x2 .f32) (c0 c0' : Carry F) : run X Y c0 7 = run X Y c0' 7 := by
  obtain ⟨h1, h2, h3⟩ := run_agree X Y c0 c0' 7 (le_refl _)
  exact Carry.ext3 h1 (funext fun z => h3 z (by have := idx2_lt1 z; omega)) h2

/-- From the eighth point on, what the arrays hold does not depend on their contents before the first point. -/
theorem run_indep (X Y : Vec F S3x4x4096x2 .f32) (c0 c0' : Carry F) (n : ℕ) (hn : 7 ≤ n) :
    run X Y c0 n = run X Y c0' n := by
  induction n, hn using Nat.le_induction with
  | base => exact run_eq7 X Y c0 c0'
  | succ n hn ih =>
    show step _ _ _ _ (run X Y c0 n) = step _ _ _ _ (run X Y c0' n)
    rw [ih]

end Cert.KernelIdeal.Tile

end
-- ==== Proof.RegionRun.lean ====
/-
  The region's run. Between grid points the three scratch arrays hold what the sequence of points has left in them, from
  whatever they held before the first point; each point is one step of that sequence on the point's two input blocks;
  the output window's buffer is stored at the last point of each pair, with the output block of the sequence so far, and
  handed back untouched at every other point.
-/
import proofs.«153843_j48524540510941_1_alg».proof.Proof.BodyStep
import proofs.«153843_j48524540510941_1_alg».proof.Proof.RegionBlocks
import proofs.«153843_j48524540510941_1_alg».proof.Proof.RegionFacts
import proofs.«153843_j48524540510941_1_alg».proof.Proof.TileRunIndep

set_option maxRecDepth 16384

noncomputable section

namespace Cert.KernelIdeal.Tile

open Idealize.ShloMosaic Cert.KernelIdeal Cert.KernelIdeal.Gen

variable {F : FTy → Type} [FloatOps F]

/-- The first point's result is its step from the initial contents. -/
theorem run_at_zero (X Y : Vec F S3x4x4096x2 .f32) (c0 : Carry F) (n : ℕ) (hz : n = 0) :
    run X Y c0 n = step (rowOf n) (colOf n) (blk X (pairOf n) (rowOf n)) (blk Y (pairOf n) (colOf n)) c0 := by
  subst hz; rfl

/-- A later point's result is its step from the previous point's. -/
theorem run_at_pos (X Y : Vec F S3x4x4096x2 .f32) (c0 : Carry F) (n : ℕ) (hz : n ≠ 0) :
    run X Y c0 n
      = step (rowOf n) (colOf n) (blk X (pairOf n) (rowOf n)) (blk Y (pairOf n) (colOf n)) (run X Y c0 (n - 1)) := by
  cases n with
  | zero => exact absurd rfl hz
  | succ k => rfl

end Cert.KernelIdeal.Tile

namespace Cert.KernelIdeal.Region

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Some fixed contents of the three carried arrays. -/
def junk : Carry F :=
  ⟨fun _ => k0_pay5 (F := F) (Shape.Idx.first h_S4x1), fun _ => k0_pay5 (F := F) (Shape.Idx.first h_S4x1), k0_pay5 (F := F)⟩

/-- The two stacked arrays the input windows stage, as the region finds them. -/
abbrev XX (c : Dev nD) : Vec F S3x4x4096x2 .f32 := V m c main_v3
abbrev YY (c : Dev nD) : Vec F S3x4x4096x2 .f32 := V m c main_v7

/-! ## The invariant between points -/

/-- Before the first point the scratch arrays hold anything; after point `n` they hold what the sequence of points
    leaves after `n`, from some contents before the first. -/
def PhiS (c : Dev nD) : (n : ℕ) → n ≤ cfg0.N → sProp 𝕄
  | 0, _ => Pipeline.ΦA spec0 c
  | n + 1, _ => iprop(iprop(∃ c0 : Carry F, owns (c : Thread nD τ) scM0 fullShare (run (XX m c) (YY m c) c0 n).rowMin
      ∗ owns (c : Thread nD τ) scM1 fullShare (run (XX m c) (YY m c) c0 n).colMin
      ∗ owns (c : Thread nD τ) scM2 fullShare (run (XX m c) (YY m c) c0 n).rowSum) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ c0 : Carry F, owns (c : Thread nD τ) scM0 fullShare (run (XX m c) (YY m c) c0 n).rowMin
      ∗ owns (c : Thread nD τ) scM1 fullShare (run (XX m c) (YY m c) c0 n).colMin
      ∗ owns (c : Thread nD τ) scM2 fullShare (run (XX m c) (YY m c) c0 n).rowSum) ∗ (∃ r, prngReg c r)) := rfl

theorem PhiS_pos (c : Dev nD) (n : ℕ) (h : n ≤ cfg0.N) (hz : n ≠ 0) :
    PhiS m c n h = iprop(iprop(∃ c0 : Carry F, owns (c : Thread nD τ) scM0 fullShare (run (XX m c) (YY m c) c0 (n - 1)).rowMin
      ∗ owns (c : Thread nD τ) scM1 fullShare (run (XX m c) (YY m c) c0 (n - 1)).colMin
      ∗ owns (c : Thread nD τ) scM2 fullShare (run (XX m c) (YY m c) c0 (n - 1)).rowSum) ∗ (∃ r, prngReg c r)) := by
  cases n with
  | zero => exact absurd rfl hz
  | succ n => rfl

/-! ## The pipeline's proof data -/

/-- After the body at point `t`: each input window's buffer at its block, the output window's at the output block of the
    sequence of points so far (from the fixed contents: from the eighth point on the contents before the first do not
    matter). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Tile.outOf (Tile.run (XX m c) (YY m c) junk t.val)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = Tile.outOf (Tile.run (XX m c) (YY m c) junk t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input windows' buffers hold their blocks; the invariant hands the body the three scratch
    arrays at what the previous point left (at anything at the first point) and takes them back one step further; the
    output window's buffer is stored at the last point of a pair and handed back as found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 192 := lt_of_lt_of_eq t.isLt (show cfg0.N = 192 from N_0)
  have hii : (rowOf t.val).val = ((grid0.coords t) 1).val := (coords_facts t).1.symm
  have hjj : (colOf t.val).val = ((grid0.coords t) 2).val := (coords_facts t).2.symm
  have hX0 := iblk0_eq m c t
  have hY0 := iblk1_eq m c t
  by_cases h63 : t.val % 64 = 63
  · have h77 : (rowOf t.val).val = 7 ∧ (colOf t.val).val = 7 :=
      ⟨by show t.val / 8 % 8 = 7; omega, by show t.val % 8 = 7; omega⟩
    have hz : t.val ≠ 0 := by omega
    rw [show (dats m 0 c).leavesExact 2 t = owns (c : Thread nD τ) (ms0_2 t) fullShare ((dats m 0 c).after 2 t) from by
      unfold Dat.leavesExact; rw [liveAt0_2 t h63], after0_2]
    · rw [PhiS_castSucc m c t, PhiS_pos m c _ _ hz]
      iintro ⟨⟨⟨%c0, HS0, HS1, HS2⟩, Hg⟩, Ho, ⟨%e0, H0⟩, ⟨%e1, H1⟩, ⟨%e2, H2⟩⟩
      iapply (body_step c (grid0.coords t) (rowOf t.val) (colOf t.val) hii hjj (ms0_0 t) (hs0_0 t) (ms0_1 t) (hs0_1 t) (ms0_2 t) (hs0_2 t)
        (iblk m c 0 t) (iblk m c 1 t) _ (run (XX m c) (YY m c) c0 (t.val - 1)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      rw [if_pos h77]
      have hrun : step (rowOf t.val) (colOf t.val) (iblk m c 0 t) (iblk m c 1 t) (run (XX m c) (YY m c) c0 (t.val - 1))
          = run (XX m c) (YY m c) c0 t.val := by
        rw [hX0, hY0]; exact (run_at_pos (XX m c) (YY m c) c0 t.val hz).symm
      rw [hrun]
      isplitl [HS0 HS1 HS2 Hg]
      · isplitl [HS0 HS1 HS2]
        · iexists c0
          isplitl [HS0]; · iexact HS0
          isplitl [HS1]; · iexact HS1
          iexact HS2
        iexact Hg
      isplitl [Ho]; · iexact Ho
      isplitl [H0]; · iexact H0
      isplitl [H1]; · iexact H1
      rw [run_indep (XX m c) (YY m c) c0 junk t.val (by omega)]
      iexact H2
  · have h77 : ¬ ((rowOf t.val).val = 7 ∧ (colOf t.val).val = 7) := by
      rintro ⟨h1, h2⟩
      have h1' : t.val / 8 % 8 = 7 := h1
      have h2' : t.val % 8 = 7 := h2
      omega
    rw [Dat.leavesExact_idle (dats m 0 c) 2 t (idleAt0_2 t h63) (noFlush0_2 t h63)]
    by_cases hz : t.val = 0
    · rw [PhiS_castSucc m c t, PhiS_zero m c _ _ hz, PhiA0_eq]
      iintro ⟨⟨⟨⟨%d0, HS0⟩, ⟨%d1, HS1⟩, ⟨%d2, HS2⟩⟩, Hg⟩, Ho, ⟨%e0, H0⟩, ⟨%e1, H1⟩, ⟨%e2, H2⟩⟩
      iapply (body_step c (grid0.coords t) (rowOf t.val) (colOf t.val) hii hjj (ms0_0 t) (hs0_0 t) (ms0_1 t) (hs0_1 t) (ms0_2 t) (hs0_2 t)
        (iblk m c 0 t) (iblk m c 1 t) _ (⟨d0, d1, d2⟩ : Carry F) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      rw [if_neg h77]
      have hrun : step (rowOf t.val) (colOf t.val) (iblk m c 0 t) (iblk m c 1 t) (⟨d0, d1, d2⟩ : Carry F)
          = run (XX m c) (YY m c) (⟨d0, d1, d2⟩ : Carry F) t.val := by
        rw [hX0, hY0]; exact (run_at_zero (XX m c) (YY m c) _ t.val hz).symm
      rw [hrun]
      isplitl [HS0 HS1 HS2 Hg]
      · isplitl [HS0 HS1 HS2]
        · iexists (⟨d0, d1, d2⟩ : Carry F)
          isplitl [HS0]; · iexact HS0
          isplitl [HS1]; · iexact HS1
          iexact HS2
        iexact Hg
      isplitl [Ho]; · iexact Ho
      isplitl [H0]; · iexact H0
      isplitl [H1]; · iexact H1
      iexists _; iexact H2
    · rw [PhiS_castSucc m c t, PhiS_pos m c _ _ hz]
      iintro ⟨⟨⟨%c0, HS0, HS1, HS2⟩, Hg⟩, Ho, ⟨%e0, H0⟩, ⟨%e1, H1⟩, ⟨%e2, H2⟩⟩
      iapply (body_step c (grid0.coords t) (rowOf t.val) (colOf t.val) hii hjj (ms0_0 t) (hs0_0 t) (ms0_1 t) (hs0_1 t) (ms0_2 t) (hs0_2 t)
        (iblk m c 0 t) (iblk m c 1 t) _ (run (XX m c) (YY m c) c0 (t.val - 1)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      rw [if_neg h77]
      have hrun : step (rowOf t.val) (colOf t.val) (iblk m c 0 t) (iblk m c 1 t) (run (XX m c) (YY m c) c0 (t.val - 1))
          = run (XX m c) (YY m c) c0 t.val := by
        rw [hX0, hY0]; exact (run_at_pos (XX m c) (YY m c) c0 t.val hz).symm
      rw [hrun]
      isplitl [HS0 HS1 HS2 Hg]
      · isplitl [HS0 HS1 HS2]
        · iexists c0
          isplitl [HS0]; · iexact HS0
          isplitl [HS1]; · iexact HS1
          iexact HS2
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch arrays back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%c0, HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 192 := N_0; omega)

/-! ## The run -/

set_option backward.isDefEq.respectTransparency.types false in
/-- Every weakly fair execution of @main terminates, with every array of the pipeline at what the library computes from
    the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Region

end
-- ==== Proof.RegionTailArgs.lean ====
/-
  After the region, at any float instance: the twelve host operations write none of the argument arrays, so the arguments
  end as launched; and the [3, 4, 1] array the region's output window was written back into holds, in block p, what the
  body left in the window's staging buffer at the last point of pair p — the one point of the pair that writes it back.
-/
import proofs.«153843_j48524540510941_1_alg».proof.Proof.RegionKit
import proofs.«153843_j48524540510941_1_alg».proof.Proof.RegionBlocks
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)
variable (dats : (p : Fin 1) → (c : Dev nD) → Dat τ (Elt F) Unit ℕ (UR sig nD τ) ℕ (cfgs p) c)

/-- No operation after the region writes the first argument: it ends as launched. -/
theorem tail_arg0 (c : Dev nD) :
    Pipeline.afterTail₀ cfgs dats 0 (V0 m) [hostOps1] c main_arg0 = m ((c : Thread nD τ).loc main_arg0) := by
  unfold Pipeline.afterTail₀
  refine (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))).trans ?_
  refine (Pipeline.withArrays_of_ne _ c _ _ main_arg0 (fun w => by fin_cases w <;> decide)).trans ?_
  exact V_main_arg0 m c

/-- Nor the second. -/
theorem tail_arg1 (c : Dev nD) :
    Pipeline.afterTail₀ cfgs dats 0 (V0 m) [hostOps1] c main_arg1 = m ((c : Thread nD τ).loc main_arg1) := by
  unfold Pipeline.afterTail₀
  refine (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))).trans ?_
  refine (Pipeline.withArrays_of_ne _ c _ _ main_arg1 (fun w => by fin_cases w <;> decide)).trans ?_
  exact V_main_arg1 m c

/-- Nor the third. -/
theorem tail_arg2 (c : Dev nD) :
    Pipeline.afterTail₀ cfgs dats 0 (V0 m) [hostOps1] c main_arg2 = m ((c : Thread nD τ).loc main_arg2) := by
  unfold Pipeline.afterTail₀
  refine (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))).trans ?_
  refine (Pipeline.withArrays_of_ne _ c _ _ main_arg2 (fun w => by fin_cases w <;> decide)).trans ?_
  exact V_main_arg2 m c

/-- The output window's array after the region: block p of the [3, 4, 1] array is what the body left in the window's
    staging buffer at the last point of pair p, the one point of the pair that writes it back. -/
theorem arrAt_out {c : Dev nD} (dat : Dat τ (Elt F) Unit ℕ (UR sig nD τ) ℕ cfg0 c) (o : Fin 3 → Vec F S1x4x1 .f32)
    (h : ∀ p : Fin 3, dat.after 2 ⟨64 * p.val + 63, by have := p.isLt; have hN : cfg0.N = 192 := N_0; omega⟩ = o p)
    (p : Fin 3) (b : Fin 4) :
    dat.arrAt 2 cfg0.N (ix3 (n0 := 3) (n1 := 4) (n2 := 1) p b (0 : Fin 1))
      = o p (ix3 (n0 := 1) (n1 := 4) (n2 := 1) (0 : Fin 1) b (0 : Fin 1)) := by
  have hN : cfg0.N = 192 := N_0
  let G : S3x4x1.Idx → Elt F .f32 := fun i =>
    o ⟨(i 0).val, (i 0).isLt⟩ (ix3 (n0 := 1) (n1 := 4) (n2 := 1) (0 : Fin 1) (i 1) (i 2))
  have hG : ∀ t, (cfg0.win 2).flush t = true → dat.flushed 2 t = ((cfg0.win 2).blk t).view.read (Elt F) G := by
    intro t hf
    have h63 : t.val % 64 = 63 := (flush0_2 t).mp hf
    have ht : t.val < 192 := hN ▸ t.isLt
    have hq : t.val / 64 < 3 := by omega
    have hlt : 64 * (t.val / 64) + 63 < cfg0.N := by rw [hN]; omega
    have et : t = ⟨64 * (⟨t.val / 64, hq⟩ : Fin 3).val + 63, hlt⟩ :=
      Fin.ext (by show t.val = 64 * (t.val / 64) + 63; omega)
    have ha : dat.after 2 t = o ⟨t.val / 64, hq⟩ := (congrArg (dat.after 2) et).trans (h ⟨t.val / 64, hq⟩)
    have hq3 : (⟨(Tile.pairOf t.val).val, (Tile.pairOf t.val).isLt⟩ : Fin 3) = ⟨t.val / 64, hq⟩ :=
      Fin.ext (by show t.val / 64 % 3 = t.val / 64; omega)
    funext y
    show dat.after 2 t _ = G (((cfg0.win 2).blk t).view.emb y)
    rw [out_emb]
    show dat.after 2 t _ = o ⟨(Tile.pairOf t.val).val, (Tile.pairOf t.val).isLt⟩
      (ix3 (n0 := 1) (n1 := 4) (n2 := 1) (0 : Fin 1) (y 1) (y 2))
    rw [ha, hq3]
    refine congrArg (o ⟨t.val / 64, hq⟩) (funext fun a => Fin.ext ?_)
    match a with
    | ⟨0, _⟩ =>
      show (y 0).val = 0
      have hy : (y 0).val < 1 := (y 0).isLt
      omega
    | ⟨1, _⟩ => rfl
    | ⟨2, _⟩ => rfl
  have hp : 64 * p.val + 63 < cfg0.N := by rw [hN]; have := p.isLt; omega
  have key := dat.arrAt_apply_of_mem 2 G hG cfg0.N ⟨64 * p.val + 63, hp⟩
    (ix3 (n0 := 3) (n1 := 4) (n2 := 1) p b (0 : Fin 1)) hp
    ((flush0_2 _).mpr (by show (64 * p.val + 63) % 64 = 63; omega))
    ((mem_out_blk _ _).mpr (by show p.val = (64 * p.val + 63) / 64 % 3; have := p.isLt; omega))
  exact key

end Cert.KernelIdeal.Region

end
-- ==== Proof.ChamferSpec.lean ====
/-
  The Chamfer loss of three planar point sets, entry by entry over the extended reals.

  For two sets A, B of 4096 points of the plane per batch entry, the cost of a pair of points is the Euclidean distance
  computed as sqrt(max(|a|² + |b|² - 2 a·b, 0)); a point's nearest cost is the least cost over the other set (a fold
  of min from +∞); the Chamfer distance of (A, B) is half the sum of the two means of nearest costs; the loss of
  three sets is the mean over the pairs (1,2), (1,3), (2,3) of 1 - 1 · Chamfer.
-/
import Idealize.ShloMosaic.Lib.ValueIdx
import Idealize.ShloMosaic.PureOps.Ideal.Laws

noncomputable section

open scoped BigOperators

namespace Cert.Chamfer

open Idealize.ShloMosaic Idealize.ShloMosaic.ValueIdx

/-- A batch of four sets of 4096 planar points. -/
abbrev Pts : Type := (⟨3, ![4, 4096, 2]⟩ : Shape).Idx → EReal

/-- |a|² of point `n` of batch entry `b`. -/
def sqn (A : Pts) (b : Fin 4) (n : Fin 4096) : EReal :=
  A (ix3 b n (0 : Fin 2)) * A (ix3 b n (0 : Fin 2)) + A (ix3 b n (1 : Fin 2)) * A (ix3 b n (1 : Fin 2))

/-- a·b of point `n` of A and point `k` of B. -/
def dotp (A B : Pts) (b : Fin 4) (n k : Fin 4096) : EReal :=
  A (ix3 b n (0 : Fin 2)) * B (ix3 b k (0 : Fin 2)) + A (ix3 b n (1 : Fin 2)) * B (ix3 b k (1 : Fin 2))

/-- The cost of the pair (point `n` of A, point `k` of B): sqrt(max(|a|² + |b|² - 2 a·b, 0)). -/
def cost (A B : Pts) (b : Fin 4) (n k : Fin 4096) : EReal :=
  Ideal.sqrt (max (sqn A b n + sqn B b k - Ideal.ofBits .f32 0x40000000#32 * dotp A B b n k) (Ideal.ofBits .f32 0x00000000#32))

/-- The least cost from point `n` of A to B. -/
def nearRow (A B : Pts) (b : Fin 4) (n : Fin 4096) : EReal :=
  (Finset.univ : Finset (Fin 4096)).fold min (Ideal.ofBits .f32 0x7F800000#32) (fun k => cost A B b n k)

/-- The least cost from point `k` of B to A. -/
def nearCol (A B : Pts) (b : Fin 4) (k : Fin 4096) : EReal :=
  (Finset.univ : Finset (Fin 4096)).fold min (Ideal.ofBits .f32 0x7F800000#32) (fun n => cost A B b n k)

/-- The Chamfer distance of A and B at batch entry `b`: (mean of nearRow + mean of nearCol) · ½. -/
def chamfer (A B : Pts) (b : Fin 4) : EReal :=
  (Ideal.div (∑ n : Fin 4096, nearRow A B b n) (Ideal.ofBits .f32 0x45800000#32)
    + Ideal.div (∑ k : Fin 4096, nearCol A B b k) (Ideal.ofBits .f32 0x45800000#32)) * Ideal.ofBits .f32 0x3F000000#32

/-- The first and the second set of pair `p`: (1,2), (1,3), (2,3). -/
def fstOf (a0 a1 a2 : Pts) (p : Fin 3) : Pts := if p.val = 0 then a0 else if p.val = 1 then a0 else a1
def sndOf (a0 a1 a2 : Pts) (p : Fin 3) : Pts := if p.val = 0 then a1 else if p.val = 1 then a2 else a2

/-- The loss at batch entry `b`: (0 + Σ over the three pairs of (1 - 1 · Chamfer)) / 3. -/
def loss (a0 a1 a2 : Pts) : (⟨1, ![4]⟩ : Shape).Idx → EReal := fun i =>
  Ideal.div (Ideal.ofBits .f32 0x00000000#32
      + ∑ p : Fin 3, (Ideal.ofBits .f32 0x3F800000#32
          - Ideal.ofBits .f32 0x3F800000#32 * chamfer (fstOf a0 a1 a2 p) (sndOf a0 a1 a2 p) (i 0)))
    (Ideal.ofBits .f32 0x40400000#32)

end Cert.Chamfer

end
-- ==== Proof.ChamferPairs.lean ====
/-
  The three pairs of the loss, spelt out: pair 0 is (first, second), pair 1 is (first, third), pair 2 is (second, third).
-/
import proofs.«153843_j48524540510941_1_alg».proof.Proof.ChamferSpec

noncomputable section

namespace Cert.Chamfer

variable (a0 a1 a2 : Pts)

theorem fstOf_zero : fstOf a0 a1 a2 0 = a0 := rfl
theorem fstOf_one : fstOf a0 a1 a2 1 = a0 := rfl
theorem fstOf_two : fstOf a0 a1 a2 2 = a1 := rfl
theorem sndOf_zero : sndOf a0 a1 a2 0 = a1 := rfl
theorem sndOf_one : sndOf a0 a1 a2 1 = a2 := rfl
theorem sndOf_two : sndOf a0 a1 a2 2 = a2 := rfl

end Cert.Chamfer

end
-- ==== Proof.KernelTail.lean ====
/-
  What the kernel's program does with the region's output: the [3, 4, 1] array of the three pairs' Chamfer distances is
  viewed as [3, 4], each entry c becomes 1 - 1 · c, the three pairs are summed from 0, and the sum is divided by 3. If the
  region leaves the Chamfer distance of pair p at batch entry b in entry (p, b, 0), the result is the loss.
-/
import proofs.«153843_j48524540510941_1_alg».proof.Proof.Gen.KernelIdeal
import proofs.«153843_j48524540510941_1_alg».proof.Proof.ChamferSpec
import proofs.«153843_j48524540510941_1_alg».proof.Proof.ChamferPairs
import Idealize.ShloMosaic.Lib.Pipeline.Value
import Idealize.ShloMosaic.Lib.ValueIdx
import Idealize.ShloMosaic.PureOps.Ideal.Laws

noncomputable section

open scoped BigOperators

namespace Cert.KernelIdeal.Tail

open Cert.KernelIdeal Cert.KernelIdeal.Gen Idealize.ShloMosaic Idealize.ShloMosaic.ValueIdx

/-- The host operations after the region, composed: reshape, 1 · x, 1 - ·, the sum over the pairs from 0, the quotient by 3. -/
def tail (o : FVec Ideal S3x4x1 .f32) : FVec Ideal S4 .f32 :=
  Host.divf (F := Ideal)
    (Host.reduceAdd (F := Ideal)
      (subf (broadcastInDim S3x4 ![] bcast_S_S3x4 (constant (F := Ideal) S_ .f32 0x3F800000#32))
        (mulf (broadcastInDim S3x4 ![] bcast_S_S3x4 (constant (F := Ideal) S_ .f32 0x3F800000#32))
          (shapeCast S3x4 o shapeCasts_S3x4x1_S3x4)))
      (constant (F := Ideal) S_ .f32 0x00000000#32) reducesTo_S3x4_S4_d0 h_S_)
    (broadcastInDim S4 ![] bcast_S_S4 (constant (F := Ideal) S_ .f32 0x40400000#32))

/-- Entry (p, b) of the [3, 4] view is entry (p, b, 0) of the [3, 4, 1] array. -/
theorem view_apply (o : FVec Ideal S3x4x1 .f32) (p : Fin 3) (b : Fin 4) :
    shapeCast S3x4 o shapeCasts_S3x4x1_S3x4 (ix2 p b) = o (ix3 p b (0 : Fin 1)) :=
  shapeCast_apply o shapeCasts_S3x4x1_S3x4 _ _ (by
    rw [Shape.rowMajor_val_three, Shape.rowMajor_val_two]
    show (p.val * 4 + b.val) * 1 + 0 = p.val * 4 + b.val
    omega)

/-- The sum over the pairs, from 0: entry b of the [3, 4] array summed along its first axis. -/
theorem sum_pairs (x : FVec Ideal S3x4 .f32) (b : Fin 4) :
    Host.reduceAdd (F := Ideal) x (constant (F := Ideal) S_ .f32 0x00000000#32) reducesTo_S3x4_S4_d0 h_S_ (ix1 b)
      = Ideal.ofBits .f32 0x00000000#32 + ∑ p : Fin 3, x (ix2 p b) := by
  simp only [Host.reduceAdd, Ideal.hostReduceAdd_def]
  rw [Ideal.hostReduceAdd_single reducesTo_S3x4_S4_d0 (by decide)]
  refine congrArg (_ + ·) (Finset.sum_congr rfl fun k _ => ?_)
  exact congrArg x (funext fun a => Fin.ext (by match a with | ⟨0, _⟩ => rfl | ⟨1, _⟩ => rfl))

/-- If the region's output holds the three pairs' Chamfer distances, the program's result is the loss. -/
theorem tail_loss (a0 a1 a2 : Cert.Chamfer.Pts) (o : FVec Ideal S3x4x1 .f32)
    (h : ∀ (p : Fin 3) (b : Fin 4), o (ix3 p b (0 : Fin 1))
      = Cert.Chamfer.chamfer (Cert.Chamfer.fstOf a0 a1 a2 p) (Cert.Chamfer.sndOf a0 a1 a2 p) b) :
    tail o = Cert.Chamfer.loss a0 a1 a2 := by
  funext i
  obtain ⟨b, rfl⟩ : ∃ b : Fin 4, i = ix1 b := ⟨i 0, eq_ix1 i⟩
  have hb3 : ∀ (w : BitVec 32) (j : S3x4.Idx),
      broadcastInDim S3x4 ![] bcast_S_S3x4 (constant (F := Ideal) S_ .f32 w) j = Ideal.ofBits .f32 w := fun w j =>
    broadcastInDim_apply _ bcast_S_S3x4 (constant (F := Ideal) S_ .f32 w) j (fun a => a.elim0) (fun a => a.elim0)
  have hb4 : ∀ (w : BitVec 32) (j : S4.Idx),
      broadcastInDim S4 ![] bcast_S_S4 (constant (F := Ideal) S_ .f32 w) j = Ideal.ofBits .f32 w := fun w j =>
    broadcastInDim_apply _ bcast_S_S4 (constant (F := Ideal) S_ .f32 w) j (fun a => a.elim0) (fun a => a.elim0)
  show FloatOps.hostDivf (Host.reduceAdd (F := Ideal) _ _ reducesTo_S3x4_S4_d0 h_S_ (ix1 b)) _ = _
  rw [hb4, sum_pairs]
  simp only [subf_apply, mulf_apply, hb3, view_apply, h]
  rfl

end Cert.KernelIdeal.Tail

end
-- ==== Proof.RegionTail.lean ====
/-
  After the region, over the extended reals: the program's result is the twelve host operations — reshape, 1 · x, 1 - ·, the
  sum over the pairs from 0, the quotient by 3 — applied to the [3, 4, 1] array the region's output window was written
  back into.
-/
import proofs.«153843_j48524540510941_1_alg».proof.Proof.RegionKit
import proofs.«153843_j48524540510941_1_alg».proof.Proof.RegionTailArgs
import proofs.«153843_j48524540510941_1_alg».proof.Proof.KernelTail

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)
variable (dats : (p : Fin 1) → (c : Dev nD) → Dat τ (Elt Ideal) Unit ℕ (UR sig nD τ) ℕ (cfgs p) c)

/-- The program's result is the operations after the region applied to the output window's array as the region leaves it. -/
theorem tail_v16 (c : Dev nD) :
    (Pipeline.afterTail₀ cfgs dats 0 (V0 m) [hostOps1] c main_v16 : FVec Ideal S4 .f32)
      = Tail.tail ((dats 0 c).arrAt 2 cfg0.N) := by
  unfold Pipeline.afterTail₀
  show StableHlo.after hostOps1 _ (Proc.devRef .tc main_v16) = _
  after_results
  have e : Pipeline.withArrays (cfgs 0).spec c (V0 m c) (fun w => (dats 0 c).arrAt w (cfgs 0).N) (Proc.devRef .tc main_v8)
      = (dats 0 c).arrAt 2 cfg0.N := Pipeline.withArrays_arr spec0 launch0.win.arr_inj c _ _ 2
  rw [e]
  rfl

end Cert.KernelIdeal.Region

end
-- ==== Proof.KernelHead.lean ====
/-
  What the kernel's program does before the region: each argument array [4, 4096, 2] is given a leading unit axis, and
  three of them are stacked along that axis into a [3, 4, 4096, 2] array. Entry (p, b, n, d) of the stack is entry
  (b, n, d) of its p-th piece: the first sets of the three pairs in one stack, the second sets in the other.
-/
import proofs.«153843_j48524540510941_1_alg».proof.Proof.Gen.KernelIdeal
import proofs.«153843_j48524540510941_1_alg».proof.Proof.ChamferSpec
import Idealize.ShloMosaic.Lib.Pipeline.Value
import Idealize.ShloMosaic.Lib.ValueIdx

noncomputable section

namespace Cert.KernelIdeal.Head

open Cert.KernelIdeal Cert.KernelIdeal.Gen Idealize.ShloMosaic Idealize.ShloMosaic.ValueIdx

/-- An argument array with a leading unit axis. -/
def lead (x : FVec Ideal S4x4096x2 .f32) : FVec Ideal S1x4x4096x2 .f32 :=
  broadcastInDim S1x4x4096x2 ![1, 2, 3] bcast_S4x4096x2_S1x4x4096x2_1_2_3 x

/-- Three arrays stacked along a new leading axis. -/
def stack (u v w : FVec Ideal S4x4096x2 .f32) : FVec Ideal S3x4x4096x2 .f32 :=
  concatenate S3x4x4096x2 0 [⟨S1x4x4096x2, lead u⟩, ⟨S1x4x4096x2, lead v⟩, ⟨S1x4x4096x2, lead w⟩]
    concatenates_S1x4x4096x2_S1x4x4096x2_S1x4x4096x2_S3x4x4096x2_d0

/-- The stack of the pairs' first sets: (first, first, second). -/
def stackX (a0 a1 a2 : FVec Ideal S4x4096x2 .f32) : FVec Ideal S3x4x4096x2 .f32 := stack a0 a0 a1

/-- The stack of the pairs' second sets: (second, third, third). -/
def stackY (a0 a1 a2 : FVec Ideal S4x4096x2 .f32) : FVec Ideal S3x4x4096x2 .f32 := stack a1 a2 a2

/-- Entry (0, b, n, d) of an array with a leading unit axis is entry (b, n, d) of the array. -/
theorem lead_apply (x : FVec Ideal S4x4096x2 .f32) (b : Fin 4) (n : Fin 4096) (d : Fin 2) :
    lead x (ix4 (0 : Fin 1) b n d) = x (ix3 b n d) :=
  broadcastInDim_apply _ bcast_S4x4096x2_S1x4x4096x2_1_2_3 x _ (ix3 b n d) (fun a => by
    match a with
    | ⟨0, _⟩ => rfl
    | ⟨1, _⟩ => rfl
    | ⟨2, _⟩ => rfl)

/-- Entry (p, b, n, d) of a stack is entry (b, n, d) of its p-th piece. -/
theorem stack_apply (u v w : FVec Ideal S4x4096x2 .f32) (p : Fin 3) (b : Fin 4) (n : Fin 4096) (d : Fin 2) :
    stack u v w (ix4 p b n d) = (if p.val = 0 then u else if p.val = 1 then v else w) (ix3 b n d) := by
  have key : ∀ (k : Nat) (hk : k < 3) (x : FVec Ideal S4x4096x2 .f32),
      ([⟨S1x4x4096x2, lead u⟩, ⟨S1x4x4096x2, lead v⟩, ⟨S1x4x4096x2, lead w⟩] :
        List ((s : Shape) × (s.Idx → EReal)))[k]'hk = ⟨S1x4x4096x2, lead x⟩ →
      p.val = k → stack u v w (ix4 p b n d) = x (ix3 b n d) := by
    intro k hk x hx hp
    unfold stack
    refine (concatenate_apply_piece (t := S3x4x4096x2) (0 : Fin 4)
      [⟨S1x4x4096x2, lead u⟩, ⟨S1x4x4096x2, lead v⟩, ⟨S1x4x4096x2, lead w⟩]
      concatenates_S1x4x4096x2_S1x4x4096x2_S1x4x4096x2_S3x4x4096x2_d0
      (ix4 p b n d) k hk S1x4x4096x2 (lead x) hx rfl k ?_ (ix4 (0 : Fin 1) b n d) ?_ ?_).trans (lead_apply x b n d)
    · interval_cases k <;> rfl
    · intro a ha
      match a, ha with
      | ⟨0, _⟩, ha => exact absurd rfl ha
      | ⟨1, _⟩, _ => rfl
      | ⟨2, _⟩, _ => rfl
      | ⟨3, _⟩, _ => rfl
    · show k + 0 = p.val
      omega
  rcases p with ⟨pv, hpv⟩
  interval_cases pv
  · exact key 0 (by omega) u rfl rfl
  · exact key 1 (by omega) v rfl rfl
  · exact key 2 (by omega) w rfl rfl

/-- Entry (p, b, n, d) of the first stack is entry (b, n, d) of pair p's first set. -/
theorem stackX_apply (a0 a1 a2 : FVec Ideal S4x4096x2 .f32) (p : Fin 3) (b : Fin 4) (n : Fin 4096) (d : Fin 2) :
    stackX a0 a1 a2 (ix4 p b n d) = Cert.Chamfer.fstOf a0 a1 a2 p (ix3 b n d) :=
  stack_apply a0 a0 a1 p b n d

/-- Entry (p, b, n, d) of the second stack is entry (b, n, d) of pair p's second set. -/
theorem stackY_apply (a0 a1 a2 : FVec Ideal S4x4096x2 .f32) (p : Fin 3) (b : Fin 4) (n : Fin 4096) (d : Fin 2) :
    stackY a0 a1 a2 (ix4 p b n d) = Cert.Chamfer.sndOf a0 a1 a2 p (ix3 b n d) :=
  stack_apply a1 a2 a2 p b n d

end Cert.KernelIdeal.Head

end
-- ==== Proof.RegionHead.lean ====
/-
  The two arrays the region's input windows stage, as the region finds them: the stacking operations before the region
  leave the stack of the pairs' first sets in one and the stack of their second sets in the other.
-/
import proofs.«153843_j48524540510941_1_alg».proof.Proof.RegionKit
import proofs.«153843_j48524540510941_1_alg».proof.Proof.KernelHead

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The first window's array is the stack (first, first, second) of the arguments. -/
theorem V_v3 (c : Dev nD) :
    (V m c main_v3 : FVec Ideal S3x4x4096x2 .f32)
      = Head.stackX (m ((c : Thread nD τ).loc main_arg0)) (m ((c : Thread nD τ).loc main_arg1))
          (m ((c : Thread nD τ).loc main_arg2)) := by
  dsimp only [V, V0]
  simp only [hostOps0, List.flatten_cons, List.flatten_nil, List.append_nil]
  after_results
  rfl

/-- The second window's array is the stack (second, third, third) of the arguments. -/
theorem V_v7 (c : Dev nD) :
    (V m c main_v7 : FVec Ideal S3x4x4096x2 .f32)
      = Head.stackY (m ((c : Thread nD τ).loc main_arg0)) (m ((c : Thread nD τ).loc main_arg1))
          (m ((c : Thread nD τ).loc main_arg2)) := by
  dsimp only [V, V0]
  simp only [hostOps0, List.flatten_cons, List.flatten_nil, List.append_nil]
  after_results
  rfl

end Cert.KernelIdeal.Region

end
-- ==== Proof.LibRowFold.lean ====
/-
  Minima and maxima along the last axis, read at an entry over the extended reals.

  A reduction by min (or max) is a fold of a commutative, associative operation, so its value at an entry does not depend
  on the order of the fold: it is the fold, from the initial value, over the coordinates of the reduced axis.
-/
import Idealize.ShloMosaic.Lib.ValueIdx
import Idealize.ShloMosaic.Lib.Pipeline.Value
import Idealize.ShloMosaic.PureOps.Ideal.Laws

namespace Cert.LibRowFold

open Idealize.ShloMosaic Idealize.ShloMosaic.ValueIdx

variable {φ : FTy} {α : Type}

/-- A kernel's reduction by min over one axis: the fold of min from the accumulator's value over that axis. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- An [a, b] array reduced by min along its second axis: entry i is the least of the entries (i, j), from the
    accumulator's value. -/
theorem min_axis1_apply {a b : Nat} (v : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ v acc h hφ hacc (ix1 i)
      = (Finset.univ : Finset (Fin b)).fold min (Ideal.ofBits φ acc) (fun j => v (ix2 i j)) :=
  (multiReduction_minimumf_single v acc h hφ hacc (ix1 i)).trans
    (congrArg (Finset.fold min (Ideal.ofBits φ acc) · (Finset.univ : Finset (Fin b))) (funext fun j => congrArg v (funext fun d => Fin.ext (by
      match d with
      | ⟨0, _⟩ => rfl
      | ⟨1, _⟩ => rfl))))

/-- A host reduction of an [n, a, b] array along its last axis by a commutative, associative operation: entry (p, q) is
    the fold of the operation from the initial value over the entries (p, q, j). -/
theorem hostReduce_axis2_apply (f : α → α → α) [Std.Commutative f] [Std.Associative f] {n a b : Nat}
    (x : (⟨3, ![n, a, b]⟩ : Shape).Idx → α) {u : Shape} (init : u.Idx → α)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (q : Fin a) :
    Host.reduce f x init h' hu (ix2 p q)
      = (Finset.univ : Finset (Fin b)).fold f (init (Shape.Idx.first hu)) (fun j => x (ix3 p q j)) :=
  (Host.reduce_eq_fold_single f x init h' h hu (ix2 p q)).trans
    (congrArg (Finset.fold f (init (Shape.Idx.first hu)) · (Finset.univ : Finset (Fin b))) (funext fun j => congrArg x (funext fun d => Fin.ext (by
      match d with
      | ⟨0, _⟩ => rfl
      | ⟨1, _⟩ => rfl
      | ⟨2, _⟩ => rfl))))

/-- A host reduction by min of an [n, a, b] array of extended reals along its last axis. -/
theorem hostReduce_min_axis2_apply {n a b : Nat} (x : FVec Ideal ⟨3, ![n, a, b]⟩ φ) {u : Shape} (init : FVec Ideal u φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (q : Fin a) :
    Host.reduce (FloatOps.minimumf (F := Ideal) (φ := φ)) x init h' hu (ix2 p q)
      = (Finset.univ : Finset (Fin b)).fold min (init (Shape.Idx.first hu)) (fun j => x (ix3 p q j)) :=
  hostReduce_axis2_apply (FloatOps.minimumf (F := Ideal) (φ := φ)) x init h' h hu p q

/-- A host reduction by max of an [n, a, b] array of extended reals along its last axis. -/
theorem hostReduce_max_axis2_apply {n a b : Nat} (x : FVec Ideal ⟨3, ![n, a, b]⟩ φ) {u : Shape} (init : FVec Ideal u φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (q : Fin a) :
    Host.reduce (FloatOps.maximumf (F := Ideal) (φ := φ)) x init h' hu (ix2 p q)
      = (Finset.univ : Finset (Fin b)).fold max (init (Shape.Idx.first hu)) (fun j => x (ix3 p q j)) :=
  hostReduce_axis2_apply (FloatOps.maximumf (F := Ideal) (φ := φ)) x init h' h hu p q

/-- A column [a, 1] viewed as a vector [a]: entry i is entry (i, 0). -/
theorem vector_of_column_apply {a : Nat} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibRowFold
-- ==== Proof.TilePayload.lean ====
/-
  The kernel's payloads read at an entry, over the extended reals.

  The cost tile of a grid point at entry (b, r, c) is sqrt(max(|x_r|² + |y_c|² - 2 x_r·y_c, 0)) of row r of the point's
  first block and row c of its second; its two reductions by min are folds of min from +∞ over c and over r; the stores
  into the carried arrays are those values, or their min with what the arrays held; the row sum adds the sum of the
  row minima; the output block is ((row sum)/4096 + (sum of the column minima)/4096) · ½.
-/
import proofs.«153843_j48524540510941_1_alg».proof.Proof.TileStep
import proofs.«153843_j48524540510941_1_alg».proof.Proof.LibRowFold
import Idealize.ShloMosaic.Lib.ValueLayout

noncomputable section

open scoped BigOperators

namespace Cert.KernelIdeal.Tile

open Idealize.ShloMosaic Idealize.ShloMosaic.ValueIdx Cert.KernelIdeal Cert.KernelIdeal.Gen

/-! ## The layout chains of the cost tile -/

/-- Coordinate `e` of the rows of a [1, 4, 512, 2] block, as a [4, 512] array. -/
theorem comp_apply (o : ℕ) (e : Fin 2) (he : e.val = o) (x : FVec Ideal S1x4x512x2 .f32)
    (h0 : S1x4x512x2.ShapeCasts S4x512x2) (hs : S4x512x2.Slices ![0, 0, o] S4x512x1) (h3 : S4x512x1.ShapeCasts S4x512)
    (b : Fin 4) (r : Fin 512) :
    shapeCast S4x512 (extractStridedSlice S4x512x1 ![0, 0, o] (shapeCast S4x512x2 x h0) hs) h3 (ix2 b r)
      = x (ix4 (0 : Fin 1) b r e) := by
  refine (shapeCast_apply _ h3 (ix2 b r) (ix3 b r (0 : Fin 1)) ?_).trans ?_
  · rw [Shape.rowMajor_val_three, Shape.rowMajor_val_two]
    show (b.val * 512 + r.val) * 1 + 0 = b.val * 512 + r.val
    omega
  refine (extractStridedSlice_apply _ _ hs (ix3 b r (0 : Fin 1)) (ix3 b r e) (fun ax => ?_)).trans ?_
  · match ax with
    | ⟨0, _⟩ => exact (Nat.zero_add _).symm
    | ⟨1, _⟩ => exact (Nat.zero_add _).symm
    | ⟨2, _⟩ => show e.val = o + 0; omega
  exact shapeCast_1abc_abc_apply x h0 b r e

/-- A [4, 512] array spread along a new last axis reads its entry (b, r) at (b, r, c). -/
theorem spreadRow_apply (v : FVec Ideal S4x512 .f32) (h1 : S4x512.ShapeCasts S4x512x1) (h2 : S4x512x1.Broadcasts S4x512x512)
    (b : Fin 4) (r c : Fin 512) :
    broadcastTo S4x512x512 (shapeCast S4x512x1 v h1) h2 (ix3 b r c) = v (ix2 b r) := by
  refine (broadcastTo_apply _ h2 (ix3 b r c) (ix3 b r (0 : Fin 1)) (fun ax => ?_)).trans ?_
  · match ax with
    | ⟨0, _⟩ => rfl
    | ⟨1, _⟩ => rfl
    | ⟨2, _⟩ => rfl
  refine shapeCast_apply v h1 (ix3 b r (0 : Fin 1)) (ix2 b r) ?_
  rw [Shape.rowMajor_val_three, Shape.rowMajor_val_two]
  show b.val * 512 + r.val = (b.val * 512 + r.val) * 1 + 0
  omega

/-- A [4, 512] array spread along a new middle axis reads its entry (b, c) at (b, r, c). -/
theorem spreadCol_apply (v : FVec Ideal S4x512 .f32) (h1 : S4x512.ShapeCasts S4x1x512) (h2 : S4x1x512.Broadcasts S4x512x512)
    (b : Fin 4) (r c : Fin 512) :
    broadcastTo S4x512x512 (shapeCast S4x1x512 v h1) h2 (ix3 b r c) = v (ix2 b c) := by
  refine (broadcastTo_apply _ h2 (ix3 b r c) (ix3 b (0 : Fin 1) c) (fun ax => ?_)).trans ?_
  · match ax with
    | ⟨0, _⟩ => rfl
    | ⟨1, _⟩ => rfl
    | ⟨2, _⟩ => rfl
  refine shapeCast_apply v h1 (ix3 b (0 : Fin 1) c) (ix2 b c) ?_
  rw [Shape.rowMajor_val_three, Shape.rowMajor_val_two]
  show b.val * 512 + c.val = (b.val * 1 + 0) * 512 + c.val
  omega

/-- A square root at an entry is the square root of the entry. -/
theorem sqrt_apply {s : Shape} (a : FVec Ideal s .f32) (i : s.Idx) : sqrt a i = Ideal.sqrt (a i) := rfl

/-- An [a, b, c] array reduced by min along its last axis: entry (i, j) is the least of the entries (i, j, k), from the
    accumulator's value. -/
theorem min_axis2_of3_apply {φ : FTy} {a b c : Nat} (v : FVec Ideal ⟨3, ![a, b, c]⟩ φ) (acc : BitVec φ.bits)
    (h : (⟨3, ![a, b, c]⟩ : Shape).Reduces [2] ⟨2, ![a, b]⟩) (hφ : FKind.Formats φ) (hacc : acc = FKind.minimumf.neutral φ hφ)
    (i : Fin a) (j : Fin b) :
    multiReduction .minimumf [2] ⟨2, ![a, b]⟩ v acc h hφ hacc (ix2 i j)
      = (Finset.univ : Finset (Fin c)).fold min (Ideal.ofBits φ acc) (fun k => v (ix3 i j k)) :=
  (Cert.LibRowFold.multiReduction_minimumf_single v acc h hφ hacc (ix2 i j)).trans
    (congrArg (Finset.fold min (Ideal.ofBits φ acc) · (Finset.univ : Finset (Fin c))) (funext fun k => congrArg v (funext fun d => Fin.ext (by
      match d with
      | ⟨0, _⟩ => rfl
      | ⟨1, _⟩ => rfl
      | ⟨2, _⟩ => rfl))))

/-- An [a, b, c] array reduced by min along its middle axis: entry (i, k) is the least of the entries (i, j, k), from the
    accumulator's value. -/
theorem min_axis1_of3_apply {φ : FTy} {a b c : Nat} (v : FVec Ideal ⟨3, ![a, b, c]⟩ φ) (acc : BitVec φ.bits)
    (h : (⟨3, ![a, b, c]⟩ : Shape).Reduces [1] ⟨2, ![a, c]⟩) (hφ : FKind.Formats φ) (hacc : acc = FKind.minimumf.neutral φ hφ)
    (i : Fin a) (k : Fin c) :
    multiReduction .minimumf [1] ⟨2, ![a, c]⟩ v acc h hφ hacc (ix2 i k)
      = (Finset.univ : Finset (Fin b)).fold min (Ideal.ofBits φ acc) (fun j => v (ix3 i j k)) :=
  (Cert.LibRowFold.multiReduction_minimumf_single v acc h hφ hacc (ix2 i k)).trans
    (congrArg (Finset.fold min (Ideal.ofBits φ acc) · (Finset.univ : Finset (Fin b))) (funext fun j => congrArg v (funext fun d => Fin.ext (by
      match d with
      | ⟨0, _⟩ => rfl
      | ⟨1, _⟩ => rfl
      | ⟨2, _⟩ => rfl))))

/-- An [a, b] array summed along its second axis: entry i is the sum of the entries (i, j). -/
theorem add_axis1_of2_apply {φ : FTy} {a b : Nat} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ v acc h hφ hacc (ix1 i) = ∑ j : Fin b, v (ix2 i j) :=
  (Ideal.multiReduction_add_single v acc h hφ hacc (ix1 i)).trans
    (Finset.sum_congr rfl fun j _ => congrArg v (funext fun d => Fin.ext (by
      match d with
      | ⟨0, _⟩ => rfl
      | ⟨1, _⟩ => rfl)))

/-! ## The cost tile and its two reductions -/

/-- The cost tile at (b, r, c). -/
theorem pay8_apply (x y : FVec Ideal S1x4x512x2 .f32) (b : Fin 4) (r c : Fin 512) :
    k0_pay8 (F := Ideal) x y (ix3 b r c)
      = Ideal.sqrt (max
          ((x (ix4 (0 : Fin 1) b r (0 : Fin 2)) * x (ix4 (0 : Fin 1) b r (0 : Fin 2))
              + x (ix4 (0 : Fin 1) b r (1 : Fin 2)) * x (ix4 (0 : Fin 1) b r (1 : Fin 2)))
            + (y (ix4 (0 : Fin 1) b c (0 : Fin 2)) * y (ix4 (0 : Fin 1) b c (0 : Fin 2))
              + y (ix4 (0 : Fin 1) b c (1 : Fin 2)) * y (ix4 (0 : Fin 1) b c (1 : Fin 2)))
            - Ideal.ofBits .f32 0x40000000#32
              * (x (ix4 (0 : Fin 1) b r (0 : Fin 2)) * y (ix4 (0 : Fin 1) b c (0 : Fin 2))
                + x (ix4 (0 : Fin 1) b r (1 : Fin 2)) * y (ix4 (0 : Fin 1) b c (1 : Fin 2))))
          (Ideal.ofBits .f32 0x00000000#32)) := by
  unfold k0_pay8
  simp only [sqrt_apply, maximumf_apply, subf_apply, addf_apply, mulf_apply, broadcast_apply, spreadRow_apply,
    spreadCol_apply, comp_apply 0 (0 : Fin 2) rfl, comp_apply 1 (1 : Fin 2) rfl]
  rfl

/-- The tile's row minima: the fold of min from +∞ over the tile's columns. -/
theorem pay9_apply (x y : FVec Ideal S1x4x512x2 .f32) (b : Fin 4) (r : Fin 512) :
    k0_pay9 (F := Ideal) x y (ix2 b r)
      = (Finset.univ : Finset (Fin 512)).fold min (Ideal.ofBits .f32 0x7F800000#32) (fun c => k0_pay8 x y (ix3 b r c)) := by
  unfold k0_pay9
  exact min_axis2_of3_apply (k0_pay8 x y) _ _ _ _ b r

/-- The tile's column minima: the fold of min from +∞ over the tile's rows. -/
theorem pay10_apply (x y : FVec Ideal S1x4x512x2 .f32) (b : Fin 4) (c : Fin 512) :
    k0_pay10 (F := Ideal) x y (ix2 b c)
      = (Finset.univ : Finset (Fin 512)).fold min (Ideal.ofBits .f32 0x7F800000#32) (fun r => k0_pay8 x y (ix3 b r c)) := by
  unfold k0_pay10
  exact min_axis1_of3_apply (k0_pay8 x y) _ _ _ _ b c

/-! ## The stores -/

theorem pay1_eq (v : FVec Ideal S4x512 .f32) : k0_pay1 (F := Ideal) v = v := shapeCast_self v _
theorem pay2_apply (v w : FVec Ideal S4x512 .f32) (z : S4x512.Idx) : k0_pay2 (F := Ideal) v w z = min (w z) (v z) := by
  unfold k0_pay2; rw [shapeCast_self]; rfl
theorem pay3_eq (v : FVec Ideal S4x512 .f32) : k0_pay3 (F := Ideal) v = v := shapeCast_self v _
theorem pay4_apply (v w : FVec Ideal S4x512 .f32) (z : S4x512.Idx) : k0_pay4 (F := Ideal) v w z = min (w z) (v z) := by
  unfold k0_pay4; rw [shapeCast_self]; rfl
theorem pay5_apply (z : S4x1.Idx) : k0_pay5 (F := Ideal) z = 0 := by
  unfold k0_pay5; rw [shapeCast_self]; exact Ideal.ofBits_zero_f32

/-- The row sum after a point that finishes a row tile: what it held plus the sum of the tile's row minima. -/
theorem pay6_apply (s : FVec Ideal S4x1 .f32) (v : FVec Ideal S4x512 .f32) (b : Fin 4) :
    k0_pay6 (F := Ideal) s v (ix2 b (0 : Fin 1)) = s (ix2 b (0 : Fin 1)) + ∑ r : Fin 512, v (ix2 b r) := by
  unfold k0_pay6
  rw [shapeCast_self]
  show s (ix2 b (0 : Fin 1)) + shapeCast S4x1 _ shapeCasts_S4_S4x1 (ix2 b (0 : Fin 1)) = _
  congr 1
  refine (shapeCast_apply _ shapeCasts_S4_S4x1 (ix2 b (0 : Fin 1)) (ix1 b) ?_).trans ?_
  · rw [Shape.rowMajor_val_two, Shape.rowMajor_val_one]
    show b.val = b.val * 1 + 0
    omega
  exact add_axis1_of2_apply v _ _ _ _ b

/-- The output block: ((row sum)/4096 + (sum of the column minima)/4096) · ½. -/
theorem pay7_apply (s : FVec Ideal S4x1 .f32) (cm : FVec Ideal S4x4096 .f32) (b : Fin 4) :
    k0_pay7 (F := Ideal) s cm (ix3 (0 : Fin 1) b (0 : Fin 1))
      = (Ideal.div (s (ix2 b (0 : Fin 1))) (Ideal.ofBits .f32 0x45800000#32)
          + Ideal.div (∑ k : Fin 4096, cm (ix2 b k)) (Ideal.ofBits .f32 0x45800000#32)) * Ideal.ofBits .f32 0x3F000000#32 := by
  unfold k0_pay7
  refine (shapeCast_ab_1ab_apply _ shapeCasts_S4x1_S1x4x1 (0 : Fin 1) b (0 : Fin 1)).trans ?_
  show (Ideal.div (s (ix2 b (0 : Fin 1))) (Ideal.ofBits .f32 0x45800000#32)
      + Ideal.div (shapeCast S4x1 _ shapeCasts_S4_S4x1 (ix2 b (0 : Fin 1))) (Ideal.ofBits .f32 0x45800000#32)) * Ideal.ofBits .f32 0x3F000000#32 = _
  congr 3
  refine (shapeCast_apply _ shapeCasts_S4_S4x1 (ix2 b (0 : Fin 1)) (ix1 b) ?_).trans ?_
  · rw [Shape.rowMajor_val_two, Shape.rowMajor_val_one]
    show b.val = b.val * 1 + 0
    omega
  exact add_axis1_of2_apply cm _ _ _ _ b

end Cert.KernelIdeal.Tile

end
-- ==== Proof.TileMin.lean ====
/-
  Least values and tiled sums, as the tile-by-tile reductions of a cost matrix need them.

  A value `v` "is the least of `top` and the `f k` with `P k`" when the lower bounds of `v` are exactly the common
  lower bounds of `top` and those `f k`.  In a linear order this determines `v`, it is what a fold of `min` from `top`
  computes, and the `min` of two such values is the least over the union of the two index sets: so a running minimum
  kept tile by tile is the fold over everything seen so far, whatever the nesting.  A sum over 4096 = 8 · 512 entries is
  the sum over the eight tiles of the tiles' sums.
-/
import Mathlib.Data.Finset.Fold
import Mathlib.Algebra.BigOperators.Fin
import Mathlib.Algebra.BigOperators.Intervals

open scoped BigOperators

namespace Cert.TileMin

section Least
variable {α : Type*} [LinearOrder α] {ι κ : Type*}

/-- `v` is the least of `top` and the values `f k` at the `k` with `P k`. -/
def IsMinOver (v top : α) (P : ι → Prop) (f : ι → α) : Prop :=
  ∀ c, c ≤ v ↔ (c ≤ top ∧ ∀ k, P k → c ≤ f k)

/-- Two least values over the same index set are equal. -/
theorem IsMinOver.unique {v w top : α} {P Q : ι → Prop} {f : ι → α} (hv : IsMinOver v top P f)
    (hw : IsMinOver w top Q f) (h : ∀ k, P k ↔ Q k) : v = w :=
  eq_of_forall_le_iff fun c => by
    rw [hv c, hw c]
    exact and_congr_right fun _ => forall_congr' fun k => by rw [h k]

/-- The index set may be replaced by an equivalent one. -/
theorem IsMinOver.congr {v top : α} {P Q : ι → Prop} {f : ι → α} (hv : IsMinOver v top P f)
    (h : ∀ k, P k ↔ Q k) : IsMinOver v top Q f := fun c => by
  rw [hv c]
  exact and_congr_right fun _ => forall_congr' fun k => by rw [h k]

/-- The `min` of two least values is the least over the union. -/
theorem IsMinOver.min {v w top : α} {P Q : ι → Prop} {f : ι → α} (hv : IsMinOver v top P f)
    (hw : IsMinOver w top Q f) : IsMinOver (min v w) top (fun k => P k ∨ Q k) f := fun c => by
  rw [le_min_iff, hv c, hw c]
  constructor
  · rintro ⟨⟨h1, h2⟩, _, h3⟩
    exact ⟨h1, fun k hk => hk.elim (h2 k) (h3 k)⟩
  · rintro ⟨h1, h2⟩
    exact ⟨⟨h1, fun k hk => h2 k (Or.inl hk)⟩, h1, fun k hk => h2 k (Or.inr hk)⟩

/-- A fold of `min` from `top` over all of a finite type, of `f` along a map `e`, is the least over the image of `e`. -/
theorem isMinOver_fold_image [Fintype κ] (top : α) (f : ι → α) (e : κ → ι) (P : ι → Prop)
    (hP : ∀ k, P k ↔ ∃ x, e x = k) :
    IsMinOver ((Finset.univ : Finset κ).fold Min.min top (fun x => f (e x))) top P f := fun c => by
  rw [Finset.le_fold_min]
  refine and_congr_right fun _ => ⟨fun h k hk => ?_, fun h x _ => h (e x) ((hP _).2 ⟨x, rfl⟩)⟩
  obtain ⟨x, rfl⟩ := (hP k).1 hk
  exact h x (Finset.mem_univ x)

/-- A fold of `min` from `top` over all of a finite type is the least over every index. -/
theorem isMinOver_fold_univ [Fintype ι] (top : α) (f : ι → α) :
    IsMinOver ((Finset.univ : Finset ι).fold Min.min top f) top (fun _ => True) f :=
  isMinOver_fold_image top f id (fun _ => True) fun k => ⟨fun _ => ⟨k, rfl⟩, fun _ => trivial⟩

end Least

section Sum
variable {M : Type*} [AddCommMonoid M]

/-- The sum of tile `t` of a 4096-entry family: entries `512 t … 512 t + 511` (zero for `t ≥ 8`). -/
def tileSum (f : Fin 4096 → M) (t : ℕ) : M :=
  if h : t < 8 then ∑ r : Fin 512, f ⟨512 * t + r.val, by have := r.isLt; omega⟩ else 0

/-- A sum over 4096 entries is the sum of its eight tiles' sums. -/
theorem sum_eq_sum_tiles (f : Fin 4096 → M) : ∑ n : Fin 4096, f n = ∑ t ∈ Finset.range 8, tileSum f t := by
  rw [Finset.sum_range]
  have h1 : ∑ n : Fin 4096, f n = ∑ x : Fin 8 × Fin 512, f (finProdFinEquiv x) :=
    (Equiv.sum_comp (finProdFinEquiv (m := 8) (n := 512)) f).symm
  rw [h1, Fintype.sum_prod_type]
  refine Finset.sum_congr rfl fun t _ => ?_
  unfold tileSum
  rw [dif_pos t.isLt]
  refine Finset.sum_congr rfl fun r _ => congrArg f (Fin.ext ?_)
  show r.val + 512 * t.val = 512 * t.val + r.val
  omega

end Sum

end Cert.TileMin
-- ==== Proof.TileInvariant.lean ====
/-
  What the carried arrays hold after each grid point of one pair, over the extended reals.

  Fix a pair p of point sets A, B and a batch entry b, and write C n k for the cost of (point n of A, point k of B).
  After the point at row tile i, column tile j of the pair:
   • the running row minimum of row r is the least of +∞ and C (512 i + r) k over the columns k < 512 (j + 1);
   • the running column minimum of column k is the least of +∞ and C q k over the rows q < 512 (i + 1) when the
     column's tile has been visited in this row of tiles (k < 512 (j + 1)), over q < 512 i otherwise (i > 0);
   • the row sum is the sum of the finished row tiles' sums of nearest costs.
  Each point needs of the arrays it finds exactly what the previous point of the pair leaves, and the pair's first point
  needs nothing; so the invariant holds along the pair's 64 points whatever the arrays held before.
-/
import proofs.«153843_j48524540510941_1_alg».proof.Proof.TilePayload
import proofs.«153843_j48524540510941_1_alg».proof.Proof.TileMin
import proofs.«153843_j48524540510941_1_alg».proof.Proof.ChamferSpec

noncomputable section

open scoped BigOperators

namespace Cert.KernelIdeal.Tile

open Idealize.ShloMosaic Idealize.ShloMosaic.ValueIdx Cert.KernelIdeal Cert.KernelIdeal.Gen Cert.TileMin Cert.Chamfer

/-- The point sets of pair `p` of a [3, 4, 4096, 2] array. -/
def ptsOf (X : Vec Ideal S3x4x4096x2 .f32) (p : Fin 3) : Pts := fun z => X (ix4 p (z 0) (z 1) (z 2))

/-- Entry `r` of tile `t` among 4096 entries. -/
def tIdx (t : Fin 8) (r : Fin 512) : Fin 4096 := ⟨512 * t.val + r.val, by have := t.isLt; have := r.isLt; omega⟩

/-- The value folds of min start from: the word of +∞. -/
abbrev pinf : EReal := Ideal.ofBits .f32 0x7F800000#32

/-! ## Reading one grid point's results -/

theorem tileWrite_apply (j : Fin 8) (v : Vec Ideal S4x512 .f32) (s : Vec Ideal S4x4096 .f32) (b : Fin 4) (k : Fin 4096) :
    tileWrite j v s (ix2 b k)
      = if h : 512 * j.val ≤ k.val ∧ k.val < 512 * j.val + 512 then v (ix2 b ⟨k.val - 512 * j.val, by omega⟩) else s (ix2 b k) := rfl

theorem tileRead_apply (j : Fin 8) (s : Vec Ideal S4x4096 .f32) (b : Fin 4) (c : Fin 512) :
    tileRead j s (ix2 b c) = s (ix2 b (tIdx j c)) := rfl

theorem step_rowMin (i j : Fin 8) (x y : Vec Ideal S1x4x512x2 .f32) (c : Carry Ideal) (z : S4x512.Idx) :
    (step i j x y c).rowMin z = if j.val = 0 then k0_pay9 x y z else min (c.rowMin z) (k0_pay9 x y z) := by
  simp only [step]
  by_cases hj : j.val = 0
  · rw [if_pos hj, if_pos hj, pay1_eq]
  · rw [if_neg hj, if_neg hj, pay2_apply]

theorem step_colMin (i j : Fin 8) (x y : Vec Ideal S1x4x512x2 .f32) (c : Carry Ideal) (b : Fin 4) (k : Fin 4096) :
    (step i j x y c).colMin (ix2 b k)
      = if h : 512 * j.val ≤ k.val ∧ k.val < 512 * j.val + 512 then
          (if i.val = 0 then k0_pay10 x y (ix2 b ⟨k.val - 512 * j.val, by omega⟩)
            else min (c.colMin (ix2 b k)) (k0_pay10 x y (ix2 b ⟨k.val - 512 * j.val, by omega⟩)))
        else c.colMin (ix2 b k) := by
  simp only [step]
  by_cases hi : i.val = 0
  · rw [if_pos hi, tileWrite_apply]
    by_cases h : 512 * j.val ≤ k.val ∧ k.val < 512 * j.val + 512
    · rw [dif_pos h, dif_pos h, if_pos hi, pay3_eq]
    · rw [dif_neg h, dif_neg h]
  · rw [if_neg hi, tileWrite_apply]
    by_cases h : 512 * j.val ≤ k.val ∧ k.val < 512 * j.val + 512
    · rw [dif_pos h, dif_pos h, if_neg hi, pay4_apply, tileRead_apply]
      congr 2
      exact congrArg (ix2 b) (Fin.ext (by show 512 * j.val + (k.val - 512 * j.val) = k.val; omega))
    · rw [dif_neg h, dif_neg h]

theorem step_rowSum (i j : Fin 8) (x y : Vec Ideal S1x4x512x2 .f32) (c : Carry Ideal) (b : Fin 4) :
    (step i j x y c).rowSum (ix2 b (0 : Fin 1))
      = if j.val = 7 then
          (if i.val = 0 ∧ j.val = 0 then (0 : EReal) else c.rowSum (ix2 b (0 : Fin 1)))
            + ∑ r : Fin 512, (step i j x y c).rowMin (ix2 b r)
        else (if i.val = 0 ∧ j.val = 0 then (0 : EReal) else c.rowSum (ix2 b (0 : Fin 1))) := by
  have h0 : (if i.val = 0 ∧ j.val = 0 then k0_pay5 (F := Ideal) else c.rowSum) (ix2 b (0 : Fin 1))
      = if i.val = 0 ∧ j.val = 0 then (0 : EReal) else c.rowSum (ix2 b (0 : Fin 1)) := by
    by_cases h : i.val = 0 ∧ j.val = 0
    · rw [if_pos h, if_pos h, pay5_apply]
    · rw [if_neg h, if_neg h]
  simp only [step]
  by_cases hj : j.val = 7
  · simp only [if_pos hj]
    rw [pay6_apply, h0]
  · simp only [if_neg hj]
    exact h0

/-! ## The cost tile of a point of pair `p` -/

section Pair
variable (X Y : Vec Ideal S3x4x4096x2 .f32) (p : Fin 3) (b : Fin 4)

theorem pay8_blk (i j : Fin 8) (r c : Fin 512) :
    k0_pay8 (F := Ideal) (blk X p i) (blk Y p j) (ix3 b r c) = cost (ptsOf X p) (ptsOf Y p) b (tIdx i r) (tIdx j c) := by
  rw [pay8_apply]; rfl

/-- The tile's row minimum of row `r`: the least over the tile's columns of the costs of row `512 i + r`. -/
theorem rowTile (i j : Fin 8) (r : Fin 512) :
    IsMinOver (k0_pay9 (F := Ideal) (blk X p i) (blk Y p j) (ix2 b r)) pinf
      (fun k : Fin 4096 => 512 * j.val ≤ k.val ∧ k.val < 512 * j.val + 512)
      (fun k => cost (ptsOf X p) (ptsOf Y p) b (tIdx i r) k) := by
  rw [pay9_apply]
  simp only [pay8_blk]
  refine isMinOver_fold_image pinf (fun k => cost (ptsOf X p) (ptsOf Y p) b (tIdx i r) k) (fun c => tIdx j c) _
    (fun k => ⟨fun h => ⟨⟨k.val - 512 * j.val, by omega⟩,
      Fin.ext (by show 512 * j.val + (k.val - 512 * j.val) = k.val; omega)⟩, ?_⟩)
  rintro ⟨x, rfl⟩
  have := x.isLt
  show 512 * j.val ≤ 512 * j.val + x.val ∧ 512 * j.val + x.val < 512 * j.val + 512
  omega

/-- The tile's column minimum of column `c`: the least over the tile's rows of the costs of column `512 j + c`. -/
theorem colTile (i j : Fin 8) (c : Fin 512) :
    IsMinOver (k0_pay10 (F := Ideal) (blk X p i) (blk Y p j) (ix2 b c)) pinf
      (fun q : Fin 4096 => 512 * i.val ≤ q.val ∧ q.val < 512 * i.val + 512)
      (fun q => cost (ptsOf X p) (ptsOf Y p) b q (tIdx j c)) := by
  rw [pay10_apply]
  simp only [pay8_blk]
  refine isMinOver_fold_image pinf (fun q => cost (ptsOf X p) (ptsOf Y p) b q (tIdx j c)) (fun r => tIdx i r) _
    (fun q => ⟨fun h => ⟨⟨q.val - 512 * i.val, by omega⟩,
      Fin.ext (by show 512 * i.val + (q.val - 512 * i.val) = q.val; omega)⟩, ?_⟩)
  rintro ⟨x, rfl⟩
  have := x.isLt
  show 512 * i.val ≤ 512 * i.val + x.val ∧ 512 * i.val + x.val < 512 * i.val + 512
  omega

end Pair

/-! ## The invariant -/

section Invariant
variable (A B : Pts) (b : Fin 4)

/-- What the arrays hold after the point at row tile `i`, column tile `j` of the pair. -/
structure Inv (i j : Fin 8) (c : Carry Ideal) : Prop where
  row : ∀ r : Fin 512, IsMinOver (c.rowMin (ix2 b r)) pinf (fun k : Fin 4096 => k.val < 512 * (j.val + 1))
    (fun k => cost A B b (tIdx i r) k)
  col : ∀ k : Fin 4096, (0 < i.val ∨ k.val < 512 * (j.val + 1)) →
    IsMinOver (c.colMin (ix2 b k)) pinf
      (fun q : Fin 4096 => q.val < 512 * (if k.val < 512 * (j.val + 1) then i.val + 1 else i.val)) (fun q => cost A B b q k)
  sum : c.rowSum (ix2 b (0 : Fin 1))
    = ∑ t ∈ Finset.range (if j.val = 7 then i.val + 1 else i.val), tileSum (nearRow A B b) t

/-- What the point at row tile `i`, column tile `j` needs of the arrays it finds. -/
structure Pre (i j : Fin 8) (c : Carry Ideal) : Prop where
  row : j.val = 0 ∨ ∀ r : Fin 512, IsMinOver (c.rowMin (ix2 b r)) pinf (fun k : Fin 4096 => k.val < 512 * j.val)
    (fun k => cost A B b (tIdx i r) k)
  col : ∀ k : Fin 4096, (0 < i.val ∨ k.val < 512 * j.val) →
    IsMinOver (c.colMin (ix2 b k)) pinf
      (fun q : Fin 4096 => q.val < 512 * (if k.val < 512 * j.val then i.val + 1 else i.val)) (fun q => cost A B b q k)
  sum : (i.val = 0 ∧ j.val = 0) ∨ c.rowSum (ix2 b (0 : Fin 1)) = ∑ t ∈ Finset.range i.val, tileSum (nearRow A B b) t

/-- The pair's first point needs nothing. -/
theorem pre_first (i j : Fin 8) (hi : i.val = 0) (hj : j.val = 0) (c : Carry Ideal) : Pre A B b i j c :=
  ⟨Or.inl hj, fun k h => absurd h (by omega), Or.inl ⟨hi, hj⟩⟩

/-- The next point of the same row of tiles finds what it needs. -/
theorem pre_same_row (i i' j j' : Fin 8) (hi : i'.val = i.val) (hj : j'.val = j.val + 1) (c : Carry Ideal)
    (h : Inv A B b i j c) : Pre A B b i' j' c := by
  obtain rfl : i' = i := Fin.ext hi
  have hj7 : ¬ j.val = 7 := by have := j'.isLt; omega
  refine ⟨Or.inr fun r => ?_, fun k hk => ?_, Or.inr ?_⟩
  · rw [hj]; exact h.row r
  · rw [hj] at hk ⊢; exact h.col k hk
  · rw [h.sum, if_neg hj7]

/-- The first point of the next row of tiles finds what it needs. -/
theorem pre_next_row (i i' j j' : Fin 8) (hi : i'.val = i.val + 1) (hj7 : j.val = 7) (hj' : j'.val = 0) (c : Carry Ideal)
    (h : Inv A B b i j c) : Pre A B b i' j' c := by
  refine ⟨Or.inl hj', fun k _ => ?_, Or.inr ?_⟩
  · have hk := k.isLt
    have h1 := h.col k (Or.inr (by rw [hj7]; omega))
    rw [if_pos (by rw [hj7]; omega)] at h1
    rw [hj', if_neg (by omega), hi]
    exact h1
  · rw [h.sum, if_pos hj7, hi]

end Invariant

section Step
variable (X Y : Vec Ideal S3x4x4096x2 .f32) (p : Fin 3) (b : Fin 4)

/-- A point of pair `p` that finds what it needs leaves the invariant. -/
theorem inv_step (i j : Fin 8) (c : Carry Ideal) (hpre : Pre (ptsOf X p) (ptsOf Y p) b i j c) :
    Inv (ptsOf X p) (ptsOf Y p) b i j (step i j (blk X p i) (blk Y p j) c) := by
  have hrow : ∀ r : Fin 512, IsMinOver ((step i j (blk X p i) (blk Y p j) c).rowMin (ix2 b r)) pinf
      (fun k : Fin 4096 => k.val < 512 * (j.val + 1)) (fun k => cost (ptsOf X p) (ptsOf Y p) b (tIdx i r) k) := by
    intro r
    rw [step_rowMin]
    by_cases hj : j.val = 0
    · rw [if_pos hj]
      exact (rowTile X Y p b i j r).congr fun k => by beta_reduce; rw [hj]; omega
    · rw [if_neg hj]
      exact ((hpre.row.resolve_left hj r).min (rowTile X Y p b i j r)).congr fun k => by beta_reduce; omega
  refine ⟨hrow, ?_, ?_⟩
  · intro k hk
    have hkl := k.isLt
    rw [step_colMin]
    by_cases ht : 512 * j.val ≤ k.val ∧ k.val < 512 * j.val + 512
    · rw [dif_pos ht, if_pos (show k.val < 512 * (j.val + 1) by omega)]
      have hkk : tIdx j ⟨k.val - 512 * j.val, by omega⟩ = k :=
        Fin.ext (by show 512 * j.val + (k.val - 512 * j.val) = k.val; omega)
      have hT := colTile X Y p b i j ⟨k.val - 512 * j.val, by omega⟩
      rw [hkk] at hT
      by_cases hi : i.val = 0
      · rw [if_pos hi]
        exact hT.congr fun q => by beta_reduce; rw [hi]; omega
      · rw [if_neg hi]
        have hC := hpre.col k (Or.inl (by omega))
        rw [if_neg (show ¬ k.val < 512 * j.val by omega)] at hC
        exact (hC.min hT).congr fun q => by beta_reduce; omega
    · rw [dif_neg ht]
      by_cases hlt : k.val < 512 * j.val
      · have hC := hpre.col k (Or.inr hlt)
        rw [if_pos hlt] at hC
        rw [if_pos (show k.val < 512 * (j.val + 1) by omega)]
        exact hC
      · have hi : 0 < i.val := by omega
        have hC := hpre.col k (Or.inl hi)
        rw [if_neg hlt] at hC
        rw [if_neg (show ¬ k.val < 512 * (j.val + 1) by omega)]
        exact hC
  · rw [step_rowSum]
    have hrs0 : (if i.val = 0 ∧ j.val = 0 then (0 : EReal) else c.rowSum (ix2 b (0 : Fin 1)))
        = ∑ t ∈ Finset.range i.val, tileSum (nearRow (ptsOf X p) (ptsOf Y p) b) t := by
      by_cases h0 : i.val = 0 ∧ j.val = 0
      · rw [if_pos h0, h0.1, Finset.range_zero, Finset.sum_empty]
      · rw [if_neg h0]; exact hpre.sum.resolve_left h0
    rw [hrs0]
    by_cases hj : j.val = 7
    · rw [if_pos hj, if_pos hj, Finset.sum_range_succ]
      congr 1
      unfold tileSum
      rw [dif_pos i.isLt]
      refine Finset.sum_congr rfl fun r _ => ?_
      exact (hrow r).unique (isMinOver_fold_univ pinf (fun k => cost (ptsOf X p) (ptsOf Y p) b (tIdx i r) k))
        (fun k => by have := k.isLt; beta_reduce; rw [hj]; exact ⟨fun _ => trivial, fun _ => by omega⟩)
    · rw [if_neg hj, if_neg hj]

end Step

end Cert.KernelIdeal.Tile

end
-- ==== Proof.TileChamfer.lean ====
/-
  The output block of a pair's last grid point is the Chamfer distance of the pair's two point sets.

  The invariant of the carried arrays holds after each of the pair's 64 points: the pair's first point needs nothing of
  the arrays it finds, and each later point finds what the previous one left.  After the last point every row tile's sum of
  nearest costs has been added to the row sum and every column minimum has seen every row, so the row sum is the sum of
  the 4096 nearest costs of the first set's points and the column minima are the nearest costs of the second set's points.
-/
import proofs.«153843_j48524540510941_1_alg».proof.Proof.TileInvariant

noncomputable section

open scoped BigOperators

namespace Cert.KernelIdeal.Tile

open Idealize.ShloMosaic Idealize.ShloMosaic.ValueIdx Cert.KernelIdeal Cert.KernelIdeal.Gen Cert.TileMin Cert.Chamfer

/-- Point `64 p + m` of the grid is the point of pair `p` at row tile `m / 8`, column tile `m % 8`. -/
theorem coords (p : Fin 3) (m : ℕ) (hm : m < 64) :
    pairOf (64 * p.val + m) = p ∧ rowOf (64 * p.val + m) = ⟨m / 8, by omega⟩
      ∧ colOf (64 * p.val + m) = ⟨m % 8, by omega⟩ := by
  have := p.isLt
  refine ⟨Fin.ext ?_, Fin.ext ?_, Fin.ext ?_⟩
  · show (64 * p.val + m) / 64 % 3 = p.val; omega
  · show (64 * p.val + m) / 8 % 8 = m / 8; omega
  · show (64 * p.val + m) % 8 = m % 8; omega

section Run
variable (X Y : Vec Ideal S3x4x4096x2 .f32) (c0 : Carry Ideal) (p : Fin 3) (b : Fin 4)

/-- What the arrays hold after any point is that point's step from some contents. -/
theorem run_form (n : ℕ) : ∃ c, run X Y c0 n
    = step (rowOf n) (colOf n) (blk X (pairOf n) (rowOf n)) (blk Y (pairOf n) (colOf n)) c := by
  cases n with
  | zero => exact ⟨c0, rfl⟩
  | succ n => exact ⟨run X Y c0 n, rfl⟩

/-- The invariant holds after each point of pair `p`. -/
theorem run_inv : ∀ (m : ℕ) (hm : m < 64),
    Inv (ptsOf X p) (ptsOf Y p) b ⟨m / 8, by omega⟩ ⟨m % 8, by omega⟩ (run X Y c0 (64 * p.val + m))
  | 0, hm => by
    obtain ⟨c, hc⟩ := run_form X Y c0 (64 * p.val + 0)
    obtain ⟨h1, h2, h3⟩ := coords p 0 hm
    rw [hc, h1, h2, h3]
    exact inv_step X Y p b _ _ c (pre_first _ _ b _ _ rfl rfl c)
  | m + 1, hm => by
    obtain ⟨h1, h2, h3⟩ := coords p (m + 1) hm
    have ih := run_inv m (by omega)
    show Inv _ _ b _ _ (step (rowOf (64 * p.val + (m + 1))) (colOf (64 * p.val + (m + 1)))
      (blk X (pairOf (64 * p.val + (m + 1))) (rowOf (64 * p.val + (m + 1))))
      (blk Y (pairOf (64 * p.val + (m + 1))) (colOf (64 * p.val + (m + 1)))) (run X Y c0 (64 * p.val + m)))
    rw [h1, h2, h3]
    refine inv_step X Y p b _ _ _ ?_
    by_cases h8 : (m + 1) % 8 = 0
    · exact pre_next_row _ _ b ⟨m / 8, by omega⟩ _ ⟨m % 8, by omega⟩ _ (by show (m + 1) / 8 = m / 8 + 1; omega)
        (by show m % 8 = 7; omega) h8 _ ih
    · exact pre_same_row _ _ b ⟨m / 8, by omega⟩ _ ⟨m % 8, by omega⟩ _ (by show (m + 1) / 8 = m / 8; omega)
        (by show (m + 1) % 8 = m % 8 + 1; omega) _ ih

/-- The output block of the last point of pair `p` is the Chamfer distance of the pair's point sets. -/
theorem out_chamfer :
    outOf (run X Y c0 (64 * p.val + 63)) (ix3 (0 : Fin 1) b (0 : Fin 1)) = chamfer (ptsOf X p) (ptsOf Y p) b := by
  have h := run_inv X Y c0 p b 63 (by omega)
  have hsum : (run X Y c0 (64 * p.val + 63)).rowSum (ix2 b (0 : Fin 1))
      = ∑ n : Fin 4096, nearRow (ptsOf X p) (ptsOf Y p) b n := by
    rw [h.sum, sum_eq_sum_tiles]
    rfl
  have hcol : ∀ k : Fin 4096, (run X Y c0 (64 * p.val + 63)).colMin (ix2 b k) = nearCol (ptsOf X p) (ptsOf Y p) b k :=
    fun k => (h.col k (Or.inl (by show 0 < 63 / 8; omega))).unique
      (isMinOver_fold_univ pinf (fun q => cost (ptsOf X p) (ptsOf Y p) b q k)) (fun q => by
        have hq := q.isLt
        have hk := k.isLt
        show q.val < 512 * (if k.val < 512 * (63 % 8 + 1) then 63 / 8 + 1 else 63 / 8) ↔ True
        rw [if_pos (by omega)]
        exact ⟨fun _ => trivial, fun _ => by omega⟩)
  unfold outOf
  rw [pay7_apply, hsum, Finset.sum_congr rfl (fun k _ => hcol k)]
  rfl

/-- The same, with the pair's point sets written out. -/
theorem out_chamfer' :
    outOf (run X Y c0 (64 * p.val + 63)) (ix3 (0 : Fin 1) b (0 : Fin 1))
      = chamfer (fun z => X (ix4 p (z 0) (z 1) (z 2))) (fun z => Y (ix4 p (z 0) (z 1) (z 2))) b :=
  out_chamfer X Y c0 p b

end Run

end Cert.KernelIdeal.Tile

end
-- ==== Proof.KernelValue.lean ====
/-
  The kernel's program over the extended reals: its result is the loss of the three argument arrays.

  The region leaves, in entry (p, b, 0) of its output array, the output block of the last grid point of pair p; that block
  is the Chamfer distance of the pair's two point sets; the pair's sets are the stacked arguments (first, first, second)
  and (second, third, third); and the operations after the region turn the three pairs' distances into the loss. No
  operation writes an argument array.
-/
import proofs.«153843_j48524540510941_1_alg».proof.Proof.RegionRun
import proofs.«153843_j48524540510941_1_alg».proof.Proof.RegionTail
import proofs.«153843_j48524540510941_1_alg».proof.Proof.RegionHead
import proofs.«153843_j48524540510941_1_alg».proof.Proof.TileChamfer

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Pair `p`'s first point set, read off the first stacked array. -/
theorem ptsX (c : Dev nD) (p : Fin 3) :
    Tile.ptsOf (XX m c) p = Cert.Chamfer.fstOf (m ((c : Thread nD τ).loc main_arg0)) (m ((c : Thread nD τ).loc main_arg1))
      (m ((c : Thread nD τ).loc main_arg2)) p := by
  funext z
  show XX m c (ix4 p (z 0) (z 1) (z 2)) = _
  rw [show XX m c = Head.stackX (m ((c : Thread nD τ).loc main_arg0)) (m ((c : Thread nD τ).loc main_arg1))
    (m ((c : Thread nD τ).loc main_arg2)) from V_v3 m c]
  exact (Head.stackX_apply _ _ _ p (z 0) (z 1) (z 2)).trans (congrArg _ (eq_ix3 z).symm)

/-- Pair `p`'s second point set, read off the second stacked array. -/
theorem ptsY (c : Dev nD) (p : Fin 3) :
    Tile.ptsOf (YY m c) p = Cert.Chamfer.sndOf (m ((c : Thread nD τ).loc main_arg0)) (m ((c : Thread nD τ).loc main_arg1))
      (m ((c : Thread nD τ).loc main_arg2)) p := by
  funext z
  show YY m c (ix4 p (z 0) (z 1) (z 2)) = _
  rw [show YY m c = Head.stackY (m ((c : Thread nD τ).loc main_arg0)) (m ((c : Thread nD τ).loc main_arg1))
    (m ((c : Thread nD τ).loc main_arg2)) from V_v7 m c]
  exact (Head.stackY_apply _ _ _ p (z 0) (z 1) (z 2)).trans (congrArg _ (eq_ix3 z).symm)

/-- Entry (p, b, 0) of the region's output array is the Chamfer distance of pair `p` at batch entry `b`. -/
theorem out_entry (c : Dev nD) (p : Fin 3) (b : Fin 4) :
    (dats m 0 c).arrAt 2 cfg0.N (ix3 (n0 := 3) (n1 := 4) (n2 := 1) p b (0 : Fin 1))
      = Cert.Chamfer.chamfer
          (Cert.Chamfer.fstOf (m ((c : Thread nD τ).loc main_arg0)) (m ((c : Thread nD τ).loc main_arg1)) (m ((c : Thread nD τ).loc main_arg2)) p)
          (Cert.Chamfer.sndOf (m ((c : Thread nD τ).loc main_arg0)) (m ((c : Thread nD τ).loc main_arg1)) (m ((c : Thread nD τ).loc main_arg2)) p) b := by
  refine (arrAt_out (dats m 0 c) (fun p => Tile.outOf (Tile.run (XX m c) (YY m c) junk (64 * p.val + 63)))
    (fun p => after0_2 m c _) p b).trans ?_
  refine (Tile.out_chamfer (XX m c) (YY m c) junk p b).trans ?_
  rw [ptsX, ptsY]

/-- The kernel's program runs, ends with the loss of its three arguments in its result, and leaves the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v16)
        = Cert.Chamfer.loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v16 (Pipeline.mem_restRefs_of main_v16 (by decide) (by decide))).trans
        ((tail_v16 m (dats m) c).trans (Tail.tail_loss _ _ _ _ (out_entry m c))),
      ((h c).2 main_arg0 (Pipeline.mem_restRefs_of main_arg0 (by decide) (by decide))).trans (tail_arg0 m (dats m) c),
      ((h c).2 main_arg1 (Pipeline.mem_restRefs_of main_arg1 (by decide) (by decide))).trans (tail_arg1 m (dats m) c),
      ((h c).2 main_arg2 (Pipeline.mem_restRefs_of main_arg2 (by decide) (by decide))).trans (tail_arg2 m (dats m) c)⟩)
    (run_main (F := Ideal) m ρ)

end Cert.KernelIdeal.Region

end
-- ==== Proof.RefCost.lean ====
/-
  The reference's cost matrix, entry by entry: for two argument arrays A, B its entry (b, n, k) is
  sqrt(max(|a|² + |b|² - 2 a·b, 0)) of point n of A and point k of B, where |a|² is spelt 0 + Σ_d a_d·a_d and a·b as a
  contraction over the two coordinates.
-/
import proofs.«153843_j48524540510941_1_alg».proof.Proof.Gen.ReferenceIdeal.Read
import proofs.«153843_j48524540510941_1_alg».proof.Proof.ChamferSpec

noncomputable section

open scoped BigOperators

namespace Cert.ReferenceIdeal.RefLoss

open Cert.ReferenceIdeal Cert.ReferenceIdeal.Gen Cert.ReferenceIdeal.Read Idealize.ShloMosaic Idealize.ShloMosaic.ValueIdx

/-- Entry (p, q, j) of the reference's cost matrix of the first pair is the cost of point q of A and point j of B. -/
theorem cost_eq (a b : FVec Ideal S4x4096x2 .f32) (p : Fin 4) (q j : Fin 4096) :
    val_main_v15 (F := Ideal) a b (ix3 p q j) = Cert.Chamfer.cost a b p q j := by
  have ea : ∀ k : Fin 2, idx_main_v1 (idx_main_v5 (idx_main_v7 (ix3 p q j))) k = ix3 p q k := fun k =>
    funext fun d => Fin.ext (by match d with | ⟨0, _⟩ => rfl | ⟨1, _⟩ => rfl | ⟨2, _⟩ => rfl)
  have eb : ∀ k : Fin 2, idx_main_v3 (idx_main_v6 (idx_main_v8 (ix3 p q j))) k = ix3 p j k := fun k =>
    funext fun d => Fin.ext (by match d with | ⟨0, _⟩ => rfl | ⟨1, _⟩ => rfl | ⟨2, _⟩ => rfl)
  have el : ∀ k : Fin 2, lidx_main_v4 (ix3 p q j) k = ix3 p q k := fun k =>
    funext fun d => Fin.ext (by match d with | ⟨0, _⟩ => rfl | ⟨1, _⟩ => rfl | ⟨2, _⟩ => rfl)
  have er : ∀ k : Fin 2, ridx_main_v4 (ix3 p q j) k = ix3 p j k := fun k =>
    funext fun d => Fin.ext (by match d with | ⟨0, _⟩ => rfl | ⟨1, _⟩ => rfl | ⟨2, _⟩ => rfl)
  simp only [val_main_v15_apply, val_main_v14_apply, val_main_v12_apply, val_main_v9_apply, val_main_v11_apply,
    val_main_v13_apply, val_main_cst_2_apply, val_main_v10_apply, val_main_cst_1_apply,
    val_main_v7_apply, val_main_v5_apply, val_main_v8_apply, val_main_v6_apply, val_main_v4_apply,
    val_main_v1_apply, val_main_v3_apply, Fin.sum_univ_two,
    val_main_v0_apply, val_main_v2_apply, val_main_cst_apply, val_main_cst_0_apply, ea, eb, el, er]
  simp only [Ideal.hostUnary_sqrt_def, Ideal.maximumf_def, Ideal.subf_def, Ideal.addf_def, Ideal.mulf_def, Ideal.ofBits_def,
    Ideal.ofBits_zero_f32, zero_add, Cert.Chamfer.cost, Cert.Chamfer.sqn, Cert.Chamfer.dotp]

end Cert.ReferenceIdeal.RefLoss

end
-- ==== Proof.LibColFold.lean ====
/-
  Reductions along the middle axis of a rank-3 array, read at an entry.

  A reduction by a commutative, associative operation is a fold whose value at an entry does not depend on the order of the
  fold: reducing an [n, a, b] array along its middle axis gives, at entry (p, q), the fold of the operation from the initial
  value over the entries (p, j, q), j running over the middle axis.
-/
import Idealize.ShloMosaic.Lib.ValueIdx
import Idealize.ShloMosaic.Lib.Pipeline.Value
import Idealize.ShloMosaic.PureOps.Ideal.Laws

namespace Cert.LibColFold

open Idealize.ShloMosaic Idealize.ShloMosaic.ValueIdx

variable {φ : FTy} {α : Type}

/-- A host reduction of an [n, a, b] array along its middle axis by a commutative, associative operation: entry (p, q) is
    the fold of the operation from the initial value over the entries (p, j, q). -/
theorem hostReduce_axis1_apply (f : α → α → α) [Std.Commutative f] [Std.Associative f] {n a b : Nat}
    (x : (⟨3, ![n, a, b]⟩ : Shape).Idx → α) {u : Shape} (init : u.Idx → α)
    (h' : (⟨3, ![n, a, b]⟩ : Shape).ReducesTo [1] ⟨2, ![n, b]⟩) (h : (⟨3, ![n, a, b]⟩ : Shape).Reduces [1] ⟨2, ![n, b]⟩)
    (hu : 0 < u.numel) (p : Fin n) (q : Fin b) :
    Host.reduce f x init h' hu (ix2 p q)
      = (Finset.univ : Finset (Fin a)).fold f (init (Shape.Idx.first hu)) (fun j => x (ix3 p j q)) :=
  (Host.reduce_eq_fold_single f x init h' h hu (ix2 p q)).trans
    (congrArg (Finset.fold f (init (Shape.Idx.first hu)) · (Finset.univ : Finset (Fin a))) (funext fun j => congrArg x (funext fun d => Fin.ext (by
      match d with
      | ⟨0, _⟩ => rfl
      | ⟨1, _⟩ => rfl
      | ⟨2, _⟩ => rfl))))

/-- A host reduction by min of an [n, a, b] array of extended reals along its middle axis. -/
theorem hostReduce_min_axis1_apply {n a b : Nat} (x : FVec Ideal ⟨3, ![n, a, b]⟩ φ) {u : Shape} (init : FVec Ideal u φ)
    (h' : (⟨3, ![n, a, b]⟩ : Shape).ReducesTo [1] ⟨2, ![n, b]⟩) (h : (⟨3, ![n, a, b]⟩ : Shape).Reduces [1] ⟨2, ![n, b]⟩)
    (hu : 0 < u.numel) (p : Fin n) (q : Fin b) :
    Host.reduce (FloatOps.minimumf (F := Ideal) (φ := φ)) x init h' hu (ix2 p q)
      = (Finset.univ : Finset (Fin a)).fold min (init (Shape.Idx.first hu)) (fun j => x (ix3 p j q)) :=
  hostReduce_axis1_apply (FloatOps.minimumf (F := Ideal) (φ := φ)) x init h' h hu p q

/-- A host reduction by max of an [n, a, b] array of extended reals along its middle axis. -/
theorem hostReduce_max_axis1_apply {n a b : Nat} (x : FVec Ideal ⟨3, ![n, a, b]⟩ φ) {u : Shape} (init : FVec Ideal u φ)
    (h' : (⟨3, ![n, a, b]⟩ : Shape).ReducesTo [1] ⟨2, ![n, b]⟩) (h : (⟨3, ![n, a, b]⟩ : Shape).Reduces [1] ⟨2, ![n, b]⟩)
    (hu : 0 < u.numel) (p : Fin n) (q : Fin b) :
    Host.reduce (FloatOps.maximumf (F := Ideal) (φ := φ)) x init h' hu (ix2 p q)
      = (Finset.univ : Finset (Fin a)).fold max (init (Shape.Idx.first hu)) (fun j => x (ix3 p j q)) :=
  hostReduce_axis1_apply (FloatOps.maximumf (F := Ideal) (φ := φ)) x init h' h hu p q

end Cert.LibColFold
-- ==== Proof.ChamferConsts.lean ====
/-
  The float words of the Chamfer loss that have to be evaluated, as the extended reals they denote: +0.0 is 0, 2.0 is
  the real 2 and 0.5 the real 1/2, so that a quotient by 2.0 is the product with 0.5 on every extended real.
-/
import Idealize.ShloMosaic.PureOps.Ideal.Laws

noncomputable section

namespace Cert.Chamfer.Consts

open Idealize.ShloMosaic

/-- The word of 2.0 denotes the real 2. -/
theorem ofBits_two : Ideal.ofBits .f32 0x40000000#32 = ((2 : ℝ) : EReal) := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- A quotient by 2.0 is the product with 0.5, on every extended real. -/
theorem div_two (x : EReal) : Ideal.div x (Ideal.ofBits .f32 0x40000000#32) = x * Ideal.ofBits .f32 0x3F000000#32 := by
  rw [ofBits_two, ofBits_half]; exact Ideal.div_coe (by norm_num) x

end Cert.Chamfer.Consts

end
-- ==== Proof.RefPair.lean ====
/-
  The reference's loss of one pair of point sets, entry by entry: the two reductions by min of the cost matrix (along
  its last axis: the nearest cost of each point of A; along its middle axis: of each point of B) are folds of min from
  +∞, their means are (0 + Σ)/4096, the Chamfer distance is the half of their sum spelt as a quotient by 2, and the
  pair's loss 1 - Chamfer · 1.
-/
import proofs.«153843_j48524540510941_1_alg».proof.Proof.RefCost
import proofs.«153843_j48524540510941_1_alg».proof.Proof.LibRowFold
import proofs.«153843_j48524540510941_1_alg».proof.Proof.LibColFold
import proofs.«153843_j48524540510941_1_alg».proof.Proof.ChamferConsts

noncomputable section

open scoped BigOperators

namespace Cert.ReferenceIdeal.RefLoss

open Cert.ReferenceIdeal Cert.ReferenceIdeal.Gen Cert.ReferenceIdeal.Read Idealize.ShloMosaic Idealize.ShloMosaic.ValueIdx

/-- The reference's row minima: entry (p, q) is the least cost from point q of A to B. -/
theorem nearRow_eq (a b : FVec Ideal S4x4096x2 .f32) (p : Fin 4) (q : Fin 4096) :
    val_main_v16 (F := Ideal) a b (ix2 p q) = Cert.Chamfer.nearRow a b p q := by
  unfold val_main_v16 Cert.Chamfer.nearRow
  rw [← funext (cost_eq a b p q)]
  generalize val_main_v15 (F := Ideal) a b = y
  exact Cert.LibRowFold.hostReduce_min_axis2_apply y (val_main_cst_3 (F := Ideal)) reducesTo_S4x4096x4096_S4x4096_d2
    (by decide) h_S_ p q

/-- The reference's column minima: entry (p, k) is the least cost from point k of B to A. -/
theorem nearCol_eq (a b : FVec Ideal S4x4096x2 .f32) (p : Fin 4) (k : Fin 4096) :
    val_main_v20 (F := Ideal) a b (ix2 p k) = Cert.Chamfer.nearCol a b p k := by
  unfold val_main_v20 Cert.Chamfer.nearCol
  rw [← funext (fun n => cost_eq a b p n k)]
  generalize val_main_v15 (F := Ideal) a b = y
  exact Cert.LibColFold.hostReduce_min_axis1_apply y (val_main_cst_6 (F := Ideal)) reducesTo_S4x4096x4096_S4x4096_d1
    (by decide) h_S_ p k

/-- The reference's loss of the first pair at batch entry p is 1 - 1 · Chamfer. -/
theorem pair_eq (a b : FVec Ideal S4x4096x2 .f32) (p : Fin 4) :
    val_main_v30 (F := Ideal) a b (ix1 p)
      = Ideal.ofBits .f32 0x3F800000#32 - Ideal.ofBits .f32 0x3F800000#32 * Cert.Chamfer.chamfer a b p := by
  have e17 : ∀ k : Fin 4096, idx_main_v17 (ix1 p) k = ix2 p k := fun k =>
    funext fun d => Fin.ext (by match d with | ⟨0, _⟩ => rfl | ⟨1, _⟩ => rfl)
  have e21 : ∀ k : Fin 4096, idx_main_v21 (ix1 p) k = ix2 p k := fun k =>
    funext fun d => Fin.ext (by match d with | ⟨0, _⟩ => rfl | ⟨1, _⟩ => rfl)
  simp only [val_main_v30_apply, val_main_v29_apply, val_main_cst_11_apply, val_main_v28_apply, val_main_v27_apply,
    val_main_cst_10_apply, val_main_v26_apply, val_main_v25_apply, val_main_cst_9_apply, val_main_v24_apply,
    val_main_v23_apply, val_main_v22_apply, val_main_cst_8_apply, val_main_v21_apply, val_main_cst_7_apply,
    val_main_v19_apply, val_main_v18_apply, val_main_cst_5_apply, val_main_v17_apply, val_main_cst_4_apply,
    e17, e21, nearRow_eq, nearCol_eq]
  simp only [Ideal.subf_def, Ideal.mulf_def, Ideal.hostDivf_def, Ideal.addf_def, Ideal.ofBits_def, Ideal.ofBits_zero_f32,
    zero_add, Cert.Chamfer.Consts.div_two, Cert.Chamfer.chamfer]
  exact congrArg (_ - ·) (mul_comm _ _)

end Cert.ReferenceIdeal.RefLoss

end
-- ==== Proof.RefLoss.lean ====
/-
  The reference's result is the Chamfer loss: its three pairs run the same operations on (first, second), (first, third)
  and (second, third), each giving 1 - Chamfer · 1 of its pair, and the result is their sum, grouped from the left,
  over 3, where the specification writes (0 + Σ over the three pairs) / 3.
-/
import proofs.«153843_j48524540510941_1_alg».proof.Proof.Gen.ReferenceIdeal.Read
import proofs.«153843_j48524540510941_1_alg».proof.Proof.ChamferSpec
import proofs.«153843_j48524540510941_1_alg».proof.Proof.ChamferPairs
import proofs.«153843_j48524540510941_1_alg».proof.Proof.RefPair

noncomputable section

open scoped BigOperators

namespace Cert.ReferenceIdeal.RefLoss

open Cert.ReferenceIdeal Cert.ReferenceIdeal.Gen Cert.ReferenceIdeal.Read Idealize.ShloMosaic Idealize.ShloMosaic.ValueIdx

/-- The second pair's operations are the first pair's, operation for operation. -/
theorem pair2_eq (a b : FVec Ideal S4x4096x2 .f32) : val_main_v61 (F := Ideal) a b = val_main_v30 (F := Ideal) a b := rfl

/-- The third pair's operations are the first pair's, operation for operation. -/
theorem pair3_eq (a b : FVec Ideal S4x4096x2 .f32) : val_main_v92 (F := Ideal) a b = val_main_v30 (F := Ideal) a b := rfl

/-- The reference's result is the loss of the three point sets. -/
theorem ref_loss (x0 x1 x2 : FVec Ideal S4x4096x2 .f32) :
    Cert.ReferenceIdeal.Read.val_main_v96 (F := Ideal) x0 x1 x2 = Cert.Chamfer.loss x0 x1 x2 := by
  funext i
  obtain ⟨p, rfl⟩ : ∃ p : Fin 4, i = ix1 p := ⟨i 0, eq_ix1 i⟩
  rw [val_main_v96_apply, val_main_v95_apply, val_main_cst_38_apply, val_main_v94_apply, val_main_v93_apply, pair2_eq,
    pair3_eq, pair_eq, pair_eq, pair_eq]
  simp only [Ideal.hostDivf_def, Ideal.addf_def, Ideal.ofBits_def, Cert.Chamfer.loss, Fin.sum_univ_three,
    Ideal.ofBits_zero_f32, zero_add, Cert.Chamfer.fstOf_zero, Cert.Chamfer.fstOf_one, Cert.Chamfer.fstOf_two,
    Cert.Chamfer.sndOf_zero, Cert.Chamfer.sndOf_one, Cert.Chamfer.sndOf_two]

end Cert.ReferenceIdeal.RefLoss

end
-- ==== Proof.RefRun.lean ====
/-
  The reference program's run: it terminates on every device with its result array holding the Chamfer loss of its three
  argument arrays, entry by entry over the extended reals, and the arguments unchanged. The run itself, with the result
  as the composed term of the program's operations, is the generated one; that term is the specification's function of
  the arguments.
-/
import proofs.«153843_j48524540510941_1_alg».proof.Defs
import proofs.«153843_j48524540510941_1_alg».proof.Proof.Gen.ReferenceIdeal
import proofs.«153843_j48524540510941_1_alg».proof.Proof.Gen.Pre_finite_inputs
import proofs.«153843_j48524540510941_1_alg».proof.Proof.Gen.ReferenceIdeal.Run
import proofs.«153843_j48524540510941_1_alg».proof.Proof.Gen.ReferenceIdeal.Read
import proofs.«153843_j48524540510941_1_alg».proof.Proof.RefLoss

noncomputable section

namespace Cert.ReferenceIdeal.RefRun

open Idealize.ShloMosaic Idealize.ShloMosaic.TcCoe Idealize.SL.Sem Cert.ReferenceIdeal

/-- The reference runs and leaves its arguments as they were: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, its result is the Chamfer loss of its arguments, and the arguments end unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v96)
          = Cert.Chamfer.loss (m' ((c.tc : Thread nD τ).loc main_arg0)) (m' ((c.tc : Thread nD τ).loc main_arg1))
              (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono (fun _ h c =>
      ⟨(h c).1.trans ((Cert.ReferenceIdeal.Read.val_main_v96_eq (F := Ideal) m' c).trans
        (Cert.ReferenceIdeal.RefLoss.ref_loss _ _ _)), (h c).2⟩)
    (Cert.ReferenceIdeal.Value.run (F := Ideal) m' ρ')

end Cert.ReferenceIdeal.RefRun

end
-- ==== Proof.RegionFrameOf.lean ====
/-
  From a run of the program to the frame statement: a run that ends with every buffer outside the region's windows as the
  operations after the region leave it ends, in particular, with the three argument arrays as launched, since no operation
  before or after the region writes them and no window stages them.
-/
import proofs.«153843_j48524540510941_1_alg».proof.Proof.RegionKit
import proofs.«153843_j48524540510941_1_alg».proof.Proof.RegionTailArgs

set_option maxRecDepth 16384

noncomputable section

namespace Cert.KernelIdeal.Region

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The program runs and its three arguments end unchanged, from any run to the region's post over any proof data. -/
theorem frame_of (dats : (p : Fin 1) → (c : Dev nD) → Dat τ (Elt F) Unit ℕ (UR sig nD τ) ℕ (cfgs p) c)
    (h : θ_run defs (onTc (τ := τ) (main (F := F))) (s₀ m ρ)
      (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (tail_arg0 m dats c),
      ((h c).2 main_arg1 (Pipeline.mem_restRefs_of main_arg1 (by decide) (by decide))).trans (tail_arg1 m dats c),
      ((h c).2 main_arg2 (Pipeline.mem_restRefs_of main_arg2 (by decide) (by decide))).trans (tail_arg2 m dats c)⟩) h

end Cert.KernelIdeal.Region

end
-- ==== Proof.RegionFrame.lean ====
/-
  The frame statement of the program read over the extended reals, from a run of it to the region's post.
-/
import proofs.«153843_j48524540510941_1_alg».proof.Defs
import proofs.«153843_j48524540510941_1_alg».proof.Proof.Gen.KernelIdeal
import proofs.«153843_j48524540510941_1_alg».proof.Proof.Gen.Pre_finite_inputs
import proofs.«153843_j48524540510941_1_alg».proof.Proof.RegionFrameOf
import proofs.«153843_j48524540510941_1_alg».proof.Proof.RegionRun

noncomputable section

namespace Cert.KernelIdeal.Region

open Cert.KernelIdeal Cert.KernelIdeal.Gen
open Idealize.ShloMosaic Idealize.ShloMosaic.TcCoe
open Idealize.SL Idealize.SL.Sem
open Idealize.ShloMosaic.Pipeline (Dat)

/-- The program runs and leaves its arguments as they were, given a run to the region's post from every launch memory. -/
theorem frame_pi_of
    (dats : (m : (ℓ : Loc nD τ sig) → Buf (Elt Ideal) ℓ) → (p : Fin 1) → (c : Dev nD) → Dat τ (Elt Ideal) Unit ℕ (UR sig nD τ) ℕ (cfgs p) c)
    (hrun : ∀ (m : (ℓ : Loc nD τ sig) → Buf (Elt Ideal) ℓ) (ρ : Dev nD → PrngReg),
      θ_run defs (onTc (τ := τ) (main (F := Ideal))) (s₀ m ρ)
        (Pipeline.FramePost cfgs (dats m) 0 (Pipeline.afterTail₀ cfgs (dats m) 0 (V0 m) [hostOps1]))) :
    Cert.frame_KernelIdeal := fun m ρ _ => frame_of m ρ (dats m) (hrun m ρ)

/-- The program read over the extended reals runs and leaves its arguments as they were. -/
theorem frame_pi : Cert.frame_KernelIdeal := frame_pi_of (fun m => dats m) (fun m ρ => run_main m ρ)

end Cert.KernelIdeal.Region

end
-- ==== Proof.KernelWords.RegionKit.lean ====
/-
  The region and the host operations around it: the arrays as the region finds them (after the two stackings of the
  argument arrays), the blocks the two input windows present at a grid point, where the output window is written back,
  the conditions the body branches on in closed form over the grid, and how the frame statement follows from a run of
  the region.
-/
import proofs.«153843_j48524540510941_1_alg».proof.Proof.Gen.Kernel.Launch
import proofs.«153843_j48524540510941_1_alg».proof.Proof.Gen.Kernel.Skeleton
import proofs.«153843_j48524540510941_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers of core `c` when the region is entered: after the eight host operations that stack the arguments. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the stacking operations, the region, and the twelve operations that turn the region's result into the loss. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes one of the three arrays the region's windows stage. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No stacking operation writes an argument array: the region finds the three arguments as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging and scratch buffers the body is called with -/

abbrev ms0_0 (t : Fin cfg0.N) : Memref sig .tc .vmem S1x4x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x1 .f32 := win0_2.stage (cfg0.slots t 2)
abbrev hs0_2 (t : Fin cfg0.N) : (ms0_2 t).IsWhole := hstage0_2 ((cfg0.slots t 2).cast nbuf0_2)
/-- The three scratch arrays: running row minima, running column minima, running sum of row minima. -/
abbrev scM0 : Memref sig .tc .vmem S4x512 .f32 := Memref.whole cc0_scratch0
abbrev scM1 : Memref sig .tc .vmem S4x4096 .f32 := Memref.whole cc0_scratch1
abbrev scM2 : Memref sig .tc .vmem S4x1 .f32 := Memref.whole cc0_scratch2

/-- What the region may use besides its windows: the three scratch arrays at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.Kernel.Region

end
-- ==== Proof.KernelWords.TileStep.lean ====
/-
  The kernel keeps three arrays between grid points — the running row minima of the current row tile, the running
  column minima of all eight column tiles, and the running sum of finished row minima — and writes one output block
  per pair.  This module states, for any float instance, what one grid point does to those three arrays as a pure
  function of the point's two input blocks, and what the whole sequence of points leaves.
-/
import proofs.«153843_j48524540510941_1_alg».proof.Proof.Gen.Kernel.Skeleton
import Idealize.ShloMosaic.Lib.ValueIdx

noncomputable section

namespace Cert.Kernel.Tile

open Idealize.ShloMosaic Idealize.ShloMosaic.ValueIdx Cert.Kernel Cert.Kernel.Gen

variable {F : FTy → Type} [FloatOps F]

/-- The three arrays carried from one grid point to the next. -/
structure Carry (F : FTy → Type) [FloatOps F] where
  /-- running minimum over the column tiles seen so far, per row of the current row tile -/
  rowMin : Vec F S4x512 .f32
  /-- running minimum over the row tiles seen so far, per column, all 4096 columns -/
  colMin : Vec F S4x4096 .f32
  /-- sum of the finished row minima -/
  rowSum : Vec F S4x1 .f32

/-- Column tile `j` of a [4, 4096] array: columns `512 j … 512 j + 511`. -/
def tileRead (j : Fin 8) (s : Vec F S4x4096 .f32) : Vec F S4x512 .f32 :=
  fun y => s (ix2 (n0 := 4) (n1 := 4096) (y 0) ⟨512 * j.val + (y 1).val, by have h1 : (y 1).val < 512 := (y 1).isLt; have := j.isLt; omega⟩)

/-- A [4, 4096] array with column tile `j` replaced. -/
def tileWrite (j : Fin 8) (v : Vec F S4x512 .f32) (s : Vec F S4x4096 .f32) : Vec F S4x4096 .f32 :=
  fun z => if h : 512 * j.val ≤ (z 1).val ∧ (z 1).val < 512 * j.val + 512
    then v (ix2 (n0 := 4) (n1 := 512) (z 0) ⟨(z 1).val - 512 * j.val, by omega⟩) else s z

/-- One grid point at row tile `i`, column tile `j`, on the point's blocks `x` (rows) and `y` (columns). -/
def step (i j : Fin 8) (x y : Vec F S1x4x512x2 .f32) (c : Carry F) : Carry F :=
  let rm : Vec F S4x512 .f32 := if j.val = 0 then k0_pay1 (k0_pay9 x y) else k0_pay2 (k0_pay9 x y) c.rowMin
  let cm : Vec F S4x4096 .f32 :=
    if i.val = 0 then tileWrite j (k0_pay3 (k0_pay10 x y)) c.colMin
    else tileWrite j (k0_pay4 (k0_pay10 x y) (tileRead j c.colMin)) c.colMin
  let rs0 : Vec F S4x1 .f32 := if i.val = 0 ∧ j.val = 0 then k0_pay5 else c.rowSum
  let rs : Vec F S4x1 .f32 := if j.val = 7 then k0_pay6 rs0 rm else rs0
  ⟨rm, cm, rs⟩

/-- The output block a point stores when it is the last of its pair (`i = j = 7`), from what the point leaves. -/
def outOf (c : Carry F) : Vec F S1x4x1 .f32 := k0_pay7 c.rowSum c.colMin

/-- Block `(p, ·, k, ·)` of a [3, 4, 4096, 2] array: rows `512 k … 512 k + 511` of pair `p`. -/
def blk (A : Vec F S3x4x4096x2 .f32) (p : Fin 3) (k : Fin 8) : Vec F S1x4x512x2 .f32 :=
  fun y => A (ix4 (n0 := 3) (n1 := 4) (n2 := 4096) (n3 := 2) p (y 1) ⟨512 * k.val + (y 2).val, by have h2 : (y 2).val < 512 := (y 2).isLt; have := k.isLt; omega⟩ (y 3))

/-- Grid point `n`'s pair, row tile and column tile: the grid is [3, 8, 8], last axis fastest. -/
def pairOf (n : ℕ) : Fin 3 := ⟨(n / 64) % 3, Nat.mod_lt _ (by decide)⟩
def rowOf (n : ℕ) : Fin 8 := ⟨(n / 8) % 8, Nat.mod_lt _ (by decide)⟩
def colOf (n : ℕ) : Fin 8 := ⟨n % 8, Nat.mod_lt _ (by decide)⟩

/-- What the three arrays hold after grid point `n`, from contents `c0` before the first point. -/
def run (X Y : Vec F S3x4x4096x2 .f32) (c0 : Carry F) : ℕ → Carry F
  | 0 => step (rowOf 0) (colOf 0) (blk X (pairOf 0) (rowOf 0)) (blk Y (pairOf 0) (colOf 0)) c0
  | n + 1 => step (rowOf (n + 1)) (colOf (n + 1)) (blk X (pairOf (n + 1)) (rowOf (n + 1))) (blk Y (pairOf (n + 1)) (colOf (n + 1))) (run X Y c0 n)

end Cert.Kernel.Tile

end
-- ==== Proof.KernelWords.RegionBlocks.lean ====
/-
  The blocks of the region's windows, by coordinates. The grid is [3, 8, 8], last axis fastest: point t is pair t / 64,
  row tile (t / 8) mod 8, column tile t mod 8. The first input window presents rows 512 i … 512 i + 511 of the pair's
  first stacked array, the second rows 512 j … 512 j + 511 of its second, and the output window holds the pair's four
  entries of the [3, 4, 1] result.
-/
import proofs.«153843_j48524540510941_1_alg».proof.Proof.KernelWords.RegionKit
import proofs.«153843_j48524540510941_1_alg».proof.Proof.KernelWords.TileStep

set_option maxRecDepth 16384

noncomputable section

namespace Cert.Kernel.Region

open Cert.Kernel Cert.Kernel.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- The windows' block indices over the grid: pair, row tile and column tile of the point. -/
theorem idx_facts : ∀ t : Fin cfg0.N,
    win0_0.index t (0 : Fin 4) = t.val / 64 % 3 ∧ win0_0.index t (1 : Fin 4) = 0
    ∧ win0_0.index t (2 : Fin 4) = t.val / 8 % 8 ∧ win0_0.index t (3 : Fin 4) = 0
    ∧ win0_1.index t (0 : Fin 4) = t.val / 64 % 3 ∧ win0_1.index t (1 : Fin 4) = 0
    ∧ win0_1.index t (2 : Fin 4) = t.val % 8 ∧ win0_1.index t (3 : Fin 4) = 0
    ∧ win0_2.index t (0 : Fin 3) = t.val / 64 % 3 ∧ win0_2.index t (1 : Fin 3) = 0
    ∧ win0_2.index t (2 : Fin 3) = 0 :=
  (by decide +kernel : ∀ t : Fin grid0.N, _)

/-- The first input window's block at point t is row tile (t / 8) mod 8 of pair t / 64 of the first stacked array. -/
theorem iblk0_eq (c : Dev nD) (t : Fin cfg0.N) :
    iblk m c 0 t = Tile.blk (V m c main_v3) (Tile.pairOf t.val) (Tile.rowOf t.val) := by
  obtain ⟨e0, e1, e2, e3, -⟩ := idx_facts t
  funext y
  show V m c main_v3 (((cfg0.win 0).blk t).view.emb y) = V m c main_v3 _
  refine congrArg (V m c main_v3) (funext fun a => Fin.ext ?_)
  match a with
  | ⟨0, _⟩ =>
    show win0_0.index t (0 : Fin 4) * 1 + 1 * (y 0).val = t.val / 64 % 3
    have hy : (y 0).val < 1 := (y 0).isLt
    omega
  | ⟨1, _⟩ =>
    show win0_0.index t (1 : Fin 4) * 4 + 1 * (y 1).val = (y 1).val
    omega
  | ⟨2, _⟩ =>
    show win0_0.index t (2 : Fin 4) * 512 + 1 * (y 2).val = 512 * (t.val / 8 % 8) + (y 2).val
    omega
  | ⟨3, _⟩ =>
    show win0_0.index t (3 : Fin 4) * 2 + 1 * (y 3).val = (y 3).val
    omega

/-- The second input window's block at point t is row tile t mod 8 of pair t / 64 of the second stacked array. -/
theorem iblk1_eq (c : Dev nD) (t : Fin cfg0.N) :
    iblk m c 1 t = Tile.blk (V m c main_v7) (Tile.pairOf t.val) (Tile.colOf t.val) := by
  obtain ⟨-, -, -, -, e0, e1, e2, e3, -⟩ := idx_facts t
  funext y
  show V m c main_v7 (((cfg0.win 1).blk t).view.emb y) = V m c main_v7 _
  refine congrArg (V m c main_v7) (funext fun a => Fin.ext ?_)
  match a with
  | ⟨0, _⟩ =>
    show win0_1.index t (0 : Fin 4) * 1 + 1 * (y 0).val = t.val / 64 % 3
    have hy : (y 0).val < 1 := (y 0).isLt
    omega
  | ⟨1, _⟩ =>
    show win0_1.index t (1 : Fin 4) * 4 + 1 * (y 1).val = (y 1).val
    omega
  | ⟨2, _⟩ =>
    show win0_1.index t (2 : Fin 4) * 512 + 1 * (y 2).val = 512 * (t.val % 8) + (y 2).val
    omega
  | ⟨3, _⟩ =>
    show win0_1.index t (3 : Fin 4) * 2 + 1 * (y 3).val = (y 3).val
    omega

/-- Where an entry of the output window's block at point t sits in the [3, 4, 1] array: entry (0, b, 0) of the block is
    entry (t / 64, b, 0) of the array. -/
theorem out_emb (t : Fin cfg0.N) (y : ((cfg0.win 2).xblock (cfg0.grid.coords t)).Idx) :
    ((cfg0.win 2).blk t).view.emb y
      = (ix3 (n0 := 3) (n1 := 4) (n2 := 1) (Tile.pairOf t.val) (y 1) (y 2) : S3x4x1.Idx) := by
  obtain ⟨-, -, -, -, -, -, -, -, e0, e1, e2⟩ := idx_facts t
  refine funext fun a => Fin.ext ?_
  match a with
  | ⟨0, _⟩ =>
    show win0_2.index t (0 : Fin 3) * 1 + 1 * (y 0).val = t.val / 64 % 3
    have hy : (y 0).val < 1 := (y 0).isLt
    omega
  | ⟨1, _⟩ =>
    show win0_2.index t (1 : Fin 3) * 4 + 1 * (y 1).val = (y 1).val
    omega
  | ⟨2, _⟩ =>
    show win0_2.index t (2 : Fin 3) * 1 + 1 * (y 2).val = (y 2).val
    omega

/-- An entry of the [3, 4, 1] array is in the output window's block at point t iff its pair is t / 64. -/
theorem mem_out_blk (t : Fin cfg0.N) (i : S3x4x1.Idx) :
    i ∈ ((cfg0.win 2).blk t).view.set ↔ (i 0).val = t.val / 64 % 3 := by
  obtain ⟨-, -, -, -, -, -, -, -, e0, e1, e2⟩ := idx_facts t
  have hmem : i ∈ ((cfg0.win 2).blk t).view.set ↔ ∀ a : Fin 3, win0_2.index t a * S1x4x1.size a ≤ (i a).val
      ∧ (i a).val < win0_2.index t a * S1x4x1.size a + S1x4x1.size a := by
    show i ∈ ((View.whole main_v8).slice (win0_2.rect t)).set ↔ _
    rw [View.set_slice_whole, Rect.mem_set_unit]
    exact Iff.rfl
  rw [hmem]
  constructor
  · intro h
    have b0 : win0_2.index t (0 : Fin 3) * 1 ≤ (i 0).val ∧ (i 0).val < win0_2.index t (0 : Fin 3) * 1 + 1 := h 0
    omega
  · intro h a
    match a with
    | ⟨0, _⟩ =>
      show win0_2.index t (0 : Fin 3) * 1 ≤ (i 0).val ∧ (i 0).val < win0_2.index t (0 : Fin 3) * 1 + 1
      omega
    | ⟨1, _⟩ =>
      show win0_2.index t (1 : Fin 3) * 4 ≤ (i 1).val ∧ (i 1).val < win0_2.index t (1 : Fin 3) * 4 + 4
      have hi : (i 1).val < 4 := (i 1).isLt
      omega
    | ⟨2, _⟩ =>
      show win0_2.index t (2 : Fin 3) * 1 ≤ (i 2).val ∧ (i 2).val < win0_2.index t (2 : Fin 3) * 1 + 1
      have hi : (i 2).val < 1 := (i 2).isLt
      omega

end Cert.Kernel.Region

end
-- ==== Proof.KernelWords.RegionTailArgs.lean ====
/-
  After the region, at any float instance: the twelve host operations write none of the argument arrays, so the arguments
  end as launched; and the [3, 4, 1] array the region's output window was written back into holds, in block p, what the
  body left in the window's staging buffer at the last point of pair p — the one point of the pair that writes it back.
-/
import proofs.«153843_j48524540510941_1_alg».proof.Proof.KernelWords.RegionKit
import proofs.«153843_j48524540510941_1_alg».proof.Proof.KernelWords.RegionBlocks
import Idealize.ShloMosaic.Lib.Pipeline.Value

set_option maxRecDepth 16384

noncomputable section

namespace Cert.Kernel.Region

open Cert.Kernel Cert.Kernel.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)
variable (dats : (p : Fin 1) → (c : Dev nD) → Dat τ (Elt F) Unit ℕ (UR sig nD τ) ℕ (cfgs p) c)

/-- No operation after the region writes the first argument: it ends as launched. -/
theorem tail_arg0 (c : Dev nD) :
    Pipeline.afterTail₀ cfgs dats 0 (V0 m) [hostOps1] c main_arg0 = m ((c : Thread nD τ).loc main_arg0) := by
  unfold Pipeline.afterTail₀
  refine (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))).trans ?_
  refine (Pipeline.withArrays_of_ne _ c _ _ main_arg0 (fun w => by fin_cases w <;> decide)).trans ?_
  exact V_main_arg0 m c

/-- Nor the second. -/
theorem tail_arg1 (c : Dev nD) :
    Pipeline.afterTail₀ cfgs dats 0 (V0 m) [hostOps1] c main_arg1 = m ((c : Thread nD τ).loc main_arg1) := by
  unfold Pipeline.afterTail₀
  refine (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))).trans ?_
  refine (Pipeline.withArrays_of_ne _ c _ _ main_arg1 (fun w => by fin_cases w <;> decide)).trans ?_
  exact V_main_arg1 m c

/-- Nor the third. -/
theorem tail_arg2 (c : Dev nD) :
    Pipeline.afterTail₀ cfgs dats 0 (V0 m) [hostOps1] c main_arg2 = m ((c : Thread nD τ).loc main_arg2) := by
  unfold Pipeline.afterTail₀
  refine (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))).trans ?_
  refine (Pipeline.withArrays_of_ne _ c _ _ main_arg2 (fun w => by fin_cases w <;> decide)).trans ?_
  exact V_main_arg2 m c

/-- The output window's array after the region: block p of the [3, 4, 1] array is what the body left in the window's
    staging buffer at the last point of pair p, the one point of the pair that writes it back. -/
theorem arrAt_out {c : Dev nD} (dat : Dat τ (Elt F) Unit ℕ (UR sig nD τ) ℕ cfg0 c) (o : Fin 3 → Vec F S1x4x1 .f32)
    (h : ∀ p : Fin 3, dat.after 2 ⟨64 * p.val + 63, by have := p.isLt; have hN : cfg0.N = 192 := N_0; omega⟩ = o p)
    (p : Fin 3) (b : Fin 4) :
    dat.arrAt 2 cfg0.N (ix3 (n0 := 3) (n1 := 4) (n2 := 1) p b (0 : Fin 1))
      = o p (ix3 (n0 := 1) (n1 := 4) (n2 := 1) (0 : Fin 1) b (0 : Fin 1)) := by
  have hN : cfg0.N = 192 := N_0
  let G : S3x4x1.Idx → Elt F .f32 := fun i =>
    o ⟨(i 0).val, (i 0).isLt⟩ (ix3 (n0 := 1) (n1 := 4) (n2 := 1) (0 : Fin 1) (i 1) (i 2))
  have hG : ∀ t, (cfg0.win 2).flush t = true → dat.flushed 2 t = ((cfg0.win 2).blk t).view.read (Elt F) G := by
    intro t hf
    have h63 : t.val % 64 = 63 := (flush0_2 t).mp hf
    have ht : t.val < 192 := hN ▸ t.isLt
    have hq : t.val / 64 < 3 := by omega
    have hlt : 64 * (t.val / 64) + 63 < cfg0.N := by rw [hN]; omega
    have et : t = ⟨64 * (⟨t.val / 64, hq⟩ : Fin 3).val + 63, hlt⟩ :=
      Fin.ext (by show t.val = 64 * (t.val / 64) + 63; omega)
    have ha : dat.after 2 t = o ⟨t.val / 64, hq⟩ := (congrArg (dat.after 2) et).trans (h ⟨t.val / 64, hq⟩)
    have hq3 : (⟨(Tile.pairOf t.val).val, (Tile.pairOf t.val).isLt⟩ : Fin 3) = ⟨t.val / 64, hq⟩ :=
      Fin.ext (by show t.val / 64 % 3 = t.val / 64; omega)
    funext y
    show dat.after 2 t _ = G (((cfg0.win 2).blk t).view.emb y)
    rw [out_emb]
    show dat.after 2 t _ = o ⟨(Tile.pairOf t.val).val, (Tile.pairOf t.val).isLt⟩
      (ix3 (n0 := 1) (n1 := 4) (n2 := 1) (0 : Fin 1) (y 1) (y 2))
    rw [ha, hq3]
    refine congrArg (o ⟨t.val / 64, hq⟩) (funext fun a => Fin.ext ?_)
    match a with
    | ⟨0, _⟩ =>
      show (y 0).val = 0
      have hy : (y 0).val < 1 := (y 0).isLt
      omega
    | ⟨1, _⟩ => rfl
    | ⟨2, _⟩ => rfl
  have hp : 64 * p.val + 63 < cfg0.N := by rw [hN]; have := p.isLt; omega
  have key := dat.arrAt_apply_of_mem 2 G hG cfg0.N ⟨64 * p.val + 63, hp⟩
    (ix3 (n0 := 3) (n1 := 4) (n2 := 1) p b (0 : Fin 1)) hp
    ((flush0_2 _).mpr (by show (64 * p.val + 63) % 64 = 63; omega))
    ((mem_out_blk _ _).mpr (by show p.val = (64 * p.val + 63) / 64 % 3; have := p.isLt; omega))
  exact key

end Cert.Kernel.Region

end
-- ==== Proof.KernelWords.RegionFrameOf.lean ====
/-
  From a run of the program to the frame statement: a run that ends with every buffer outside the region's windows as the
  operations after the region leave it ends, in particular, with the three argument arrays as launched, since no operation
  before or after the region writes them and no window stages them.
-/
import proofs.«153843_j48524540510941_1_alg».proof.Proof.KernelWords.RegionKit
import proofs.«153843_j48524540510941_1_alg».proof.Proof.KernelWords.RegionTailArgs

set_option maxRecDepth 16384

noncomputable section

namespace Cert.Kernel.Region

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The program runs and its three arguments end unchanged, from any run to the region's post over any proof data. -/
theorem frame_of (dats : (p : Fin 1) → (c : Dev nD) → Dat τ (Elt F) Unit ℕ (UR sig nD τ) ℕ (cfgs p) c)
    (h : θ_run defs (onTc (τ := τ) (main (F := F))) (s₀ m ρ)
      (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (tail_arg0 m dats c),
      ((h c).2 main_arg1 (Pipeline.mem_restRefs_of main_arg1 (by decide) (by decide))).trans (tail_arg1 m dats c),
      ((h c).2 main_arg2 (Pipeline.mem_restRefs_of main_arg2 (by decide) (by decide))).trans (tail_arg2 m dats c)⟩) h

end Cert.Kernel.Region

end
-- ==== Proof.KernelWords.BodyConds.lean ====
import proofs.«153843_j48524540510941_1_alg».proof.Proof.KernelWords.RegionKit
import proofs.«153843_j48524540510941_1_alg».proof.Proof.KernelWords.TileStep
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's seven branch conditions, as the body computes them from the grid coordinates -/

abbrev cond1 (i : grid0.Coords) : Prop := Scalar.cmpi .ne (Scalar.extui (Scalar.cmpi .eq (BitVec.ofNat 32 (i 2).val) 0#32)) 0#32 = 1#1
abbrev cond2 (i : grid0.Coords) : Prop := Scalar.cmpi .ne (Scalar.extui (Scalar.cmpi .ne (BitVec.ofNat 32 (i 2).val) 0#32)) 0#32 = 1#1
abbrev cond3 (i : grid0.Coords) : Prop := k0_cond3 i = 1#1
abbrev cond4 (i : grid0.Coords) : Prop := k0_cond4 i = 1#1
abbrev cond5 (i : grid0.Coords) : Prop := Scalar.cmpi .ne (Scalar.extui (Scalar.andi (Scalar.cmpi .eq (BitVec.ofNat 32 (i 1).val) 0#32) (Scalar.cmpi .eq (BitVec.ofNat 32 (i 2).val) 0#32))) 0#32 = 1#1
abbrev cond6 (i : grid0.Coords) : Prop := Scalar.cmpi .ne (Scalar.extui (Scalar.cmpi .eq (BitVec.ofNat 32 (i 2).val) 7#32)) 0#32 = 1#1
abbrev cond7 (i : grid0.Coords) : Prop := k0_cond7 i = 1#1

/-- Each condition in closed form: decided over the 192 grid points. -/
theorem hcond1 : ∀ i : grid0.Coords, cond1 i ↔ (i 2).val = 0 := by decide +kernel
theorem hcond2 : ∀ i : grid0.Coords, cond2 i ↔ (i 2).val ≠ 0 := by decide +kernel
theorem hcond3 : ∀ i : grid0.Coords, cond3 i ↔ (i 1).val = 0 := by decide +kernel
theorem hcond4 : ∀ i : grid0.Coords, cond4 i ↔ (i 1).val ≠ 0 := by decide +kernel
theorem hcond5 : ∀ i : grid0.Coords, cond5 i ↔ ((i 1).val = 0 ∧ (i 2).val = 0) := by decide +kernel
theorem hcond6 : ∀ i : grid0.Coords, cond6 i ↔ (i 2).val = 7 := by decide +kernel
theorem hcond7 : ∀ i : grid0.Coords, cond7 i ↔ ((i 1).val = 7 ∧ (i 2).val = 7) := by decide +kernel

end Cert.Kernel.Region

end
-- ==== Proof.KernelWords.ScratchIO.lean ====
import proofs.«153843_j48524540510941_1_alg».proof.Proof.KernelWords.RegionKit
import proofs.«153843_j48524540510941_1_alg».proof.Proof.KernelWords.TileStep
import Idealize.ShloMosaic.Lib.WritesUnit
import Idealize.ShloMosaic.Lib.Pipeline.Value
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through whole buffers, read back as plain arrays -/

section Whole

variable {κ : Kind} {sp : Space} {S : Shape} {e : EltTy} {Val : EltTy → Type}

/-- A load of the whole array through a whole buffer holding `X` reads `X`. -/
theorem load_whole (mr : Memref sig κ sp S e) (h : mr.IsWhole) {off : Fin S.rank → ℕ} (hz : off = fun _ => 0)
    (inb : ∀ a, off a + S.size a ≤ S.size a) (X : S.Idx → Val e) :
    View.readAt Val mr.view (Rect.unit off S.size inb).toLoadRect (h.unread X) = X := by
  rw [View.readAt_eq_ld, h.read_unread, View.ld_unit_zero hz]

/-- A store of a whole array through a buffer, read back: the array stored. -/
theorem store_whole (v : View sig κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w := by
  funext y
  exact View.read_writes_cons_unit_of_mem v f inb w [] y y hz (fun a => by rw [Nat.zero_add])

end Whole

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

/-- A load of column tile `j` of the [4, 4096] running-minimum array. -/
theorem load_tile (mr : Memref sig .tc .vmem S4x4096 .f32) (h : mr.IsWhole) (j : Fin 8) {off : Fin 2 → ℕ} (hoff : off = ![0, 512 * j.val])
    (inb : ∀ a, off a + S4x512.size a ≤ S4x4096.size a) (X : Vec F S4x4096 .f32) :
    View.readAt (Elt F) mr.view (Rect.unit (s := S4x4096) off S4x512.size inb).toLoadRect (h.unread X) = tileRead j X := by
  subst hoff
  rw [View.readAt_eq_ld, h.read_unread]
  funext y
  show X ((Rect.unit (s := S4x4096) ![0, 512 * j.val] S4x512.size inb).emb y) = _
  unfold tileRead
  refine congrArg X (funext fun a => Fin.ext ?_)
  match a with
  | ⟨0, _⟩ => show 0 + 1 * (y 0).val = (y 0).val; omega
  | ⟨1, _⟩ => show 512 * j.val + 1 * (y 1).val = 512 * j.val + (y 1).val; omega

/-- A store of column tile `j`, read back: the array with that tile replaced. -/
theorem store_tile (mr : Memref sig .tc .vmem S4x4096 .f32) (h : mr.IsWhole) (j : Fin 8) {off : Fin 2 → ℕ} (hoff : off = ![0, 512 * j.val])
    (inb : ∀ a, off a + S4x512.size a ≤ S4x4096.size a) (w : Vec F S4x512 .f32) (X : Vec F S4x4096 .f32) :
    mr.view.read (Elt F) (mr.view.writes (Elt F) (h.unread X) [(⟨Rect.unit (s := S4x4096) off S4x512.size inb, w⟩ : View.Piece (Elt F) S4x4096 .f32)]) = tileWrite j w X := by
  funext z
  rw [View.read_writes_cons_unit mr.view (h.unread X) inb w [] z hoff]
  unfold tileWrite
  by_cases hz : 512 * j.val ≤ (z 1).val ∧ (z 1).val < 512 * j.val + 512
  · have hall : ∀ a : Fin 2, (![0, 512 * j.val] : Fin 2 → ℕ) a ≤ (z a).val ∧ (z a).val < (![0, 512 * j.val] : Fin 2 → ℕ) a + S4x512.size a := by
      intro a
      match a with
      | ⟨0, _⟩ => exact ⟨Nat.zero_le _, by show (z 0).val < 0 + 4; have : (z 0).val < 4 := (z 0).isLt; omega⟩
      | ⟨1, _⟩ => exact ⟨hz.1, hz.2⟩
    rw [dif_pos hall, dif_pos hz]
    refine congrArg w (funext fun a => Fin.ext ?_)
    match a with
    | ⟨0, _⟩ => show (z 0).val - 0 = (z 0).val; omega
    | ⟨1, _⟩ => rfl
  · have hall : ¬ ∀ a : Fin 2, (![0, 512 * j.val] : Fin 2 → ℕ) a ≤ (z a).val ∧ (z a).val < (![0, 512 * j.val] : Fin 2 → ℕ) a + S4x512.size a := by
      intro hall; exact hz (hall 1)
    rw [dif_neg hall, dif_neg hz, View.writes_nil, h.read_unread]

/-- A load of the whole array right after a store of the whole array reads what was stored. -/
theorem load_stored_whole {κ : Kind} {sp : Space} {S : Shape} {e : EltTy} {Val : EltTy → Type} (v : View sig κ sp S e) (f : v.ty.Contents Val)
    {off off' : Fin S.rank → ℕ} (hz : off = fun _ => 0) (hz' : off' = fun _ => 0)
    (inb : ∀ a, off a + S.size a ≤ S.size a) (inb' : ∀ a, off' a + S.size a ≤ S.size a) (w : S.Idx → Val e) :
    View.readAt Val v (Rect.unit off S.size inb).toLoadRect (v.writes Val f [(⟨Rect.unit off' S.size inb', w⟩ : View.Piece Val S e)]) = w := by
  rw [View.readAt_eq_ld, store_whole v f hz', View.ld_unit_zero hz]

/-- A load of the whole [4, 4096] array right after a store of column tile `j`: the array with that tile replaced. -/
theorem load_whole_stored_tile (mr : Memref sig .tc .vmem S4x4096 .f32) (h : mr.IsWhole) (j : Fin 8) {off off' : Fin 2 → ℕ} (hz : off = fun _ => 0)
    (hoff : off' = ![0, 512 * j.val]) (inb : ∀ a, off a + S4x4096.size a ≤ S4x4096.size a)
    (inb' : ∀ a, off' a + S4x512.size a ≤ S4x4096.size a) (w : Vec F S4x512 .f32) (X : Vec F S4x4096 .f32) :
    View.readAt (Elt F) mr.view (Rect.unit (s := S4x4096) off S4x4096.size inb).toLoadRect
      (mr.view.writes (Elt F) (h.unread X) [(⟨Rect.unit (s := S4x4096) off' S4x512.size inb', w⟩ : View.Piece (Elt F) S4x4096 .f32)]) = tileWrite j w X := by
  rw [View.readAt_eq_ld, store_tile mr h j hoff, View.ld_unit_zero hz]

end Cert.Kernel.Region

end
-- ==== Proof.KernelWords.BodyA.lean ====
import proofs.«153843_j48524540510941_1_alg».proof.Proof.KernelWords.BodyConds
import proofs.«153843_j48524540510941_1_alg».proof.Proof.KernelWords.ScratchIO
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_A (c : Dev nD) (i : grid0.Coords) (ii jj : Fin 8) (hii : ii.val = (i 1).val) (hjj : jj.val = (i 2).val) (hi : ii.val = 0) (hj : jj.val = 0)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : (jj.val = 0) := by omega
  have p3 : (ii.val = 0) := by omega
  have p5 : (ii.val = 0 ∧ jj.val = 0) := by omega
  have p6 : ¬(jj.val = 7) := by omega
  have p7 : ¬(ii.val = 7 ∧ jj.val = 7) := by omega
  have hc1 : cond1 i := (hcond1 i).mpr (by omega)
  have hc2 : ¬cond2 i := fun h => by have := (hcond2 i).mp h; omega
  have hc3 : cond3 i := (hcond3 i).mpr (by omega)
  have hc4 : ¬cond4 i := fun h => by have := (hcond4 i).mp h; omega
  have hc5 : cond5 i := (hcond5 i).mpr (by omega)
  have hc6 : ¬cond6 i := fun h => by have := (hcond6 i).mp h; omega
  have hc7 : ¬cond7 i := fun h => by have := (hcond7 i).mp h; omega
  have e0 : (step ii jj x y ⟨s0, s1, s2⟩).rowMin = k0_pay1 (k0_pay9 x y) := by simp only [step, if_pos p1]
  have e1 : (step ii jj x y ⟨s0, s1, s2⟩).colMin = tileWrite jj (k0_pay3 (k0_pay10 x y)) s1 := by simp only [step, if_pos p3]
  have e2 : (step ii jj x y ⟨s0, s1, s2⟩).rowSum = k0_pay5 := by simp only [step, if_pos p1, if_pos p5, if_neg p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4]
  isplitl [G1]
  · iexists _; isplitr
    swap; · iexact G1
    ipureintro
    sl_unfold_run_names; rw [store_tile scM1 _ jj hoff1, load_whole (S := S1x4x512x2) arg3 harg3 z4, load_whole (S := S1x4x512x2) arg4 harg4 z4]
  iexists _; isplitr
  swap; · iexact G2
  ipureintro
  rw [store_whole (S := S4x1) _ _ z2]

end Cert.Kernel.Region

end
-- ==== Proof.KernelWords.BodyB.lean ====
import proofs.«153843_j48524540510941_1_alg».proof.Proof.KernelWords.BodyConds
import proofs.«153843_j48524540510941_1_alg».proof.Proof.KernelWords.ScratchIO
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_B (c : Dev nD) (i : grid0.Coords) (ii jj : Fin 8) (hii : ii.val = (i 1).val) (hjj : jj.val = (i 2).val) (hi : ii.val = 0) (hj0 : jj.val ≠ 0) (hj7 : jj.val ≠ 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : (ii.val = 0) := by omega
  have p5 : ¬(ii.val = 0 ∧ jj.val = 0) := by omega
  have p6 : ¬(jj.val = 7) := by omega
  have p7 : ¬(ii.val = 7 ∧ jj.val = 7) := by omega
  have hc1 : ¬cond1 i := fun h => by have := (hcond1 i).mp h; omega
  have hc2 : cond2 i := (hcond2 i).mpr (by omega)
  have hc3 : cond3 i := (hcond3 i).mpr (by omega)
  have hc4 : ¬cond4 i := fun h => by have := (hcond4 i).mp h; omega
  have hc5 : ¬cond5 i := fun h => by have := (hcond5 i).mp h; omega
  have hc6 : ¬cond6 i := fun h => by have := (hcond6 i).mp h; omega
  have hc7 : ¬cond7 i := fun h => by have := (hcond7 i).mp h; omega
  have e0 : (step ii jj x y ⟨s0, s1, s2⟩).rowMin = k0_pay2 (k0_pay9 x y) s0 := by simp only [step, if_neg p1]
  have e1 : (step ii jj x y ⟨s0, s1, s2⟩).colMin = tileWrite jj (k0_pay3 (k0_pay10 x y)) s1 := by simp only [step, if_pos p3]
  have e2 : (step ii jj x y ⟨s0, s1, s2⟩).rowSum = s2 := by simp only [step, if_neg p1, if_neg p5, if_neg p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff1, load_whole (S := S1x4x512x2) arg3 harg3 z4, load_whole (S := S1x4x512x2) arg4 harg4 z4]
  iexists _; isplitr
  swap; · iexact G2
  ipureintro
  exact hg2

end Cert.Kernel.Region

end
-- ==== Proof.KernelWords.BodyC.lean ====
import proofs.«153843_j48524540510941_1_alg».proof.Proof.KernelWords.BodyConds
import proofs.«153843_j48524540510941_1_alg».proof.Proof.KernelWords.ScratchIO
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_C (c : Dev nD) (i : grid0.Coords) (ii jj : Fin 8) (hii : ii.val = (i 1).val) (hjj : jj.val = (i 2).val) (hi : ii.val = 0) (hj : jj.val = 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : (ii.val = 0) := by omega
  have p5 : ¬(ii.val = 0 ∧ jj.val = 0) := by omega
  have p6 : (jj.val = 7) := by omega
  have p7 : ¬(ii.val = 7 ∧ jj.val = 7) := by omega
  have hc1 : ¬cond1 i := fun h => by have := (hcond1 i).mp h; omega
  have hc2 : cond2 i := (hcond2 i).mpr (by omega)
  have hc3 : cond3 i := (hcond3 i).mpr (by omega)
  have hc4 : ¬cond4 i := fun h => by have := (hcond4 i).mp h; omega
  have hc5 : ¬cond5 i := fun h => by have := (hcond5 i).mp h; omega
  have hc6 : cond6 i := (hcond6 i).mpr (by omega)
  have hc7 : ¬cond7 i := fun h => by have := (hcond7 i).mp h; omega
  have e0 : (step ii jj x y ⟨s0, s1, s2⟩).rowMin = k0_pay2 (k0_pay9 x y) s0 := by simp only [step, if_neg p1]
  have e1 : (step ii jj x y ⟨s0, s1, s2⟩).colMin = tileWrite jj (k0_pay3 (k0_pay10 x y)) s1 := by simp only [step, if_pos p3]
  have e2 : (step ii jj x y ⟨s0, s1, s2⟩).rowSum = k0_pay6 (s2) (k0_pay2 (k0_pay9 x y) s0) := by simp only [step, if_neg p1, if_neg p5, if_pos p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff1, load_whole (S := S1x4x512x2) arg3 harg3 z4, load_whole (S := S1x4x512x2) arg4 harg4 z4]
  iexists _; isplitr
  swap; · iexact G2
  ipureintro
  sl_unfold_run_names; rw [store_whole (S := S4x1) _ _ z2, load_whole (S := S4x1) scM2 _ z2, View.readCov_cons_toLoadRect, load_whole (S := S1x4x512x2) arg3 harg3 z4, load_whole (S := S1x4x512x2) arg4 harg4 z4, load_whole (S := S4x512) scM0 _ z2]

end Cert.Kernel.Region

end
-- ==== Proof.KernelWords.BodyD.lean ====
import proofs.«153843_j48524540510941_1_alg».proof.Proof.KernelWords.BodyConds
import proofs.«153843_j48524540510941_1_alg».proof.Proof.KernelWords.ScratchIO
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_D (c : Dev nD) (i : grid0.Coords) (ii jj : Fin 8) (hii : ii.val = (i 1).val) (hjj : jj.val = (i 2).val) (hi : ii.val ≠ 0) (hj : jj.val = 0)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : (jj.val = 0) := by omega
  have p3 : ¬(ii.val = 0) := by omega
  have p5 : ¬(ii.val = 0 ∧ jj.val = 0) := by omega
  have p6 : ¬(jj.val = 7) := by omega
  have p7 : ¬(ii.val = 7 ∧ jj.val = 7) := by omega
  have hc1 : cond1 i := (hcond1 i).mpr (by omega)
  have hc2 : ¬cond2 i := fun h => by have := (hcond2 i).mp h; omega
  have hc3 : ¬cond3 i := fun h => by have := (hcond3 i).mp h; omega
  have hc4 : cond4 i := (hcond4 i).mpr (by omega)
  have hc5 : ¬cond5 i := fun h => by have := (hcond5 i).mp h; omega
  have hc6 : ¬cond6 i := fun h => by have := (hcond6 i).mp h; omega
  have hc7 : ¬cond7 i := fun h => by have := (hcond7 i).mp h; omega
  have e0 : (step ii jj x y ⟨s0, s1, s2⟩).rowMin = k0_pay1 (k0_pay9 x y) := by simp only [step, if_pos p1]
  have e1 : (step ii jj x y ⟨s0, s1, s2⟩).colMin = tileWrite jj (k0_pay4 (k0_pay10 x y) (tileRead jj s1)) s1 := by simp only [step, if_neg p3]
  have e2 : (step ii jj x y ⟨s0, s1, s2⟩).rowSum = s2 := by simp only [step, if_pos p1, if_neg p5, if_neg p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4]
  isplitl [G1]
  · iexists _; isplitr
    swap; · iexact G1
    ipureintro
    sl_unfold_run_names; rw [store_tile scM1 _ jj hoff2, load_whole (S := S1x4x512x2) arg3 harg3 z4, load_whole (S := S1x4x512x2) arg4 harg4 z4, load_tile scM1 _ jj hoff2]
  iexists _; isplitr
  swap; · iexact G2
  ipureintro
  exact hg2

end Cert.Kernel.Region

end
-- ==== Proof.KernelWords.BodyE.lean ====
import proofs.«153843_j48524540510941_1_alg».proof.Proof.KernelWords.BodyConds
import proofs.«153843_j48524540510941_1_alg».proof.Proof.KernelWords.ScratchIO
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_E (c : Dev nD) (i : grid0.Coords) (ii jj : Fin 8) (hii : ii.val = (i 1).val) (hjj : jj.val = (i 2).val) (hi : ii.val ≠ 0) (hj0 : jj.val ≠ 0) (hj7 : jj.val ≠ 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : ¬(ii.val = 0) := by omega
  have p5 : ¬(ii.val = 0 ∧ jj.val = 0) := by omega
  have p6 : ¬(jj.val = 7) := by omega
  have p7 : ¬(ii.val = 7 ∧ jj.val = 7) := by omega
  have hc1 : ¬cond1 i := fun h => by have := (hcond1 i).mp h; omega
  have hc2 : cond2 i := (hcond2 i).mpr (by omega)
  have hc3 : ¬cond3 i := fun h => by have := (hcond3 i).mp h; omega
  have hc4 : cond4 i := (hcond4 i).mpr (by omega)
  have hc5 : ¬cond5 i := fun h => by have := (hcond5 i).mp h; omega
  have hc6 : ¬cond6 i := fun h => by have := (hcond6 i).mp h; omega
  have hc7 : ¬cond7 i := fun h => by have := (hcond7 i).mp h; omega
  have e0 : (step ii jj x y ⟨s0, s1, s2⟩).rowMin = k0_pay2 (k0_pay9 x y) s0 := by simp only [step, if_neg p1]
  have e1 : (step ii jj x y ⟨s0, s1, s2⟩).colMin = tileWrite jj (k0_pay4 (k0_pay10 x y) (tileRead jj s1)) s1 := by simp only [step, if_neg p3]
  have e2 : (step ii jj x y ⟨s0, s1, s2⟩).rowSum = s2 := by simp only [step, if_neg p1, if_neg p5, if_neg p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff2, load_whole (S := S1x4x512x2) arg3 harg3 z4, load_whole (S := S1x4x512x2) arg4 harg4 z4, load_tile scM1 _ jj hoff2]
  iexists _; isplitr
  swap; · iexact G2
  ipureintro
  exact hg2

end Cert.Kernel.Region

end
-- ==== Proof.KernelWords.BodyF.lean ====
import proofs.«153843_j48524540510941_1_alg».proof.Proof.KernelWords.BodyConds
import proofs.«153843_j48524540510941_1_alg».proof.Proof.KernelWords.ScratchIO
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_F (c : Dev nD) (i : grid0.Coords) (ii jj : Fin 8) (hii : ii.val = (i 1).val) (hjj : jj.val = (i 2).val) (hi0 : ii.val ≠ 0) (hi7 : ii.val ≠ 7) (hj : jj.val = 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : ¬(ii.val = 0) := by omega
  have p5 : ¬(ii.val = 0 ∧ jj.val = 0) := by omega
  have p6 : (jj.val = 7) := by omega
  have p7 : ¬(ii.val = 7 ∧ jj.val = 7) := by omega
  have hc1 : ¬cond1 i := fun h => by have := (hcond1 i).mp h; omega
  have hc2 : cond2 i := (hcond2 i).mpr (by omega)
  have hc3 : ¬cond3 i := fun h => by have := (hcond3 i).mp h; omega
  have hc4 : cond4 i := (hcond4 i).mpr (by omega)
  have hc5 : ¬cond5 i := fun h => by have := (hcond5 i).mp h; omega
  have hc6 : cond6 i := (hcond6 i).mpr (by omega)
  have hc7 : ¬cond7 i := fun h => by have := (hcond7 i).mp h; omega
  have e0 : (step ii jj x y ⟨s0, s1, s2⟩).rowMin = k0_pay2 (k0_pay9 x y) s0 := by simp only [step, if_neg p1]
  have e1 : (step ii jj x y ⟨s0, s1, s2⟩).colMin = tileWrite jj (k0_pay4 (k0_pay10 x y) (tileRead jj s1)) s1 := by simp only [step, if_neg p3]
  have e2 : (step ii jj x y ⟨s0, s1, s2⟩).rowSum = k0_pay6 (s2) (k0_pay2 (k0_pay9 x y) s0) := by simp only [step, if_neg p1, if_neg p5, if_pos p6]
  have e3 : (if ii.val = 7 ∧ jj.val = 7 then outOf (step ii jj x y ⟨s0, s1, s2⟩) else o) = o := by
    rw [if_neg p7]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    exact hf2
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff2, load_whole (S := S1x4x512x2) arg3 harg3 z4, load_whole (S := S1x4x512x2) arg4 harg4 z4, load_tile scM1 _ jj hoff2]
  iexists _; isplitr
  swap; · iexact G2
  ipureintro
  sl_unfold_run_names; rw [store_whole (S := S4x1) _ _ z2, load_whole (S := S4x1) scM2 _ z2, View.readCov_cons_toLoadRect, load_whole (S := S1x4x512x2) arg3 harg3 z4, load_whole (S := S1x4x512x2) arg4 harg4 z4, load_whole (S := S4x512) scM0 _ z2]

end Cert.Kernel.Region

end
-- ==== Proof.KernelWords.BodyG.lean ====
import proofs.«153843_j48524540510941_1_alg».proof.Proof.KernelWords.BodyConds
import proofs.«153843_j48524540510941_1_alg».proof.Proof.KernelWords.ScratchIO
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_G (c : Dev nD) (i : grid0.Coords) (ii jj : Fin 8) (hii : ii.val = (i 1).val) (hjj : jj.val = (i 2).val) (hi : ii.val = 7) (hj : jj.val = 7)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (s0 : Vec F S4x512 .f32) (s1 : Vec F S4x4096 .f32) (s2 : Vec F S4x1 .f32) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare s0 ∗ owns (c : Thread nD τ) scM1 fullShare s1 ∗ owns (c : Thread nD τ) scM2 fullShare s2
        ∗ (iprop(owns (c : Thread nD τ) arg3 fullShare x ∗ owns (c : Thread nD τ) arg4 fullShare y
            ∗ owns (c : Thread nD τ) arg5 fullShare (if ii.val = 7 ∧ jj.val = 7 then outOf (step ii jj x y ⟨s0, s1, s2⟩) else o)
            ∗ owns (c : Thread nD τ) scM0 fullShare (step ii jj x y ⟨s0, s1, s2⟩).rowMin
            ∗ owns (c : Thread nD τ) scM1 fullShare (step ii jj x y ⟨s0, s1, s2⟩).colMin
            ∗ owns (c : Thread nD τ) scM2 fullShare (step ii jj x y ⟨s0, s1, s2⟩).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  have hoff1 : k0_off1 i = ![0, 512 * jj.val] := by rw [k0_off1_eq, hjj]
  have hoff2 : k0_off2 i = ![0, 512 * jj.val] := by rw [k0_off2_eq, hjj]
  have p1 : ¬(jj.val = 0) := by omega
  have p3 : ¬(ii.val = 0) := by omega
  have p5 : ¬(ii.val = 0 ∧ jj.val = 0) := by omega
  have p6 : (jj.val = 7) := by omega
  have p7 : (ii.val = 7 ∧ jj.val = 7) := by omega
  have hc1 : ¬cond1 i := fun h => by have := (hcond1 i).mp h; omega
  have hc2 : cond2 i := (hcond2 i).mpr (by omega)
  have hc3 : ¬cond3 i := fun h => by have := (hcond3 i).mp h; omega
  have hc4 : cond4 i := (hcond4 i).mpr (by omega)
  have hc5 : ¬cond5 i := fun h => by have := (hcond5 i).mp h; omega
  have hc6 : cond6 i := (hcond6 i).mpr (by omega)
  have hc7 : cond7 i := (hcond7 i).mpr (by omega)
  have e0 : (step ii jj x y ⟨s0, s1, s2⟩).rowMin = k0_pay2 (k0_pay9 x y) s0 := by simp only [step, if_neg p1]
  have e1 : (step ii jj x y ⟨s0, s1, s2⟩).colMin = tileWrite jj (k0_pay4 (k0_pay10 x y) (tileRead jj s1)) s1 := by simp only [step, if_neg p3]
  have e2 : (step ii jj x y ⟨s0, s1, s2⟩).rowSum = k0_pay6 (s2) (k0_pay2 (k0_pay9 x y) s0) := by simp only [step, if_neg p1, if_neg p5, if_pos p6]
  have e3 : (if ii.val = 7 ∧ jj.val = 7 then outOf (step ii jj x y ⟨s0, s1, s2⟩) else o) = k0_pay7 (k0_pay6 (s2) (k0_pay2 (k0_pay9 x y) s0)) (tileWrite jj (k0_pay4 (k0_pay10 x y) (tileRead jj s1)) s1) := by
    rw [if_pos p7]; unfold outOf; rw [e1, e2]
  rw [e3, e0, e1, e2]
  simp only [cc0__chamfer_kernel_eq_skeleton]; unfold cc0__chamfer_kernel_skel
  unfold owns
  iintro ⟨⟨%f0, %hf0, H0⟩, ⟨%f1, %hf1, H1⟩, ⟨%f2, %hf2, H2⟩, ⟨%g0, %hg0, G0⟩, ⟨%g1, %hg1, G1⟩, ⟨%g2, %hg2, G2⟩, Hk⟩
  obtain rfl := harg3.eq_unread hf0; obtain rfl := harg4.eq_unread hf1; obtain rfl := harg5.eq_unread hf2
  obtain rfl := (Memref.isWhole_whole cc0_scratch0).eq_unread hg0
  obtain rfl := (Memref.isWhole_whole cc0_scratch1).eq_unread hg1
  obtain rfl := (Memref.isWhole_whole cc0_scratch2).eq_unread hg2
  sl_exec (disch := first | exact hc1 | exact hc2 | exact hc3 | exact hc4 | exact hc5 | exact hc6 | exact hc7)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names; rw [store_whole (S := S1x4x1) _ _ z3, View.readCov_cons_toLoadRect, load_whole_stored_tile scM1 _ jj z2 hoff2, load_whole (S := S4x1) scM2 _ z2, View.readCov_cons_toLoadRect, load_whole (S := S1x4x512x2) arg3 harg3 z4, load_whole (S := S1x4x512x2) arg4 harg4 z4, load_whole (S := S4x512) scM0 _ z2, load_tile scM1 _ jj hoff2]
  isplitl [G0]
  · iexists _; isplitr
    swap; · iexact G0
    ipureintro
    sl_unfold_run_names; rw [store_whole (S := S4x512) _ _ z2, load_whole (S := S1x4x512x2) arg3 harg3 z4, load_whole (S := S1x4x512x2) arg4 harg4 z4, load_whole (S := S4x512) scM0 _ z2]
  isplitl [G1]
  · iexists _; isplitr
    swap; · iexact G1
    ipureintro
    sl_unfold_run_names; rw [store_tile scM1 _ jj hoff2, load_whole (S := S1x4x512x2) arg3 harg3 z4, load_whole (S := S1x4x512x2) arg4 harg4 z4, load_tile scM1 _ jj hoff2]
  iexists _; isplitr
  swap; · iexact G2
  ipureintro
  sl_unfold_run_names; rw [store_whole (S := S4x1) _ _ z2, load_whole (S := S4x1) scM2 _ z2, View.readCov_cons_toLoadRect, load_whole (S := S1x4x512x2) arg3 harg3 z4, load_whole (S := S1x4x512x2) arg4 harg4 z4, load_whole (S := S4x512) scM0 _ z2]

end Cert.Kernel.Region

end
-- ==== Proof.KernelWords.BodyStep.lean ====
import proofs.«153843_j48524540510941_1_alg».proof.Proof.KernelWords.BodyA
import proofs.«153843_j48524540510941_1_alg».proof.Proof.KernelWords.BodyB
import proofs.«153843_j48524540510941_1_alg».proof.Proof.KernelWords.BodyC
import proofs.«153843_j48524540510941_1_alg».proof.Proof.KernelWords.BodyD
import proofs.«153843_j48524540510941_1_alg».proof.Proof.KernelWords.BodyE
import proofs.«153843_j48524540510941_1_alg».proof.Proof.KernelWords.BodyF
import proofs.«153843_j48524540510941_1_alg».proof.Proof.KernelWords.BodyG
set_option maxRecDepth 16384

noncomputable section

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One grid point of the kernel body, run on whole buffers: it leaves the two input blocks in place, the three carried
    arrays at `step` of what they held, and the output block stored only at the last point of a pair.  The seven
    lemmas it is assembled from are the seven ways the body's branches can go on the [3, 8, 8] grid: first, middle or
    last column tile, against first or later row tile, the last row tile mattering only with the last column tile. -/
theorem body_step (c : Dev nD) (i : grid0.Coords) (ii jj : Fin 8) (hii : ii.val = (i 1).val) (hjj : jj.val = (i 2).val)
    (arg3 : Memref sig .tc .vmem S1x4x512x2 .f32) (harg3 : arg3.IsWhole) (arg4 : Memref sig .tc .vmem S1x4x512x2 .f32) (harg4 : arg4.IsWhole) (arg5 : Memref sig .tc .vmem S1x4x1 .f32) (harg5 : arg5.IsWhole)
    (x y : Vec F S1x4x512x2 .f32) (o : Vec F S1x4x1 .f32) (cr : Carry F) (E : Set ℕ) (K : PUnit → sProp 𝕄) :
    iprop(owns (c : Thread nD τ) arg3 fullShare x ∗ owns (c : Thread nD τ) arg4 fullShare y ∗ owns (c : Thread nD τ) arg5 fullShare o
        ∗ owns (c : Thread nD τ) scM0 fullShare cr.rowMin ∗ owns (c : Thread nD τ) scM1 fullShare cr.colMin ∗ owns (c : Thread nD τ) scM2 fullShare cr.rowSum
        ∗ (iprop(owns (c : Thread nD τ) arg3 fullShare x ∗ owns (c : Thread nD τ) arg4 fullShare y
            ∗ owns (c : Thread nD τ) arg5 fullShare (if ii.val = 7 ∧ jj.val = 7 then outOf (step ii jj x y cr) else o)
            ∗ owns (c : Thread nD τ) scM0 fullShare (step ii jj x y cr).rowMin
            ∗ owns (c : Thread nD τ) scM1 fullShare (step ii jj x y cr).colMin
            ∗ owns (c : Thread nD τ) scM2 fullShare (step ii jj x y cr).rowSum) -∗ K ⟨⟩))
      ⊢ wp frame (wpE (defs₀ (F := F)) Variants.none c none) E (cc0__chamfer_kernel i arg3 harg3 arg4 harg4 arg5 harg5 scM0 (Memref.isWhole_whole _) scM1 (Memref.isWhole_whole _) scM2 (Memref.isWhole_whole _)) K := by
  obtain ⟨s0, s1, s2⟩ := cr
  by_cases hi0 : ii.val = 0
  · by_cases hj0 : jj.val = 0
    · exact body_A c i ii jj hii hjj hi0 hj0 arg3 harg3 arg4 harg4 arg5 harg5 x y o s0 s1 s2 E K
    · by_cases hj7 : jj.val = 7
      · exact body_C c i ii jj hii hjj hi0 hj7 arg3 harg3 arg4 harg4 arg5 harg5 x y o s0 s1 s2 E K
      · exact body_B c i ii jj hii hjj hi0 hj0 hj7 arg3 harg3 arg4 harg4 arg5 harg5 x y o s0 s1 s2 E K
  · by_cases hj0 : jj.val = 0
    · exact body_D c i ii jj hii hjj hi0 hj0 arg3 harg3 arg4 harg4 arg5 harg5 x y o s0 s1 s2 E K
    · by_cases hj7 : jj.val = 7
      · by_cases hi7 : ii.val = 7
        · exact body_G c i ii jj hii hjj hi7 hj7 arg3 harg3 arg4 harg4 arg5 harg5 x y o s0 s1 s2 E K
        · exact body_F c i ii jj hii hjj hi0 hi7 hj7 arg3 harg3 arg4 harg4 arg5 harg5 x y o s0 s1 s2 E K
      · exact body_E c i ii jj hii hjj hi0 hj0 hj7 arg3 harg3 arg4 harg4 arg5 harg5 x y o s0 s1 s2 E K

end Cert.Kernel.Region

end
-- ==== Proof.KernelWords.RegionFacts.lean ====
/-
  Facts about the grid decided over its 192 points: a point's row tile and column tile, that the two input windows
  are live at every point, and that the output window is live — and written back — exactly at the last point of each pair.
-/
import proofs.«153843_j48524540510941_1_alg».proof.Proof.KernelWords.RegionKit

set_option maxRecDepth 16384

noncomputable section

namespace Cert.Kernel.Region

open Cert.Kernel Cert.Kernel.Gen
open Idealize.ShloMosaic Idealize.ShloMosaic.TcCoe
open Idealize.SL Idealize.SL.Sem

/-- Point t is at row tile (t / 8) mod 8 and column tile t mod 8. -/
theorem coords_facts : ∀ t : Fin cfg0.N,
    ((grid0.coords t) 1).val = t.val / 8 % 8 ∧ ((grid0.coords t) 2).val = t.val % 8 :=
  (by decide +kernel : ∀ t : Fin grid0.N, ((grid0.coords t) 1).val = t.val / 8 % 8 ∧ ((grid0.coords t) 2).val = t.val % 8)

/-- The input windows are never idle. -/
theorem liveAt0_0 : ∀ t : Fin cfg0.N, cfg0.idle 0 (grid0.coords t) = false :=
  (by decide +kernel : ∀ t : Fin grid0.N, cfg0.idle 0 (grid0.coords t) = false)
theorem liveAt0_1 : ∀ t : Fin cfg0.N, cfg0.idle 1 (grid0.coords t) = false :=
  (by decide +kernel : ∀ t : Fin grid0.N, cfg0.idle 1 (grid0.coords t) = false)

/-- The output window is idle away from the last point of a pair … -/
theorem idleAt0_2 : ∀ t : Fin cfg0.N, t.val % 64 ≠ 63 → cfg0.idle 2 (grid0.coords t) = true :=
  (by decide +kernel : ∀ t : Fin grid0.N, t.val % 64 ≠ 63 → cfg0.idle 2 (grid0.coords t) = true)
/-- … where it is not written back either … -/
theorem noFlush0_2 : ∀ t : Fin cfg0.N, t.val % 64 ≠ 63 → (cfg0.win 2).flush t = false :=
  (by decide +kernel : ∀ t : Fin grid0.N, t.val % 64 ≠ 63 → win0_2.flush t = false)
/-- … and live at the last point of a pair. -/
theorem liveAt0_2 : ∀ t : Fin cfg0.N, t.val % 64 = 63 → cfg0.idle 2 (grid0.coords t) = false :=
  (by decide +kernel : ∀ t : Fin grid0.N, t.val % 64 = 63 → cfg0.idle 2 (grid0.coords t) = false)

end Cert.Kernel.Region

end
-- ==== Proof.KernelWords.TileRunIndep.lean ====
/-
  The three carried arrays after the eighth grid point do not depend on what they held before the first: the first
  point overwrites the row minima and the row sum, and the first eight points (row tile 0, column tiles 0 … 7)
  overwrite the eight column tiles of the column minima one after the other.  From then on each point's result is a
  function of the arrays the previous point left.
-/
import proofs.«153843_j48524540510941_1_alg».proof.Proof.KernelWords.TileStep

noncomputable section

namespace Cert.Kernel.Tile

open Idealize.ShloMosaic Idealize.ShloMosaic.ValueIdx Cert.Kernel Cert.Kernel.Gen

variable {F : FTy → Type} [FloatOps F]

/-- Two carries with the same three arrays are equal. -/
theorem Carry.ext3 {c c' : Carry F} (h1 : c.rowMin = c'.rowMin) (h2 : c.colMin = c'.colMin)
    (h3 : c.rowSum = c'.rowSum) : c = c' := by
  cases c; cases c'; simp only [Carry.mk.injEq]; exact ⟨h1, h2, h3⟩

/-- Two carries agree up to column `m`: same row minima, same row sum, same column minima on the columns below `m`. -/
def Agree (m : ℕ) (c c' : Carry F) : Prop :=
  c.rowMin = c'.rowMin ∧ c.rowSum = c'.rowSum ∧ ∀ z : S4x4096.Idx, (z 1).val < m → c.colMin z = c'.colMin z

/-- A point of row tile 0 at column tile `j` extends the agreement by that column tile; at `j = 0` it needs no
    agreement on the row minima and the row sum, which it overwrites. -/
theorem step_agree (i j : Fin 8) (x y : Vec F S1x4x512x2 .f32) (c c' : Carry F) (hi : i.val = 0)
    (hrow : j.val = 0 ∨ (c.rowMin = c'.rowMin ∧ c.rowSum = c'.rowSum))
    (hcol : ∀ z : S4x4096.Idx, (z 1).val < 512 * j.val → c.colMin z = c'.colMin z) :
    Agree (512 * (j.val + 1)) (step i j x y c) (step i j x y c') := by
  have hrm : (step i j x y c).rowMin = (step i j x y c').rowMin := by
    simp only [step]
    by_cases hj : j.val = 0
    · rw [if_pos hj, if_pos hj]
    · rw [if_neg hj, if_neg hj, (hrow.resolve_left hj).1]
  refine ⟨hrm, ?_, ?_⟩
  · simp only [step] at hrm ⊢
    by_cases hj : j.val = 0
    · have h0 : i.val = 0 ∧ j.val = 0 := ⟨hi, hj⟩
      rw [if_pos h0, if_pos h0, hrm]
    · have h0 : ¬ (i.val = 0 ∧ j.val = 0) := fun h => hj h.2
      rw [if_neg h0, if_neg h0, hrm, (hrow.resolve_left hj).2]
  · intro z hz
    simp only [step]
    rw [if_pos hi, if_pos hi]
    unfold tileWrite
    by_cases h : 512 * j.val ≤ (z 1).val ∧ (z 1).val < 512 * j.val + 512
    · rw [dif_pos h, dif_pos h]
    · rw [dif_neg h, dif_neg h]; exact hcol z (by omega)

/-- After point `n ≤ 7` two runs agree up to column `512 (n + 1)`. -/
theorem run_agree (X Y : Vec F S3x4x4096x2 .f32) (c0 c0' : Carry F) :
    ∀ n, n ≤ 7 → Agree (512 * (n + 1)) (run X Y c0 n) (run X Y c0' n)
  | 0, _ => by
    have h := step_agree (rowOf 0) (colOf 0) (blk X (pairOf 0) (rowOf 0)) (blk Y (pairOf 0) (colOf 0)) c0 c0' rfl
      (Or.inl rfl) (fun z hz => absurd hz (by show ¬ (z 1).val < 512 * (0 % 8); omega))
    exact h
  | n + 1, hn => by
    have ih := run_agree X Y c0 c0' n (by omega)
    have hi : (rowOf (n + 1)).val = 0 := by show (n + 1) / 8 % 8 = 0; omega
    have hj : (colOf (n + 1)).val = n + 1 := by show (n + 1) % 8 = n + 1; omega
    have h := step_agree (rowOf (n + 1)) (colOf (n + 1)) (blk X (pairOf (n + 1)) (rowOf (n + 1)))
      (blk Y (pairOf (n + 1)) (colOf (n + 1))) (run X Y c0 n) (run X Y c0' n) hi (Or.inr ⟨ih.1, ih.2.1⟩)
      (fun z hz => ih.2.2 z (by rw [hj] at hz; exact hz))
    rw [hj] at h
    exact h

/-- After the eighth point the two runs hold the same arrays. -/
theorem run_eq7 (X Y : Vec F S3x4x4096x2 .f32) (c0 c0' : Carry F) : run X Y c0 7 = run X Y c0' 7 := by
  obtain ⟨h1, h2, h3⟩ := run_agree X Y c0 c0' 7 (le_refl _)
  exact Carry.ext3 h1 (funext fun z => h3 z (by have := idx2_lt1 z; omega)) h2

/-- From the eighth point on, what the arrays hold does not depend on their contents before the first point. -/
theorem run_indep (X Y : Vec F S3x4x4096x2 .f32) (c0 c0' : Carry F) (n : ℕ) (hn : 7 ≤ n) :
    run X Y c0 n = run X Y c0' n := by
  induction n, hn using Nat.le_induction with
  | base => exact run_eq7 X Y c0 c0'
  | succ n hn ih =>
    show step _ _ _ _ (run X Y c0 n) = step _ _ _ _ (run X Y c0' n)
    rw [ih]

end Cert.Kernel.Tile

end
-- ==== Proof.KernelWords.RegionRun.lean ====
/-
  The region's run. Between grid points the three scratch arrays hold what the sequence of points has left in them, from
  whatever they held before the first point; each point is one step of that sequence on the point's two input blocks;
  the output window's buffer is stored at the last point of each pair, with the output block of the sequence so far, and
  handed back untouched at every other point.
-/
import proofs.«153843_j48524540510941_1_alg».proof.Proof.KernelWords.BodyStep
import proofs.«153843_j48524540510941_1_alg».proof.Proof.KernelWords.RegionBlocks
import proofs.«153843_j48524540510941_1_alg».proof.Proof.KernelWords.RegionFacts
import proofs.«153843_j48524540510941_1_alg».proof.Proof.KernelWords.TileRunIndep

set_option maxRecDepth 16384

noncomputable section

namespace Cert.Kernel.Tile

open Idealize.ShloMosaic Cert.Kernel Cert.Kernel.Gen

variable {F : FTy → Type} [FloatOps F]

/-- The first point's result is its step from the initial contents. -/
theorem run_at_zero (X Y : Vec F S3x4x4096x2 .f32) (c0 : Carry F) (n : ℕ) (hz : n = 0) :
    run X Y c0 n = step (rowOf n) (colOf n) (blk X (pairOf n) (rowOf n)) (blk Y (pairOf n) (colOf n)) c0 := by
  subst hz; rfl

/-- A later point's result is its step from the previous point's. -/
theorem run_at_pos (X Y : Vec F S3x4x4096x2 .f32) (c0 : Carry F) (n : ℕ) (hz : n ≠ 0) :
    run X Y c0 n
      = step (rowOf n) (colOf n) (blk X (pairOf n) (rowOf n)) (blk Y (pairOf n) (colOf n)) (run X Y c0 (n - 1)) := by
  cases n with
  | zero => exact absurd rfl hz
  | succ k => rfl

end Cert.Kernel.Tile

namespace Cert.Kernel.Region

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Some fixed contents of the three carried arrays. -/
def junk : Carry F :=
  ⟨fun _ => k0_pay5 (F := F) (Shape.Idx.first h_S4x1), fun _ => k0_pay5 (F := F) (Shape.Idx.first h_S4x1), k0_pay5 (F := F)⟩

/-- The two stacked arrays the input windows stage, as the region finds them. -/
abbrev XX (c : Dev nD) : Vec F S3x4x4096x2 .f32 := V m c main_v3
abbrev YY (c : Dev nD) : Vec F S3x4x4096x2 .f32 := V m c main_v7

/-! ## The invariant between points -/

/-- Before the first point the scratch arrays hold anything; after point `n` they hold what the sequence of points
    leaves after `n`, from some contents before the first. -/
def PhiS (c : Dev nD) : (n : ℕ) → n ≤ cfg0.N → sProp 𝕄
  | 0, _ => Pipeline.ΦA spec0 c
  | n + 1, _ => iprop(iprop(∃ c0 : Carry F, owns (c : Thread nD τ) scM0 fullShare (run (XX m c) (YY m c) c0 n).rowMin
      ∗ owns (c : Thread nD τ) scM1 fullShare (run (XX m c) (YY m c) c0 n).colMin
      ∗ owns (c : Thread nD τ) scM2 fullShare (run (XX m c) (YY m c) c0 n).rowSum) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ c0 : Carry F, owns (c : Thread nD τ) scM0 fullShare (run (XX m c) (YY m c) c0 n).rowMin
      ∗ owns (c : Thread nD τ) scM1 fullShare (run (XX m c) (YY m c) c0 n).colMin
      ∗ owns (c : Thread nD τ) scM2 fullShare (run (XX m c) (YY m c) c0 n).rowSum) ∗ (∃ r, prngReg c r)) := rfl

theorem PhiS_pos (c : Dev nD) (n : ℕ) (h : n ≤ cfg0.N) (hz : n ≠ 0) :
    PhiS m c n h = iprop(iprop(∃ c0 : Carry F, owns (c : Thread nD τ) scM0 fullShare (run (XX m c) (YY m c) c0 (n - 1)).rowMin
      ∗ owns (c : Thread nD τ) scM1 fullShare (run (XX m c) (YY m c) c0 (n - 1)).colMin
      ∗ owns (c : Thread nD τ) scM2 fullShare (run (XX m c) (YY m c) c0 (n - 1)).rowSum) ∗ (∃ r, prngReg c r)) := by
  cases n with
  | zero => exact absurd rfl hz
  | succ n => rfl

/-! ## The pipeline's proof data -/

/-- After the body at point `t`: each input window's buffer at its block, the output window's at the output block of the
    sequence of points so far (from the fixed contents: from the eighth point on the contents before the first do not
    matter). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Tile.outOf (Tile.run (XX m c) (YY m c) junk t.val)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = Tile.outOf (Tile.run (XX m c) (YY m c) junk t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input windows' buffers hold their blocks; the invariant hands the body the three scratch
    arrays at what the previous point left (at anything at the first point) and takes them back one step further; the
    output window's buffer is stored at the last point of a pair and handed back as found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 192 := lt_of_lt_of_eq t.isLt (show cfg0.N = 192 from N_0)
  have hii : (rowOf t.val).val = ((grid0.coords t) 1).val := (coords_facts t).1.symm
  have hjj : (colOf t.val).val = ((grid0.coords t) 2).val := (coords_facts t).2.symm
  have hX0 := iblk0_eq m c t
  have hY0 := iblk1_eq m c t
  by_cases h63 : t.val % 64 = 63
  · have h77 : (rowOf t.val).val = 7 ∧ (colOf t.val).val = 7 :=
      ⟨by show t.val / 8 % 8 = 7; omega, by show t.val % 8 = 7; omega⟩
    have hz : t.val ≠ 0 := by omega
    rw [show (dats m 0 c).leavesExact 2 t = owns (c : Thread nD τ) (ms0_2 t) fullShare ((dats m 0 c).after 2 t) from by
      unfold Dat.leavesExact; rw [liveAt0_2 t h63], after0_2]
    · rw [PhiS_castSucc m c t, PhiS_pos m c _ _ hz]
      iintro ⟨⟨⟨%c0, HS0, HS1, HS2⟩, Hg⟩, Ho, ⟨%e0, H0⟩, ⟨%e1, H1⟩, ⟨%e2, H2⟩⟩
      iapply (body_step c (grid0.coords t) (rowOf t.val) (colOf t.val) hii hjj (ms0_0 t) (hs0_0 t) (ms0_1 t) (hs0_1 t) (ms0_2 t) (hs0_2 t)
        (iblk m c 0 t) (iblk m c 1 t) _ (run (XX m c) (YY m c) c0 (t.val - 1)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      rw [if_pos h77]
      have hrun : step (rowOf t.val) (colOf t.val) (iblk m c 0 t) (iblk m c 1 t) (run (XX m c) (YY m c) c0 (t.val - 1))
          = run (XX m c) (YY m c) c0 t.val := by
        rw [hX0, hY0]; exact (run_at_pos (XX m c) (YY m c) c0 t.val hz).symm
      rw [hrun]
      isplitl [HS0 HS1 HS2 Hg]
      · isplitl [HS0 HS1 HS2]
        · iexists c0
          isplitl [HS0]; · iexact HS0
          isplitl [HS1]; · iexact HS1
          iexact HS2
        iexact Hg
      isplitl [Ho]; · iexact Ho
      isplitl [H0]; · iexact H0
      isplitl [H1]; · iexact H1
      rw [run_indep (XX m c) (YY m c) c0 junk t.val (by omega)]
      iexact H2
  · have h77 : ¬ ((rowOf t.val).val = 7 ∧ (colOf t.val).val = 7) := by
      rintro ⟨h1, h2⟩
      have h1' : t.val / 8 % 8 = 7 := h1
      have h2' : t.val % 8 = 7 := h2
      omega
    rw [Dat.leavesExact_idle (dats m 0 c) 2 t (idleAt0_2 t h63) (noFlush0_2 t h63)]
    by_cases hz : t.val = 0
    · rw [PhiS_castSucc m c t, PhiS_zero m c _ _ hz, PhiA0_eq]
      iintro ⟨⟨⟨⟨%d0, HS0⟩, ⟨%d1, HS1⟩, ⟨%d2, HS2⟩⟩, Hg⟩, Ho, ⟨%e0, H0⟩, ⟨%e1, H1⟩, ⟨%e2, H2⟩⟩
      iapply (body_step c (grid0.coords t) (rowOf t.val) (colOf t.val) hii hjj (ms0_0 t) (hs0_0 t) (ms0_1 t) (hs0_1 t) (ms0_2 t) (hs0_2 t)
        (iblk m c 0 t) (iblk m c 1 t) _ (⟨d0, d1, d2⟩ : Carry F) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      rw [if_neg h77]
      have hrun : step (rowOf t.val) (colOf t.val) (iblk m c 0 t) (iblk m c 1 t) (⟨d0, d1, d2⟩ : Carry F)
          = run (XX m c) (YY m c) (⟨d0, d1, d2⟩ : Carry F) t.val := by
        rw [hX0, hY0]; exact (run_at_zero (XX m c) (YY m c) _ t.val hz).symm
      rw [hrun]
      isplitl [HS0 HS1 HS2 Hg]
      · isplitl [HS0 HS1 HS2]
        · iexists (⟨d0, d1, d2⟩ : Carry F)
          isplitl [HS0]; · iexact HS0
          isplitl [HS1]; · iexact HS1
          iexact HS2
        iexact Hg
      isplitl [Ho]; · iexact Ho
      isplitl [H0]; · iexact H0
      isplitl [H1]; · iexact H1
      iexists _; iexact H2
    · rw [PhiS_castSucc m c t, PhiS_pos m c _ _ hz]
      iintro ⟨⟨⟨%c0, HS0, HS1, HS2⟩, Hg⟩, Ho, ⟨%e0, H0⟩, ⟨%e1, H1⟩, ⟨%e2, H2⟩⟩
      iapply (body_step c (grid0.coords t) (rowOf t.val) (colOf t.val) hii hjj (ms0_0 t) (hs0_0 t) (ms0_1 t) (hs0_1 t) (ms0_2 t) (hs0_2 t)
        (iblk m c 0 t) (iblk m c 1 t) _ (run (XX m c) (YY m c) c0 (t.val - 1)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      rw [if_neg h77]
      have hrun : step (rowOf t.val) (colOf t.val) (iblk m c 0 t) (iblk m c 1 t) (run (XX m c) (YY m c) c0 (t.val - 1))
          = run (XX m c) (YY m c) c0 t.val := by
        rw [hX0, hY0]; exact (run_at_pos (XX m c) (YY m c) c0 t.val hz).symm
      rw [hrun]
      isplitl [HS0 HS1 HS2 Hg]
      · isplitl [HS0 HS1 HS2]
        · iexists c0
          isplitl [HS0]; · iexact HS0
          isplitl [HS1]; · iexact HS1
          iexact HS2
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch arrays back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%c0, HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 192 := N_0; omega)

/-! ## The run -/

set_option backward.isDefEq.respectTransparency.types false in
/-- Every weakly fair execution of @main terminates, with every array of the pipeline at what the library computes from
    the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Region

end
-- ==== Proof.KernelWords.Frame.lean ====
/-
  The frame statement of the program read over machine words, from a run of it to the region's post.
-/
import proofs.«153843_j48524540510941_1_alg».proof.Defs
import proofs.«153843_j48524540510941_1_alg».proof.Proof.Gen.Kernel
import proofs.«153843_j48524540510941_1_alg».proof.Proof.Gen.Pre_finite_inputs
import proofs.«153843_j48524540510941_1_alg».proof.Proof.KernelWords.RegionFrameOf
import proofs.«153843_j48524540510941_1_alg».proof.Proof.KernelWords.RegionRun

noncomputable section

namespace Cert.Kernel.Region

open Cert.Kernel Cert.Kernel.Gen
open Idealize.ShloMosaic Idealize.ShloMosaic.TcCoe
open Idealize.SL Idealize.SL.Sem
open Idealize.ShloMosaic.Pipeline (Dat)

/-- The program runs and leaves its arguments as they were, given a run to the region's post from every launch memory. -/
theorem frame_p_of
    (dats : (m : (ℓ : Loc nD τ sig) → Buf (Elt Bits) ℓ) → (p : Fin 1) → (c : Dev nD) → Dat τ (Elt Bits) Unit ℕ (UR sig nD τ) ℕ (cfgs p) c)
    (hrun : ∀ (m : (ℓ : Loc nD τ sig) → Buf (Elt Bits) ℓ) (ρ : Dev nD → PrngReg),
      θ_run defs (onTc (τ := τ) (main (F := Bits))) (s₀ m ρ)
        (Pipeline.FramePost cfgs (dats m) 0 (Pipeline.afterTail₀ cfgs (dats m) 0 (V0 m) [hostOps1]))) :
    Cert.frame_Kernel := fun m ρ _ => frame_of m ρ (dats m) (hrun m ρ)

/-- The program read over machine words runs and leaves its arguments as they were. -/
theorem frame_p : Cert.frame_Kernel := frame_p_of (fun m => dats m) (fun m ρ => run_main m ρ)

end Cert.Kernel.Region

end
-- ==== Proof.lean ====
/-
  Both programs compute the Chamfer loss of three sets of 4096 planar points per batch entry: for each of the pairs
  (1,2), (1,3), (2,3) the matrix of pairwise distances sqrt(max(|a|² + |b|² - 2 a·b, 0)), each point's least distance
  to the other set, half the sum of the two means of those least distances, and the mean over the pairs of one minus it.
  The reference takes the minima and the means over whole rows and columns of the distance matrix; the kernel visits
  the matrix in 8 × 8 tiles of 512 × 512 entries, keeps running minima per row and per column and a running sum of
  finished row minima, and forms the pair's value at its last tile. Over the extended reals the two agree entry by entry
  because min and + are commutative and associative — a minimum or a sum over 4096 entries is the minimum or the sum of
  its eight tiles' — and x / 2 is x · ½; no finiteness of the inputs is used.
-/
import proofs.«153843_j48524540510941_1_alg».proof.Defs
import proofs.«153843_j48524540510941_1_alg».proof.Proof.Gen.Kernel
import proofs.«153843_j48524540510941_1_alg».proof.Proof.Gen.Kernel.Skeleton
import proofs.«153843_j48524540510941_1_alg».proof.Proof.Gen.Kernel.Launch
import proofs.«153843_j48524540510941_1_alg».proof.Proof.Gen.Kernel.Points
import proofs.«153843_j48524540510941_1_alg».proof.Proof.Gen.KernelIdeal
import proofs.«153843_j48524540510941_1_alg».proof.Proof.Gen.KernelIdeal.Skeleton
import proofs.«153843_j48524540510941_1_alg».proof.Proof.Gen.KernelIdeal.Launch
import proofs.«153843_j48524540510941_1_alg».proof.Proof.Gen.KernelIdeal.Points
import proofs.«153843_j48524540510941_1_alg».proof.Proof.Gen.ReferenceIdeal
import proofs.«153843_j48524540510941_1_alg».proof.Proof.Gen.Pre_finite_inputs
import Idealize.ShloMosaic.Adequacy
import Idealize.ShloMosaic.Init
import proofs.«153843_j48524540510941_1_alg».proof.Proof.KernelValue
import proofs.«153843_j48524540510941_1_alg».proof.Proof.RefRun
import proofs.«153843_j48524540510941_1_alg».proof.Proof.RegionFrame
import proofs.«153843_j48524540510941_1_alg».proof.Proof.KernelWords.Frame
import proofs.«153843_j48524540510941_1_alg».proof.Proof.KernelWords.RegionRun

noncomputable section

namespace Cert.Proof

open Idealize.ShloMosaic Idealize.ShloMosaic.TcCoe Idealize.SL.Sem

/-- The kernel's program over machine words runs and leaves its arguments as they were. -/
theorem frame_p : Cert.frame_Kernel :=
  Cert.Kernel.Region.frame_p_of (fun m => Cert.Kernel.Region.dats m) (fun m ρ => Cert.Kernel.Region.run_main m ρ)

/-- So does the kernel's program over the extended reals. -/
theorem frame_pi : Cert.frame_KernelIdeal :=
  Cert.KernelIdeal.Region.frame_pi_of (fun m => Cert.KernelIdeal.Region.dats m)
    (fun m ρ => Cert.KernelIdeal.Region.run_main m ρ)

/-- And the reference. -/
theorem frame_ri : Cert.frame_ReferenceIdeal := Cert.ReferenceIdeal.RefRun.frame_ri

/-- Over the extended reals both programs end with the Chamfer loss of their arguments in their results, so from
    arguments that agree they end with equal results. -/
theorem algebraic : Cert.algebraic_KernelIdeal_ReferenceIdeal := fun m ρ m' ρ' _ hagree =>
  ⟨fun c => Cert.Chamfer.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Region.kernel_run m ρ,
    (θ_run Cert.ReferenceIdeal.defs _ _).mono
      (fun _ h c => ⟨by rw [(h c).1, (hagree c).1, (hagree c).2.1, (hagree c).2.2], (h c).2⟩)
      (Cert.ReferenceIdeal.RefRun.ref_run m' ρ')⟩

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
